-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x192x192 : Shape := ⟨4, ![16, 64, 192, 192]⟩
abbrev S_ : Shape := ⟨0, ![]⟩

class Facts : Prop where
  bcast_S_S16x64x192x192 : S_.BroadcastsInDim S16x64x192x192 (![] : Fin 0 → Fin S16x64x192x192.rank)
  reducesTo_S16x64x192x192_S_d0_1_2_3 : S16x64x192x192.ReducesTo [0, 1, 2, 3] S_
  h_S_ : 0 < S_.numel

variable [Facts]

def fn {F : FTy → Type} [FloatOps F] (main_arg0 : FVec F S16x64x192x192 .f32) : IVec S_ 1 :=
  let main_v0 : FVec F S16x64x192x192 .f32 := Host.absf main_arg0
  let main_cst : FVec F S_ .f32 := constant S_ .f32 0x7F800000#32
  let main_v1 : FVec F S16x64x192x192 .f32 := broadcastInDim S16x64x192x192 ![] bcast_S_S16x64x192x192 main_cst
  let main_v2 : IVec S16x64x192x192 1 := cmpf .olt main_v0 main_v1
  let main_c : IVec S_ 1 := constantI S_ 1 1#1
  let main_v3 : IVec S_ 1 := (fun x v => Host.reduce IntOp.andi x v reducesTo_S16x64x192x192_S_d0_1_2_3 h_S_) main_v2 main_c
  main_v3
-- ==== Kernel.lean ====
abbrev S16x64x192x192 : Shape := ⟨4, ![16, 64, 192, 192]⟩
abbrev S16x16x192x192 : Shape := ⟨4, ![16, 16, 192, 192]⟩
abbrev S1x16x192x192 : Shape := ⟨4, ![1, 16, 192, 192]⟩
abbrev S192x96 : Shape := ⟨2, ![192, 96]⟩
abbrev S96x192 : Shape := ⟨2, ![96, 192]⟩
abbrev S3072x192 : Shape := ⟨2, ![3072, 192]⟩
abbrev S3072x96 : Shape := ⟨2, ![3072, 96]⟩
abbrev S16x192x96 : Shape := ⟨3, ![16, 192, 96]⟩
abbrev S16x96x192 : Shape := ⟨3, ![16, 96, 192]⟩
abbrev S1536x192 : Shape := ⟨2, ![1536, 192]⟩
abbrev S1536x96 : Shape := ⟨2, ![1536, 96]⟩
abbrev S16x96x96 : Shape := ⟨3, ![16, 96, 96]⟩
abbrev S192x48 : Shape := ⟨2, ![192, 48]⟩
abbrev S48x192 : Shape := ⟨2, ![48, 192]⟩
abbrev S3072x48 : Shape := ⟨2, ![3072, 48]⟩
abbrev S16x192x48 : Shape := ⟨3, ![16, 192, 48]⟩
abbrev S16x48x192 : Shape := ⟨3, ![16, 48, 192]⟩
abbrev S768x192 : Shape := ⟨2, ![768, 192]⟩
abbrev S768x48 : Shape := ⟨2, ![768, 48]⟩
abbrev S16x48x48 : Shape := ⟨3, ![16, 48, 48]⟩
abbrev S16x8x192x192 : Shape := ⟨4, ![16, 8, 192, 192]⟩
abbrev S1x8x192x192 : Shape := ⟨4, ![1, 8, 192, 192]⟩
abbrev S192x24 : Shape := ⟨2, ![192, 24]⟩
abbrev S24x192 : Shape := ⟨2, ![24, 192]⟩
abbrev S1536x24 : Shape := ⟨2, ![1536, 24]⟩
abbrev S8x192x24 : Shape := ⟨3, ![8, 192, 24]⟩
abbrev S8x24x192 : Shape := ⟨3, ![8, 24, 192]⟩
abbrev S192x192 : Shape := ⟨2, ![192, 192]⟩
abbrev S8x24x24 : Shape := ⟨3, ![8, 24, 24]⟩

abbrev nBuf : Space → Nat
  | .hbm => 11
  | .vmem => 16
  | .smem => 0
  | _ => 0

abbrev bufTy : (tb : Table) → Fin (tcTables nBuf tb) → BufTy
  | .hbm, ⟨0, _⟩ => ⟨S16x64x192x192, .f32⟩
  | .hbm, ⟨1, _⟩ => ⟨S16x16x192x192, .f32⟩
  | .hbm, ⟨2, _⟩ => ⟨S16x16x192x192, .f32⟩
  | .hbm, ⟨3, _⟩ => ⟨S16x16x192x192, .f32⟩
  | .hbm, ⟨4, _⟩ => ⟨S16x16x192x192, .f32⟩
  | .hbm, ⟨5, _⟩ => ⟨S16x16x192x192, .f32⟩
  | .hbm, ⟨6, _⟩ => ⟨S16x16x192x192, .f32⟩
  | .hbm, ⟨7, _⟩ => ⟨S16x8x192x192, .f32⟩
  | .hbm, ⟨8, _⟩ => ⟨S16x8x192x192, .f32⟩
  | .hbm, ⟨9, _⟩ => ⟨S16x8x192x192, .f32⟩
  | .hbm, ⟨10, _⟩ => ⟨S16x64x192x192, .f32⟩
  | .local _ .vmem, ⟨0, _⟩ => ⟨S1x16x192x192, .f32⟩
  | .local _ .vmem, ⟨1, _⟩ => ⟨S1x16x192x192, .f32⟩
  | .local _ .vmem, ⟨2, _⟩ => ⟨S1x16x192x192, .f32⟩
  | .local _ .vmem, ⟨3, _⟩ => ⟨S1x16x192x192, .f32⟩
  | .local _ .vmem, ⟨4, _⟩ => ⟨S1x16x192x192, .f32⟩
  | .local _ .vmem, ⟨5, _⟩ => ⟨S1x16x192x192, .f32⟩
  | .local _ .vmem, ⟨6, _⟩ => ⟨S1x16x192x192, .f32⟩
  | .local _ .vmem, ⟨7, _⟩ => ⟨S1x16x192x192, .f32⟩
  | .local _ .vmem, ⟨8, _⟩ => ⟨S1x16x192x192, .f32⟩
  | .local _ .vmem, ⟨9, _⟩ => ⟨S1x16x192x192, .f32⟩
  | .local _ .vmem, ⟨10, _⟩ => ⟨S1x16x192x192, .f32⟩
  | .local _ .vmem, ⟨11, _⟩ => ⟨S1x16x192x192, .f32⟩
  | .local _ .vmem, ⟨12, _⟩ => ⟨S1x8x192x192, .f32⟩
  | .local _ .vmem, ⟨13, _⟩ => ⟨S1x8x192x192, .f32⟩
  | .local _ .vmem, ⟨14, _⟩ => ⟨S1x8x192x192, .f32⟩
  | .local _ .vmem, ⟨15, _⟩ => ⟨S1x8x192x192, .f32⟩
  | _, _ => ⟨S16x64x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x192x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x192x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x16x192x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x192x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x8x192x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x8x192x192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S16x64x192x192_S16x16x192x192_0_0_0_0 : S16x64x192x192.Slices ![0, 0, 0, 0] S16x16x192x192
  inb_S1x16x192x192_S1x16x192x192_0_0_0_0 : ∀ a, (![0, 0, 0, 0] : Fin 4 → Nat) a + S1x16x192x192.size a ≤ S1x16x192x192.size a
  h_S1x16x192x192 : 0 < S1x16x192x192.numel
  shapeCasts_S1x16x192x192_S1x16x192x192 : S1x16x192x192.ShapeCasts S1x16x192x192
  slices_S16x64x192x192_S16x16x192x192_0_16_0_0 : S16x64x192x192.Slices ![0, 16, 0, 0] S16x16x192x192
  iota_S192x96_d0_w32 : S192x96.Iotas .tc 32 [0]
  iota_S192x96_d1_w32 : S192x96.Iotas .tc 32 [1]
  natLt_1_32 : 1 < 32
  iota_S96x192_d1_w32 : S96x192.Iotas .tc 32 [1]
  iota_S96x192_d0_w32 : S96x192.Iotas .tc 32 [0]
  shapeCasts_S1x16x192x192_S3072x192 : S1x16x192x192.ShapeCasts S3072x192
  shapeCasts_S3072x96_S16x192x96 : S3072x96.ShapeCasts S16x192x96
  transposes_S16x192x96_p0_2_1_S16x96x192 : S16x192x96.Transposes [0, 2, 1] S16x96x192
  shapeCasts_S16x96x192_S1536x192 : S16x96x192.ShapeCasts S1536x192
  shapeCasts_S1536x96_S16x96x96 : S1536x96.ShapeCasts S16x96x96
  shapeCasts_S16x96x96_S1536x96 : S16x96x96.ShapeCasts S1536x96
  shapeCasts_S1536x192_S16x96x192 : S1536x192.ShapeCasts S16x96x192
  transposes_S16x96x192_p0_2_1_S16x192x96 : S16x96x192.Transposes [0, 2, 1] S16x192x96
  shapeCasts_S16x192x96_S3072x96 : S16x192x96.ShapeCasts S3072x96
  shapeCasts_S3072x192_S1x16x192x192 : S3072x192.ShapeCasts S1x16x192x192
  slices_S16x64x192x192_S16x16x192x192_0_32_0_0 : S16x64x192x192.Slices ![0, 32, 0, 0] S16x16x192x192
  iota_S192x48_d0_w32 : S192x48.Iotas .tc 32 [0]
  iota_S192x48_d1_w32 : S192x48.Iotas .tc 32 [1]
  iota_S48x192_d1_w32 : S48x192.Iotas .tc 32 [1]
  iota_S48x192_d0_w32 : S48x192.Iotas .tc 32 [0]
  shapeCasts_S3072x48_S16x192x48 : S3072x48.ShapeCasts S16x192x48
  transposes_S16x192x48_p0_2_1_S16x48x192 : S16x192x48.Transposes [0, 2, 1] S16x48x192
  shapeCasts_S16x48x192_S768x192 : S16x48x192.ShapeCasts S768x192
  shapeCasts_S768x48_S16x48x48 : S768x48.ShapeCasts S16x48x48
  shapeCasts_S16x48x48_S768x48 : S16x48x48.ShapeCasts S768x48
  shapeCasts_S768x192_S16x48x192 : S768x192.ShapeCasts S16x48x192
  transposes_S16x48x192_p0_2_1_S16x192x48 : S16x48x192.Transposes [0, 2, 1] S16x192x48
  shapeCasts_S16x192x48_S3072x48 : S16x192x48.ShapeCasts S3072x48
  slices_S16x64x192x192_S16x8x192x192_0_48_0_0 : S16x64x192x192.Slices ![0, 48, 0, 0] S16x8x192x192
  inb_S1x8x192x192_S1x8x192x192_0_0_0_0 : ∀ a, (![0, 0, 0, 0] : Fin 4 → Nat) a + S1x8x192x192.size a ≤ S1x8x192x192.size a
  h_S1x8x192x192 : 0 < S1x8x192x192.numel
  shapeCasts_S1x8x192x192_S1x8x192x192 : S1x8x192x192.ShapeCasts S1x8x192x192
  iota_S192x24_d0_w32 : S192x24.Iotas .tc 32 [0]
  iota_S192x24_d1_w32 : S192x24.Iotas .tc 32 [1]
  iota_S24x192_d1_w32 : S24x192.Iotas .tc 32 [1]
  iota_S24x192_d0_w32 : S24x192.Iotas .tc 32 [0]
  shapeCasts_S1x8x192x192_S1536x192 : S1x8x192x192.ShapeCasts S1536x192
  shapeCasts_S1536x24_S8x192x24 : S1536x24.ShapeCasts S8x192x24
  transposes_S8x192x24_p0_2_1_S8x24x192 : S8x192x24.Transposes [0, 2, 1] S8x24x192
  shapeCasts_S8x24x192_S192x192 : S8x24x192.ShapeCasts S192x192
  shapeCasts_S192x24_S8x24x24 : S192x24.ShapeCasts S8x24x24
  shapeCasts_S8x24x24_S192x24 : S8x24x24.ShapeCasts S192x24
  shapeCasts_S192x192_S8x24x192 : S192x192.ShapeCasts S8x24x192
  transposes_S8x24x192_p0_2_1_S8x192x24 : S8x24x192.Transposes [0, 2, 1] S8x192x24
  shapeCasts_S8x192x24_S1536x24 : S8x192x24.ShapeCasts S1536x24
  shapeCasts_S1536x192_S1x8x192x192 : S1536x192.ShapeCasts S1x8x192x192
  slices_S16x64x192x192_S16x8x192x192_0_56_0_0 : S16x64x192x192.Slices ![0, 56, 0, 0] S16x8x192x192
  concatenates_S16x16x192x192_S16x16x192x192_S16x16x192x192_S16x8x192x192_S16x8x192x192_S16x64x192x192_d1 : Shape.Concatenates [S16x16x192x192, S16x16x192x192, S16x16x192x192, S16x8x192x192, S16x8x192x192] S16x64x192x192 1
  dot_S3072x192_S192x96_S3072x96_1_0_0_1_n_n_wf : DotDims.WF S3072x192 S192x96 S3072x96 [1] [0] [0] [1] [] []
  dot_S1536x192_S192x96_S1536x96_1_0_0_1_n_n_wf : DotDims.WF S1536x192 S192x96 S1536x96 [1] [0] [0] [1] [] []
  dot_S1536x96_S96x192_S1536x192_1_0_0_1_n_n_wf : DotDims.WF S1536x96 S96x192 S1536x192 [1] [0] [0] [1] [] []
  dot_S3072x96_S96x192_S3072x192_1_0_0_1_n_n_wf : DotDims.WF S3072x96 S96x192 S3072x192 [1] [0] [0] [1] [] []
  dot_S3072x192_S192x48_S3072x48_1_0_0_1_n_n_wf : DotDims.WF S3072x192 S192x48 S3072x48 [1] [0] [0] [1] [] []
  dot_S768x192_S192x48_S768x48_1_0_0_1_n_n_wf : DotDims.WF S768x192 S192x48 S768x48 [1] [0] [0] [1] [] []
  dot_S768x48_S48x192_S768x192_1_0_0_1_n_n_wf : DotDims.WF S768x48 S48x192 S768x192 [1] [0] [0] [1] [] []
  dot_S3072x48_S48x192_S3072x192_1_0_0_1_n_n_wf : DotDims.WF S3072x48 S48x192 S3072x192 [1] [0] [0] [1] [] []
  dot_S1536x192_S192x24_S1536x24_1_0_0_1_n_n_wf : DotDims.WF S1536x192 S192x24 S1536x24 [1] [0] [0] [1] [] []
  dot_S192x192_S192x24_S192x24_1_0_0_1_n_n_wf : DotDims.WF S192x192 S192x24 S192x24 [1] [0] [0] [1] [] []
  dot_S192x24_S24x192_S192x192_1_0_0_1_n_n_wf : DotDims.WF S192x24 S24x192 S192x192 [1] [0] [0] [1] [] []
  dot_S1536x24_S24x192_S1536x192_1_0_0_1_n_n_wf : DotDims.WF S1536x24 S24x192 S1536x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x192x192.size a ≤ S16x16x192x192.size a
  hwx0_0 : ∀ i : grid0.Coords, EltTy.bits .f32 = 32 ∨ (Rect.block (s := S16x16x192x192) S1x16x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x192x192.size a ≤ S16x16x192x192.size a
  hwx0_1 : ∀ i : grid0.Coords, EltTy.bits .f32 = 32 ∨ (Rect.block (s := S16x16x192x192) S1x16x192x192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x192x192.size a ≤ S16x16x192x192.size a
  hwx1_0 : ∀ i : grid1.Coords, EltTy.bits .f32 = 32 ∨ (Rect.block (s := S16x16x192x192) S1x16x192x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x192x192.size a ≤ S16x16x192x192.size a
  hwx1_1 : ∀ i : grid1.Coords, EltTy.bits .f32 = 32 ∨ (Rect.block (s := S16x16x192x192) S1x16x192x192.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x192x192.size a ≤ S16x16x192x192.size a
  hwx2_0 : ∀ i : grid2.Coords, EltTy.bits .f32 = 32 ∨ (Rect.block (s := S16x16x192x192) S1x16x192x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x192x192.size a ≤ S16x16x192x192.size a
  hwx2_1 : ∀ i : grid2.Coords, EltTy.bits .f32 = 32 ∨ (Rect.block (s := S16x16x192x192) S1x16x192x192.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8x192x192.size a ≤ S16x8x192x192.size a
  hwx3_0 : ∀ i : grid3.Coords, EltTy.bits .f32 = 32 ∨ (Rect.block (s := S16x8x192x192) S1x8x192x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8x192x192.size a ≤ S16x8x192x192.size a
  hwx3_1 : ∀ i : grid3.Coords, EltTy.bits .f32 = 32 ∨ (Rect.block (s := S16x8x192x192) S1x8x192x192.size (cc3_transform_1 i) (hinb3_1 i)).WholeWords (EltTy.packing .f32)

variable [Facts₀]

def dot_S3072x192_S192x96_S3072x96_1_0_0_1_n_n : DotDims S3072x192 S192x96 S3072x96 where
  lhsContracting := [1]
  rhsContracting := [0]
  lhsNonContracting := [0]
  rhsNonContracting := [1]
  lhsBatch := []
  rhsBatch := []
  wf := dot_S3072x192_S192x96_S3072x96_1_0_0_1_n_n_wf
def dot_S1536x192_S192x96_S1536x96_1_0_0_1_n_n : DotDims S1536x192 S192x96 S1536x96 where
  lhsContracting := [1]
  rhsContracting := [0]
  lhsNonContracting := [0]
  rhsNonContracting := [1]
  lhsBatch := []
  rhsBatch := []
  wf := dot_S1536x192_S192x96_S1536x96_1_0_0_1_n_n_wf
def dot_S1536x96_S96x192_S1536x192_1_0_0_1_n_n : DotDims S1536x96 S96x192 S1536x192 where
  lhsContracting := [1]
  rhsContracting := [0]
  lhsNonContracting := [0]
  rhsNonContracting := [1]
  lhsBatch := []
  rhsBatch := []
  wf := dot_S1536x96_S96x192_S1536x192_1_0_0_1_n_n_wf
def dot_S3072x96_S96x192_S3072x192_1_0_0_1_n_n : DotDims S3072x96 S96x192 S3072x192 where
  lhsContracting := [1]
  rhsContracting := [0]
  lhsNonContracting := [0]
  rhsNonContracting := [1]
  lhsBatch := []
  rhsBatch := []
  wf := dot_S3072x96_S96x192_S3072x192_1_0_0_1_n_n_wf
def dot_S3072x192_S192x48_S3072x48_1_0_0_1_n_n : DotDims S3072x192 S192x48 S3072x48 where
  lhsContracting := [1]
  rhsContracting := [0]
  lhsNonContracting := [0]
  rhsNonContracting := [1]
  lhsBatch := []
  rhsBatch := []
  wf := dot_S3072x192_S192x48_S3072x48_1_0_0_1_n_n_wf
def dot_S768x192_S192x48_S768x48_1_0_0_1_n_n : DotDims S768x192 S192x48 S768x48 where
  lhsContracting := [1]
  rhsContracting := [0]
  lhsNonContracting := [0]
  rhsNonContracting := [1]
  lhsBatch := []
  rhsBatch := []
  wf := dot_S768x192_S192x48_S768x48_1_0_0_1_n_n_wf
def dot_S768x48_S48x192_S768x192_1_0_0_1_n_n : DotDims S768x48 S48x192 S768x192 where
  lhsContracting := [1]
  rhsContracting := [0]
  lhsNonContracting := [0]
  rhsNonContracting := [1]
  lhsBatch := []
  rhsBatch := []
  wf := dot_S768x48_S48x192_S768x192_1_0_0_1_n_n_wf
def dot_S3072x48_S48x192_S3072x192_1_0_0_1_n_n : DotDims S3072x48 S48x192 S3072x192 where
  lhsContracting := [1]
  rhsContracting := [0]
  lhsNonContracting := [0]
  rhsNonContracting := [1]
  lhsBatch := []
  rhsBatch := []
  wf := dot_S3072x48_S48x192_S3072x192_1_0_0_1_n_n_wf
def dot_S1536x192_S192x24_S1536x24_1_0_0_1_n_n : DotDims S1536x192 S192x24 S1536x24 where
  lhsContracting := [1]
  rhsContracting := [0]
  lhsNonContracting := [0]
  rhsNonContracting := [1]
  lhsBatch := []
  rhsBatch := []
  wf := dot_S1536x192_S192x24_S1536x24_1_0_0_1_n_n_wf
def dot_S192x192_S192x24_S192x24_1_0_0_1_n_n : DotDims S192x192 S192x24 S192x24 where
  lhsContracting := [1]
  rhsContracting := [0]
  lhsNonContracting := [0]
  rhsNonContracting := [1]
  lhsBatch := []
  rhsBatch := []
  wf := dot_S192x192_S192x24_S192x24_1_0_0_1_n_n_wf
def dot_S192x24_S24x192_S192x192_1_0_0_1_n_n : DotDims S192x24 S24x192 S192x192 where
  lhsContracting := [1]
  rhsContracting := [0]
  lhsNonContracting := [0]
  rhsNonContracting := [1]
  lhsBatch := []
  rhsBatch := []
  wf := dot_S192x24_S24x192_S192x192_1_0_0_1_n_n_wf
def dot_S1536x24_S24x192_S1536x192_1_0_0_1_n_n : DotDims S1536x24 S24x192 S1536x192 where
  lhsContracting := [1]
  rhsContracting := [0]
  lhsNonContracting := [0]
  rhsNonContracting := [1]
  lhsBatch := []
  rhsBatch := []
  wf := dot_S1536x24_S24x192_S1536x192_1_0_0_1_n_n_wf

abbrev win0_0 : Pipeline.Window sig grid0 :=
  Pipeline.Window.ofSpec (Memref.whole main_v0) S1x16x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x192x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x16x192x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x16x192x192.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S1x16x192x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x16x192x192.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6) S1x8x192x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1x8x192x192.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S16x64x192x192 : Shape := ⟨4, ![16, 64, 192, 192]⟩
abbrev S16x16x192x192 : Shape := ⟨4, ![16, 16, 192, 192]⟩
abbrev S16x16x192x1x192x1 : Shape := ⟨6, ![16, 16, 192, 1, 192, 1]⟩
abbrev S_ : Shape := ⟨0, ![]⟩
abbrev S1 : Shape := ⟨1, ![1]⟩
abbrev S16x16x96x2x96x2 : Shape := ⟨6, ![16, 16, 96, 2, 96, 2]⟩
abbrev S16x16x96x96 : Shape := ⟨4, ![16, 16, 96, 96]⟩
abbrev S16x16x96x1x96x1 : Shape := ⟨6, ![16, 16, 96, 1, 96, 1]⟩
abbrev S16x16x48x4x48x4 : Shape := ⟨6, ![16, 16, 48, 4, 48, 4]⟩
abbrev S16x16x48x48 : Shape := ⟨4, ![16, 16, 48, 48]⟩
abbrev S16x16x48x1x48x1 : Shape := ⟨6, ![16, 16, 48, 1, 48, 1]⟩
abbrev S16x8x192x192 : Shape := ⟨4, ![16, 8, 192, 192]⟩
abbrev S16x8x24x8x24x8 : Shape := ⟨6, ![16, 8, 24, 8, 24, 8]⟩
abbrev S16x8x24x24 : Shape := ⟨4, ![16, 8, 24, 24]⟩
abbrev S16x8x24x1x24x1 : Shape := ⟨6, ![16, 8, 24, 1, 24, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x64x192x192, .f32⟩
  | .hbm, ⟨1, _⟩ => ⟨S16x16x192x192, .f32⟩
  | .hbm, ⟨2, _⟩ => ⟨S16x16x192x1x192x1, .f32⟩
  | .hbm, ⟨3, _⟩ => ⟨S_, .f32⟩
  | .hbm, ⟨4, _⟩ => ⟨S16x16x192x192, .f32⟩
  | .hbm, ⟨5, _⟩ => ⟨S16x16x192x1x192x1, .f32⟩
  | .hbm, ⟨6, _⟩ => ⟨S_, .f32⟩
  | .hbm, ⟨7, _⟩ => ⟨S16x16x192x1x192x1, .f32⟩
  | .hbm, ⟨8, _⟩ => ⟨S16x16x192x1x192x1, .f32⟩
  | .hbm, ⟨9, _⟩ => ⟨S_, .f32⟩
  | .hbm, ⟨10, _⟩ => ⟨S16x16x192x1x192x1, .f32⟩
  | .hbm, ⟨11, _⟩ => ⟨S16x16x192x1x192x1, .i1⟩
  | .hbm, ⟨12, _⟩ => ⟨S16x16x192x1x192x1, .f32⟩
  | .hbm, ⟨13, _⟩ => ⟨S16x16x192x1x192x1, .f32⟩
  | .hbm, ⟨14, _⟩ => ⟨S16x16x192x192, .f32⟩
  | .hbm, ⟨15, _⟩ => ⟨S_, .i32⟩
  | .hbm, ⟨16, _⟩ => ⟨S1, .i32⟩
  | .hbm, ⟨17, _⟩ => ⟨S16x64x192x192, .f32⟩
  | .hbm, ⟨18, _⟩ => ⟨S16x16x192x192, .f32⟩
  | .hbm, ⟨19, _⟩ => ⟨S16x16x96x2x96x2, .f32⟩
  | .hbm, ⟨20, _⟩ => ⟨S_, .f32⟩
  | .hbm, ⟨21, _⟩ => ⟨S16x16x96x96, .f32⟩
  | .hbm, ⟨22, _⟩ => ⟨S16x16x96x1x96x1, .f32⟩
  | .hbm, ⟨23, _⟩ => ⟨S_, .f32⟩
  | .hbm, ⟨24, _⟩ => ⟨S16x16x96x1x96x1, .f32⟩
  | .hbm, ⟨25, _⟩ => ⟨S16x16x96x1x96x1, .f32⟩
  | .hbm, ⟨26, _⟩ => ⟨S_, .f32⟩
  | .hbm, ⟨27, _⟩ => ⟨S16x16x96x1x96x1, .f32⟩
  | .hbm, ⟨28, _⟩ => ⟨S16x16x96x1x96x1, .i1⟩
  | .hbm, ⟨29, _⟩ => ⟨S16x16x96x1x96x1, .f32⟩
  | .hbm, ⟨30, _⟩ => ⟨S16x16x96x2x96x2, .f32⟩
  | .hbm, ⟨31, _⟩ => ⟨S16x16x96x2x96x2, .f32⟩
  | .hbm, ⟨32, _⟩ => ⟨S16x16x192x192, .f32⟩
  | .hbm, ⟨33, _⟩ => ⟨S_, .i32⟩
  | .hbm, ⟨34, _⟩ => ⟨S1, .i32⟩
  | .hbm, ⟨35, _⟩ => ⟨S16x64x192x192, .f32⟩
  | .hbm, ⟨36, _⟩ => ⟨S16x16x192x192, .f32⟩
  | .hbm, ⟨37, _⟩ => ⟨S16x16x48x4x48x4, .f32⟩
  | .hbm, ⟨38, _⟩ => ⟨S_, .f32⟩
  | .hbm, ⟨39, _⟩ => ⟨S16x16x48x48, .f32⟩
  | .hbm, ⟨40, _⟩ => ⟨S16x16x48x1x48x1, .f32⟩
  | .hbm, ⟨41, _⟩ => ⟨S_, .f32⟩
  | .hbm, ⟨42, _⟩ => ⟨S16x16x48x1x48x1, .f32⟩
  | .hbm, ⟨43, _⟩ => ⟨S16x16x48x1x48x1, .f32⟩
  | .hbm, ⟨44, _⟩ => ⟨S_, .f32⟩
  | .hbm, ⟨45, _⟩ => ⟨S16x16x48x1x48x1, .f32⟩
  | .hbm, ⟨46, _⟩ => ⟨S16x16x48x1x48x1, .i1⟩
  | .hbm, ⟨47, _⟩ => ⟨S16x16x48x1x48x1, .f32⟩
  | .hbm, ⟨48, _⟩ => ⟨S16x16x48x4x48x4, .f32⟩
  | .hbm, ⟨49, _⟩ => ⟨S16x16x48x4x48x4, .f32⟩
  | .hbm, ⟨50, _⟩ => ⟨S16x16x192x192, .f32⟩
  | .hbm, ⟨51, _⟩ => ⟨S_, .i32⟩
  | .hbm, ⟨52, _⟩ => ⟨S1, .i32⟩
  | .hbm, ⟨53, _⟩ => ⟨S16x64x192x192, .f32⟩
  | .hbm, ⟨54, _⟩ => ⟨S16x8x192x192, .f32⟩
  | .hbm, ⟨55, _⟩ => ⟨S16x8x24x8x24x8, .f32⟩
  | .hbm, ⟨56, _⟩ => ⟨S_, .f32⟩
  | .hbm, ⟨57, _⟩ => ⟨S16x8x24x24, .f32⟩
  | .hbm, ⟨58, _⟩ => ⟨S16x8x24x1x24x1, .f32⟩
  | .hbm, ⟨59, _⟩ => ⟨S_, .f32⟩
  | .hbm, ⟨60, _⟩ => ⟨S16x8x24x1x24x1, .f32⟩
  | .hbm, ⟨61, _⟩ => ⟨S16x8x24x1x24x1, .f32⟩
  | .hbm, ⟨62, _⟩ => ⟨S_, .f32⟩
  | .hbm, ⟨63, _⟩ => ⟨S16x8x24x1x24x1, .f32⟩
  | .hbm, ⟨64, _⟩ => ⟨S16x8x24x1x24x1, .i1⟩
  | .hbm, ⟨65, _⟩ => ⟨S16x8x24x1x24x1, .f32⟩
  | .hbm, ⟨66, _⟩ => ⟨S16x8x24x8x24x8, .f32⟩
  | .hbm, ⟨67, _⟩ => ⟨S16x8x24x8x24x8, .f32⟩
  | .hbm, ⟨68, _⟩ => ⟨S16x8x192x192, .f32⟩
  | .hbm, ⟨69, _⟩ => ⟨S_, .i32⟩
  | .hbm, ⟨70, _⟩ => ⟨S1, .i32⟩
  | .hbm, ⟨71, _⟩ => ⟨S16x64x192x192, .f32⟩
  | _, _ => ⟨S16x64x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_13 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  slices_S16x64x192x192_S16x16x192x192_0_0_0_0 : S16x64x192x192.Slices ![0, 0, 0, 0] S16x16x192x192
  shapeCasts_S16x16x192x192_S16x16x192x1x192x1 : S16x16x192x192.ShapeCasts S16x16x192x1x192x1
  reducesTo_S16x16x192x1x192x1_S16x16x192x192_d3_5 : S16x16x192x1x192x1.ReducesTo [3, 5] S16x16x192x192
  h_S_ : 0 < S_.numel
  bcast_S16x16x192x192_S16x16x192x1x192x1_0_1_2_4 : S16x16x192x192.BroadcastsInDim S16x16x192x1x192x1 (![0, 1, 2, 4] : Fin 4 → Fin S16x16x192x1x192x1.rank)
  bcast_S_S16x16x192x1x192x1 : S_.BroadcastsInDim S16x16x192x1x192x1 (![] : Fin 0 → Fin S16x16x192x1x192x1.rank)
  shapeCasts_S16x16x192x1x192x1_S16x16x192x192 : S16x16x192x1x192x1.ShapeCasts S16x16x192x192
  bcast_S_S1 : S_.BroadcastsInDim S1 (![] : Fin 0 → Fin S1.rank)
  slices_S16x64x192x192_S16x16x192x192_0_16_0_0 : S16x64x192x192.Slices ![0, 16, 0, 0] S16x16x192x192
  shapeCasts_S16x16x192x192_S16x16x96x2x96x2 : S16x16x192x192.ShapeCasts S16x16x96x2x96x2
  reducesTo_S16x16x96x2x96x2_S16x16x96x96_d3_5 : S16x16x96x2x96x2.ReducesTo [3, 5] S16x16x96x96
  bcast_S16x16x96x96_S16x16x96x1x96x1_0_1_2_4 : S16x16x96x96.BroadcastsInDim S16x16x96x1x96x1 (![0, 1, 2, 4] : Fin 4 → Fin S16x16x96x1x96x1.rank)
  bcast_S_S16x16x96x1x96x1 : S_.BroadcastsInDim S16x16x96x1x96x1 (![] : Fin 0 → Fin S16x16x96x1x96x1.rank)
  bcast_S16x16x96x1x96x1_S16x16x96x2x96x2_0_1_2_3_4_5 : S16x16x96x1x96x1.BroadcastsInDim S16x16x96x2x96x2 (![0, 1, 2, 3, 4, 5] : Fin 6 → Fin S16x16x96x2x96x2.rank)
  shapeCasts_S16x16x96x2x96x2_S16x16x192x192 : S16x16x96x2x96x2.ShapeCasts S16x16x192x192
  slices_S16x64x192x192_S16x16x192x192_0_32_0_0 : S16x64x192x192.Slices ![0, 32, 0, 0] S16x16x192x192
  shapeCasts_S16x16x192x192_S16x16x48x4x48x4 : S16x16x192x192.ShapeCasts S16x16x48x4x48x4
  reducesTo_S16x16x48x4x48x4_S16x16x48x48_d3_5 : S16x16x48x4x48x4.ReducesTo [3, 5] S16x16x48x48
  bcast_S16x16x48x48_S16x16x48x1x48x1_0_1_2_4 : S16x16x48x48.BroadcastsInDim S16x16x48x1x48x1 (![0, 1, 2, 4] : Fin 4 → Fin S16x16x48x1x48x1.rank)
  bcast_S_S16x16x48x1x48x1 : S_.BroadcastsInDim S16x16x48x1x48x1 (![] : Fin 0 → Fin S16x16x48x1x48x1.rank)
  bcast_S16x16x48x1x48x1_S16x16x48x4x48x4_0_1_2_3_4_5 : S16x16x48x1x48x1.BroadcastsInDim S16x16x48x4x48x4 (![0, 1, 2, 3, 4, 5] : Fin 6 → Fin S16x16x48x4x48x4.rank)
  shapeCasts_S16x16x48x4x48x4_S16x16x192x192 : S16x16x48x4x48x4.ShapeCasts S16x16x192x192
  slices_S16x64x192x192_S16x8x192x192_0_48_0_0 : S16x64x192x192.Slices ![0, 48, 0, 0] S16x8x192x192
  shapeCasts_S16x8x192x192_S16x8x24x8x24x8 : S16x8x192x192.ShapeCasts S16x8x24x8x24x8
  reducesTo_S16x8x24x8x24x8_S16x8x24x24_d3_5 : S16x8x24x8x24x8.ReducesTo [3, 5] S16x8x24x24
  bcast_S16x8x24x24_S16x8x24x1x24x1_0_1_2_4 : S16x8x24x24.BroadcastsInDim S16x8x24x1x24x1 (![0, 1, 2, 4] : Fin 4 → Fin S16x8x24x1x24x1.rank)
  bcast_S_S16x8x24x1x24x1 : S_.BroadcastsInDim S16x8x24x1x24x1 (![] : Fin 0 → Fin S16x8x24x1x24x1.rank)
  bcast_S16x8x24x1x24x1_S16x8x24x8x24x8_0_1_2_3_4_5 : S16x8x24x1x24x1.BroadcastsInDim S16x8x24x8x24x8 (![0, 1, 2, 3, 4, 5] : Fin 6 → Fin S16x8x24x8x24x8.rank)
  shapeCasts_S16x8x24x8x24x8_S16x8x192x192 : S16x8x24x8x24x8.ShapeCasts S16x8x192x192
  scatter_S16x64x192x192_S1_S16x16x192x192_0123_n_1_0_wf : ScatterDims.WF S16x64x192x192 S1 S16x16x192x192 [0, 1, 2, 3] [] [1] 0
  scatter_S16x64x192x192_S1_S16x8x192x192_0123_n_1_0_wf : ScatterDims.WF S16x64x192x192 S1 S16x8x192x192 [0, 1, 2, 3] [] [1] 0

variable [Facts₀]

def scatter_S16x64x192x192_S1_S16x16x192x192_0123_n_1_0 : ScatterDims S16x64x192x192 S1 S16x16x192x192 where
  updateWindowDims := [0, 1, 2, 3]
  insertedWindowDims := []
  scatterDimsToOperandDims := [1]
  indexVectorDim := 0
  wf := scatter_S16x64x192x192_S1_S16x16x192x192_0123_n_1_0_wf
def scatter_S16x64x192x192_S1_S16x8x192x192_0123_n_1_0 : ScatterDims S16x64x192x192 S1 S16x8x192x192 where
  updateWindowDims := [0, 1, 2, 3]
  insertedWindowDims := []
  scatterDimsToOperandDims := [1]
  indexVectorDim := 0
  wf := scatter_S16x64x192x192_S1_S16x8x192x192_0123_n_1_0_wf

class Facts : Prop extends Facts₀ where

variable [Facts]
-- ==== Proof.KB.Blocks.lean ====
/-
  The four kernel regions' blocks and what each body leaves: window 0 of region K is read one batch row at a
  time, the body stores one whole block into window 1, and that block is a pure function of the block read.
  For region 0 the function is the pointwise maximum with zero. For regions 1, 2, 3 (block sizes 2, 4, 8) it is
  the block read times a 0/1 mask, the mask being four matrix products with one-hot matrices around a sign test:
  rows summed in groups along the last axis, then along the axis before it, the mean compared with zero, and the
  0/1 result spread back over each group along both axes.
-/
import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Fr

open Idealize.ShloMosaic Idealize.ShloMosaic.TcCoe
open Idealize.SL Idealize.SL.RA Idealize.SL.BI
open Idealize.SL.Sem
open Idealize.ShloMosaic.Pipeline (Dat Cfg Window)
open Cert.Kernel Cert.Kernel.Gen

variable {F : FTy → Type} [FloatOps F]

-- the TensorCore's buffer contents when a region is entered
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block, as the rectangle the body loads and stores through. -/
abbrev r0 : Rect S1x16x192x192 := Rect.unit (s := S1x16x192x192) ![0, 0, 0, 0] S1x16x192x192.size inb_S1x16x192x192_S1x16x192x192_0_0_0_0

/-- What region 0's body stores, from the block it loaded: the maximum with zero, entry by entry. -/
def pay0 (v0 : Vec F S1x16x192x192 .f32) : Vec F S1x16x192x192 .f32 := k0_pay1 v0

/-- Window 1's staging buffer after region 0's body, from the input block: its one store, of the whole block. -/
def out0_1 (x0 : Vec F S1x16x192x192 .f32) : Vec F S1x16x192x192 .f32 :=
  View.canon [⟨r0, pay0 (View.ld x0 r0)⟩]

/-- Region 0's pipeline data on core `c`: the arrays as the region finds them; after the body at point `t` the
    input's buffer at its block and the output's at `out0_1` of it; nothing owed, full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block, as the rectangle the body loads and stores through. -/
abbrev r1 : Rect S1x16x192x192 := Rect.unit (s := S1x16x192x192) ![0, 0, 0, 0] S1x16x192x192.size inb_S1x16x192x192_S1x16x192x192_0_0_0_0

/-- What region 1's body stores, from the block it loaded: the block times the 0/1 mask of its 2×2 groups
    (the one-hot matrices and the integer index chains they are built from depend on nothing loaded). -/
def pay1 (v0 : Vec F S1x16x192x192 .f32) : Vec F S1x16x192x192 .f32 :=
  k1_pay8 (k1_pay1 v0) (k1_pay2 (F := F))
    (k1_pay5 (F := F) (iota .tc S96x192 32 [1] iota_S96x192_d1_w32) (iota .tc S96x192 32 [0] iota_S96x192_d0_w32) 2#32 k1_pay3 k1_pay4
      (Scalar.extui (Scalar.cmpi .sgt 2#32 0#32)))
    (k1_pay6 (F := F)) (iota .tc S96x192 32 [1] iota_S96x192_d1_w32) (iota .tc S96x192 32 [0] iota_S96x192_d0_w32) 2#32 k1_pay7

/-- Window 1's staging buffer after region 1's body, from the input block: its one store, of the whole block. -/
def out1_1 (x0 : Vec F S1x16x192x192 .f32) : Vec F S1x16x192x192 .f32 :=
  View.canon [⟨r1, pay1 (View.ld x0 r1)⟩]

/-- Region 1's pipeline data on core `c`: the arrays as the region finds them; after the body at point `t` the
    input's buffer at its block and the output's at `out1_1` of it; nothing owed, full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-! ## Region 2 -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole block, as the rectangle the body loads and stores through. -/
abbrev r2 : Rect S1x16x192x192 := Rect.unit (s := S1x16x192x192) ![0, 0, 0, 0] S1x16x192x192.size inb_S1x16x192x192_S1x16x192x192_0_0_0_0

/-- What region 2's body stores, from the block it loaded: the block times the 0/1 mask of its 4×4 groups
    (the one-hot matrices and the integer index chains they are built from depend on nothing loaded). -/
def pay2 (v0 : Vec F S1x16x192x192 .f32) : Vec F S1x16x192x192 .f32 :=
  k2_pay8 (k2_pay1 v0) (k2_pay2 (F := F))
    (k2_pay5 (F := F) (iota .tc S48x192 32 [1] iota_S48x192_d1_w32) (iota .tc S48x192 32 [0] iota_S48x192_d0_w32) 4#32 k2_pay3 k2_pay4
      (Scalar.extui (Scalar.cmpi .sgt 4#32 0#32)))
    (k2_pay6 (F := F)) (iota .tc S48x192 32 [1] iota_S48x192_d1_w32) (iota .tc S48x192 32 [0] iota_S48x192_d0_w32) 4#32 k2_pay7

/-- Window 1's staging buffer after region 2's body, from the input block: its one store, of the whole block. -/
def out2_1 (x0 : Vec F S1x16x192x192 .f32) : Vec F S1x16x192x192 .f32 :=
  View.canon [⟨r2, pay2 (View.ld x0 r2)⟩]

/-- Region 2's pipeline data on core `c`: the arrays as the region finds them; after the body at point `t` the
    input's buffer at its block and the output's at `out2_1` of it; nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-! ## Region 3 -/

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole block, as the rectangle the body loads and stores through. -/
abbrev r3 : Rect S1x8x192x192 := Rect.unit (s := S1x8x192x192) ![0, 0, 0, 0] S1x8x192x192.size inb_S1x8x192x192_S1x8x192x192_0_0_0_0

/-- What region 3's body stores, from the block it loaded: the block times the 0/1 mask of its 8×8 groups
    (the one-hot matrices and the integer index chains they are built from depend on nothing loaded). -/
def pay3 (v0 : Vec F S1x8x192x192 .f32) : Vec F S1x8x192x192 .f32 :=
  k3_pay8 (k3_pay1 v0) (k3_pay2 (F := F))
    (k3_pay5 (F := F) (iota .tc S24x192 32 [1] iota_S24x192_d1_w32) (iota .tc S24x192 32 [0] iota_S24x192_d0_w32) 8#32 k3_pay3 k3_pay4
      (Scalar.extui (Scalar.cmpi .sgt 8#32 0#32)))
    (k3_pay6 (F := F)) (iota .tc S24x192 32 [1] iota_S24x192_d1_w32) (iota .tc S24x192 32 [0] iota_S24x192_d0_w32) 8#32 k3_pay7

/-- Window 1's staging buffer after region 3's body, from the input block: its one store, of the whole block. -/
def out3_1 (x0 : Vec F S1x8x192x192 .f32) : Vec F S1x8x192x192 .f32 :=
  View.canon [⟨r3, pay3 (View.ld x0 r3)⟩]

/-- Region 3's pipeline data on core `c`: the arrays as the region finds them; after the body at point `t` the
    input's buffer at its block and the output's at `out3_1` of it; nothing owed, full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Cert.Kernel.Fr

end
-- ==== Proof.KB.Frame0.lean ====
/-
  Region 0: the body's triple and the pipeline's body obligation. On whole staging buffers, the input's at the
  block read and the output's at anything, the body runs to the input's buffer unchanged and the output's buffer
  holding the one whole-block store, whose value is a function of the block read alone.
-/
import proofs.«129114_j1357209666244_2_alg».proof.Proof.KB.Blocks

import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers the buffer. -/
theorem cover0_1 (p0 : Vec F S1x16x192x192 .f32) (y : S1x16x192x192.Idx) :
    ∃ pc ∈ ([⟨r0, p0⟩] : List (View.Piece (Elt F) S1x16x192x192 .f32)), y ∈ pc.1.set :=
  View.cover_of_tiled [⟨r0, p0⟩] S1x16x192x192.size (by rfl) y

set_option maxHeartbeats 1000000 in
/-- The body on whole staging buffers, the input's at `x0` and the output's at anything, runs to the continuation
    holding the input's as it was and the output's at `out0_1 x0`. -/
theorem sound_kernel0 (c : Dev nD) (E : Set ℕ) (i : grid0.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover0_1 _)

/-- The input's current staging buffer holds its block at every point, for the region's own pipeline data. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Frame1.lean ====
/-
  Region 1: the body's triple and the pipeline's body obligation. On whole staging buffers, the input's at the
  block read and the output's at anything, the body runs to the input's buffer unchanged and the output's buffer
  holding the one whole-block store, whose value is a function of the block read alone.
-/
import proofs.«129114_j1357209666244_2_alg».proof.Proof.KB.Blocks

import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers the buffer. -/
theorem cover1_1 (p0 : Vec F S1x16x192x192 .f32) (y : S1x16x192x192.Idx) :
    ∃ pc ∈ ([⟨r1, p0⟩] : List (View.Piece (Elt F) S1x16x192x192 .f32)), y ∈ pc.1.set :=
  View.cover_of_tiled [⟨r1, p0⟩] S1x16x192x192.size (by rfl) y

set_option maxHeartbeats 1000000 in
/-- The body on whole staging buffers, the input's at `x0` and the output's at anything, runs to the continuation
    holding the input's as it was and the output's at `out1_1 x0`. -/
theorem sound_kernel1 (c : Dev nD) (E : Set ℕ) (i : grid1.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_kernel i arg1 harg1 arg2 harg2) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1_1 _)

/-- The input's current staging buffer holds its block at every point, for the region's own pipeline data. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Frame2.lean ====
/-
  Region 2: the body's triple and the pipeline's body obligation. On whole staging buffers, the input's at the
  block read and the output's at anything, the body runs to the input's buffer unchanged and the output's buffer
  holding the one whole-block store, whose value is a function of the block read alone.
-/
import proofs.«129114_j1357209666244_2_alg».proof.Proof.KB.Blocks

import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one store is of the whole block, so it covers the buffer. -/
theorem cover2_1 (p0 : Vec F S1x16x192x192 .f32) (y : S1x16x192x192.Idx) :
    ∃ pc ∈ ([⟨r2, p0⟩] : List (View.Piece (Elt F) S1x16x192x192 .f32)), y ∈ pc.1.set :=
  View.cover_of_tiled [⟨r2, p0⟩] S1x16x192x192.size (by rfl) y

set_option maxHeartbeats 1000000 in
/-- The body on whole staging buffers, the input's at `x0` and the output's at anything, runs to the continuation
    holding the input's as it was and the output's at `out2_1 x0`. -/
theorem sound_kernel2 (c : Dev nD) (E : Set ℕ) (i : grid2.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_kernel i arg1 harg1 arg2 harg2) K := by
  simp only [cc2_kernel_eq_skeleton]; unfold cc2_kernel_skel
  simp only [k2_part1_eq_skeleton]; unfold k2_part1_skel
  simp only [k2_part2_eq_skeleton]; unfold k2_part2_skel
  simp only [k2_part3_eq_skeleton]; unfold k2_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover2_1 _)

/-- The input's current staging buffer holds its block at every point, for the region's own pipeline data. -/
theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Frame3.lean ====
/-
  Region 3: the body's triple and the pipeline's body obligation. On whole staging buffers, the input's at the
  block read and the output's at anything, the body runs to the input's buffer unchanged and the output's buffer
  holding the one whole-block store, whose value is a function of the block read alone.
-/
import proofs.«129114_j1357209666244_2_alg».proof.Proof.KB.Blocks

import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store is of the whole block, so it covers the buffer. -/
theorem cover3_1 (p0 : Vec F S1x8x192x192 .f32) (y : S1x8x192x192.Idx) :
    ∃ pc ∈ ([⟨r3, p0⟩] : List (View.Piece (Elt F) S1x8x192x192 .f32)), y ∈ pc.1.set :=
  View.cover_of_tiled [⟨r3, p0⟩] S1x8x192x192.size (by rfl) y

set_option maxHeartbeats 1000000 in
/-- The body on whole staging buffers, the input's at `x0` and the output's at anything, runs to the continuation
    holding the input's as it was and the output's at `out3_1 x0`. -/
theorem sound_kernel3 (c : Dev nD) (E : Set ℕ) (i : grid3.Coords) (arg1 : Memref sig .tc .vmem S1x8x192x192 .f32) (harg1 : arg1.IsWhole) (arg2 : Memref sig .tc .vmem S1x8x192x192 .f32) (harg2 : arg2.IsWhole)
    (x0 : Vec F S1x8x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3_kernel i arg1 harg1 arg2 harg2) K := by
  simp only [cc3_kernel_eq_skeleton]; unfold cc3_kernel_skel
  simp only [k3_part1_eq_skeleton]; unfold k3_part1_skel
  simp only [k3_part2_eq_skeleton]; unfold k3_part2_skel
  simp only [k3_part3_eq_skeleton]; unfold k3_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover3_1 _)

/-- The input's current staging buffer holds its block at every point, for the region's own pipeline data. -/
theorem before3_0 (c : Dev nD) (t : Fin cfg3.N) (d) : (dat3 V c).before 0 t d = iblk3 V c 0 t :=
  before3_0_of V (dat3 V c) (A_eq3 V c 0) (after3_0 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Frame.lean ====
/-
  The run of @main as nine segments — five stretches of host operations and four kernel regions in turn — and
  what it leaves: every unscoped buffer of every core at the contents obtained by folding the segments over the
  launch memory. A host stretch's step is the stretch's own valuation transformer; a region's step puts the
  region's arrays at what its pipeline leaves (the input array as entered, the output array at its write-backs)
  and leaves every other buffer as entered. The argument array is written by no segment, so it ends as launched.
-/
import proofs.«129114_j1357209666244_2_alg».proof.Proof.KB.Blocks
import proofs.«129114_j1357209666244_2_alg».proof.Proof.KB.Frame0
import proofs.«129114_j1357209666244_2_alg».proof.Proof.KB.Frame1
import proofs.«129114_j1357209666244_2_alg».proof.Proof.KB.Frame2
import proofs.«129114_j1357209666244_2_alg».proof.Proof.KB.Frame3
import proofs.«129114_j1357209666244_2_alg».proof.Proof.Gen.Kernel.Launch
import proofs.«129114_j1357209666244_2_alg».proof.Proof.Gen.Kernel.Skeleton
import proofs.«129114_j1357209666244_2_alg».proof.Proof.Gen.Kernel.Points
import proofs.«129114_j1357209666244_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After the host stretch `hostOps0` (region 0's entry). -/
abbrev W1 (c : Dev nD) : Valuation τ sig (Elt F) := StableHlo.after hostOps0 (W0 m ρ c)
/-- The same read at the TensorCore's references (what region 0's pipeline data take). -/
abbrev V1 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 (c : Dev nD) : Valuation τ sig (Elt F) := StableHlo.after hostOps1 (W2 m ρ c)
/-- The same read at the TensorCore's references (what region 1's pipeline data take). -/
abbrev V3 : (c : Dev nD) → (b : Ref sig .tc) → Buf (Elt F) ((c : Thread nD τ).loc b) := fun c b => W3 m ρ c b
/-- At region 1's exit: its arrays at what the pipeline leaves (the input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 (c : Dev nD) : Valuation τ sig (Elt F) := StableHlo.after hostOps2 (W4 m ρ c)
/-- The same read at the TensorCore's references (what region 2's pipeline data take). -/
abbrev V5 : (c : Dev nD) → (b : Ref sig .tc) → Buf (Elt F) ((c : Thread nD τ).loc b) := fun c b => W5 m ρ c b
/-- At region 2's exit: its arrays at what the pipeline leaves (the input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 (c : Dev nD) : Valuation τ sig (Elt F) := StableHlo.after hostOps3 (W6 m ρ c)
/-- The same read at the TensorCore's references (what region 3's pipeline data take). -/
abbrev V7 : (c : Dev nD) → (b : Ref sig .tc) → Buf (Elt F) ((c : Thread nD τ).loc b) := fun c b => W7 m ρ c b
/-- At region 3's exit: its arrays at what the pipeline leaves (the input as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch `hostOps4`: what the launch reads at the end. -/
abbrev W9 (c : Dev nD) : Valuation τ sig (Elt F) := StableHlo.after hostOps4 (W8 m ρ c)

/-! ### The argument ends as launched: no host stretch writes it and no region has it among its arrays -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-! ## The pipeline data family and the thread state -/

/-- Every pipeline's data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's transform of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments. -/
theorem main_run (c : Dev nD) : main (F := F) c = Pipeline.Seg.run (segs m ρ) :=
  main_segs adm (pdats m ρ) () 𝒱₀ L lv _ _ _ _ _ (reg0 m ρ) (reg1 m ρ) (reg2 m ρ) (reg3 m ρ) rfl rfl rfl rfl rfl c

set_option backward.isDefEq.respectTransparency.types false in
/-- THE RUN: at the compiled mesh, from any memory with zero counters, every weakly fair execution of @main on the
    TensorCores terminates, nothing faulting, and in every final state every unscoped buffer of every core holds the
    last boundary's contents `W9`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every weakly fair execution of @main terminates, nothing faulting, and every final state has the
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W9_main_arg0 m ρ c)) (run_all m ρ)

end Cert.Kernel.Fr

end
-- ==== Proof.KI.Blocks.lean ====
/-
  The four kernel regions' blocks and what each body leaves: window 0 of region K is read one batch row at a
  time, the body stores one whole block into window 1, and that block is a pure function of the block read.
  For region 0 the function is the pointwise maximum with zero. For regions 1, 2, 3 (block sizes 2, 4, 8) it is
  the block read times a 0/1 mask, the mask being four matrix products with one-hot matrices around a sign test:
  rows summed in groups along the last axis, then along the axis before it, the mean compared with zero, and the
  0/1 result spread back over each group along both axes.
-/
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Fr

open Idealize.ShloMosaic Idealize.ShloMosaic.TcCoe
open Idealize.SL Idealize.SL.RA Idealize.SL.BI
open Idealize.SL.Sem
open Idealize.ShloMosaic.Pipeline (Dat Cfg Window)
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block, as the rectangle the body loads and stores through. -/
abbrev r0 : Rect S1x16x192x192 := Rect.unit (s := S1x16x192x192) ![0, 0, 0, 0] S1x16x192x192.size inb_S1x16x192x192_S1x16x192x192_0_0_0_0

/-- What region 0's body stores, from the block it loaded: the maximum with zero, entry by entry. -/
def pay0 (v0 : Vec F S1x16x192x192 .f32) : Vec F S1x16x192x192 .f32 := k0_pay1 v0

/-- Window 1's staging buffer after region 0's body, from the input block: its one store, of the whole block. -/
def out0_1 (x0 : Vec F S1x16x192x192 .f32) : Vec F S1x16x192x192 .f32 :=
  View.canon [⟨r0, pay0 (View.ld x0 r0)⟩]

/-- Region 0's pipeline data on core `c`: the arrays as the region finds them; after the body at point `t` the
    input's buffer at its block and the output's at `out0_1` of it; nothing owed, full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block, as the rectangle the body loads and stores through. -/
abbrev r1 : Rect S1x16x192x192 := Rect.unit (s := S1x16x192x192) ![0, 0, 0, 0] S1x16x192x192.size inb_S1x16x192x192_S1x16x192x192_0_0_0_0

/-- What region 1's body stores, from the block it loaded: the block times the 0/1 mask of its 2×2 groups
    (the one-hot matrices and the integer index chains they are built from depend on nothing loaded). -/
def pay1 (v0 : Vec F S1x16x192x192 .f32) : Vec F S1x16x192x192 .f32 :=
  k1_pay8 (k1_pay1 v0) (k1_pay2 (F := F))
    (k1_pay5 (F := F) (iota .tc S96x192 32 [1] iota_S96x192_d1_w32) (iota .tc S96x192 32 [0] iota_S96x192_d0_w32) 2#32 k1_pay3 k1_pay4
      (Scalar.extui (Scalar.cmpi .sgt 2#32 0#32)))
    (k1_pay6 (F := F)) (iota .tc S96x192 32 [1] iota_S96x192_d1_w32) (iota .tc S96x192 32 [0] iota_S96x192_d0_w32) 2#32 k1_pay7

/-- Window 1's staging buffer after region 1's body, from the input block: its one store, of the whole block. -/
def out1_1 (x0 : Vec F S1x16x192x192 .f32) : Vec F S1x16x192x192 .f32 :=
  View.canon [⟨r1, pay1 (View.ld x0 r1)⟩]

/-- Region 1's pipeline data on core `c`: the arrays as the region finds them; after the body at point `t` the
    input's buffer at its block and the output's at `out1_1` of it; nothing owed, full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-! ## Region 2 -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole block, as the rectangle the body loads and stores through. -/
abbrev r2 : Rect S1x16x192x192 := Rect.unit (s := S1x16x192x192) ![0, 0, 0, 0] S1x16x192x192.size inb_S1x16x192x192_S1x16x192x192_0_0_0_0

/-- What region 2's body stores, from the block it loaded: the block times the 0/1 mask of its 4×4 groups
    (the one-hot matrices and the integer index chains they are built from depend on nothing loaded). -/
def pay2 (v0 : Vec F S1x16x192x192 .f32) : Vec F S1x16x192x192 .f32 :=
  k2_pay8 (k2_pay1 v0) (k2_pay2 (F := F))
    (k2_pay5 (F := F) (iota .tc S48x192 32 [1] iota_S48x192_d1_w32) (iota .tc S48x192 32 [0] iota_S48x192_d0_w32) 4#32 k2_pay3 k2_pay4
      (Scalar.extui (Scalar.cmpi .sgt 4#32 0#32)))
    (k2_pay6 (F := F)) (iota .tc S48x192 32 [1] iota_S48x192_d1_w32) (iota .tc S48x192 32 [0] iota_S48x192_d0_w32) 4#32 k2_pay7

/-- Window 1's staging buffer after region 2's body, from the input block: its one store, of the whole block. -/
def out2_1 (x0 : Vec F S1x16x192x192 .f32) : Vec F S1x16x192x192 .f32 :=
  View.canon [⟨r2, pay2 (View.ld x0 r2)⟩]

/-- Region 2's pipeline data on core `c`: the arrays as the region finds them; after the body at point `t` the
    input's buffer at its block and the output's at `out2_1` of it; nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-! ## Region 3 -/

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole block, as the rectangle the body loads and stores through. -/
abbrev r3 : Rect S1x8x192x192 := Rect.unit (s := S1x8x192x192) ![0, 0, 0, 0] S1x8x192x192.size inb_S1x8x192x192_S1x8x192x192_0_0_0_0

/-- What region 3's body stores, from the block it loaded: the block times the 0/1 mask of its 8×8 groups
    (the one-hot matrices and the integer index chains they are built from depend on nothing loaded). -/
def pay3 (v0 : Vec F S1x8x192x192 .f32) : Vec F S1x8x192x192 .f32 :=
  k3_pay8 (k3_pay1 v0) (k3_pay2 (F := F))
    (k3_pay5 (F := F) (iota .tc S24x192 32 [1] iota_S24x192_d1_w32) (iota .tc S24x192 32 [0] iota_S24x192_d0_w32) 8#32 k3_pay3 k3_pay4
      (Scalar.extui (Scalar.cmpi .sgt 8#32 0#32)))
    (k3_pay6 (F := F)) (iota .tc S24x192 32 [1] iota_S24x192_d1_w32) (iota .tc S24x192 32 [0] iota_S24x192_d0_w32) 8#32 k3_pay7

/-- Window 1's staging buffer after region 3's body, from the input block: its one store, of the whole block. -/
def out3_1 (x0 : Vec F S1x8x192x192 .f32) : Vec F S1x8x192x192 .f32 :=
  View.canon [⟨r3, pay3 (View.ld x0 r3)⟩]

/-- Region 3's pipeline data on core `c`: the arrays as the region finds them; after the body at point `t` the
    input's buffer at its block and the output's at `out3_1` of it; nothing owed, full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Cert.KernelIdeal.Fr

end
-- ==== Proof.KI.Frame0.lean ====
/-
  Region 0: the body's triple and the pipeline's body obligation. On whole staging buffers, the input's at the
  block read and the output's at anything, the body runs to the input's buffer unchanged and the output's buffer
  holding the one whole-block store, whose value is a function of the block read alone.
-/
import proofs.«129114_j1357209666244_2_alg».proof.Proof.KI.Blocks

import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers the buffer. -/
theorem cover0_1 (p0 : Vec F S1x16x192x192 .f32) (y : S1x16x192x192.Idx) :
    ∃ pc ∈ ([⟨r0, p0⟩] : List (View.Piece (Elt F) S1x16x192x192 .f32)), y ∈ pc.1.set :=
  View.cover_of_tiled [⟨r0, p0⟩] S1x16x192x192.size (by rfl) y

set_option maxHeartbeats 1000000 in
/-- The body on whole staging buffers, the input's at `x0` and the output's at anything, runs to the continuation
    holding the input's as it was and the output's at `out0_1 x0`. -/
theorem sound_kernel0 (c : Dev nD) (E : Set ℕ) (i : grid0.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover0_1 _)

/-- The input's current staging buffer holds its block at every point, for the region's own pipeline data. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Frame1.lean ====
/-
  Region 1: the body's triple and the pipeline's body obligation. On whole staging buffers, the input's at the
  block read and the output's at anything, the body runs to the input's buffer unchanged and the output's buffer
  holding the one whole-block store, whose value is a function of the block read alone.
-/
import proofs.«129114_j1357209666244_2_alg».proof.Proof.KI.Blocks

import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers the buffer. -/
theorem cover1_1 (p0 : Vec F S1x16x192x192 .f32) (y : S1x16x192x192.Idx) :
    ∃ pc ∈ ([⟨r1, p0⟩] : List (View.Piece (Elt F) S1x16x192x192 .f32)), y ∈ pc.1.set :=
  View.cover_of_tiled [⟨r1, p0⟩] S1x16x192x192.size (by rfl) y

set_option maxHeartbeats 1000000 in
/-- The body on whole staging buffers, the input's at `x0` and the output's at anything, runs to the continuation
    holding the input's as it was and the output's at `out1_1 x0`. -/
theorem sound_kernel1 (c : Dev nD) (E : Set ℕ) (i : grid1.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_kernel i arg1 harg1 arg2 harg2) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1_1 _)

/-- The input's current staging buffer holds its block at every point, for the region's own pipeline data. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Frame2.lean ====
/-
  Region 2: the body's triple and the pipeline's body obligation. On whole staging buffers, the input's at the
  block read and the output's at anything, the body runs to the input's buffer unchanged and the output's buffer
  holding the one whole-block store, whose value is a function of the block read alone.
-/
import proofs.«129114_j1357209666244_2_alg».proof.Proof.KI.Blocks

import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one store is of the whole block, so it covers the buffer. -/
theorem cover2_1 (p0 : Vec F S1x16x192x192 .f32) (y : S1x16x192x192.Idx) :
    ∃ pc ∈ ([⟨r2, p0⟩] : List (View.Piece (Elt F) S1x16x192x192 .f32)), y ∈ pc.1.set :=
  View.cover_of_tiled [⟨r2, p0⟩] S1x16x192x192.size (by rfl) y

set_option maxHeartbeats 1000000 in
/-- The body on whole staging buffers, the input's at `x0` and the output's at anything, runs to the continuation
    holding the input's as it was and the output's at `out2_1 x0`. -/
theorem sound_kernel2 (c : Dev nD) (E : Set ℕ) (i : grid2.Coords) (arg1 : Memref sig .tc .vmem S1x16x192x192 .f32) (harg1 : arg1.IsWhole) (arg2 : Memref sig .tc .vmem S1x16x192x192 .f32) (harg2 : arg2.IsWhole)
    (x0 : Vec F S1x16x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_kernel i arg1 harg1 arg2 harg2) K := by
  simp only [cc2_kernel_eq_skeleton]; unfold cc2_kernel_skel
  simp only [k2_part1_eq_skeleton]; unfold k2_part1_skel
  simp only [k2_part2_eq_skeleton]; unfold k2_part2_skel
  simp only [k2_part3_eq_skeleton]; unfold k2_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover2_1 _)

/-- The input's current staging buffer holds its block at every point, for the region's own pipeline data. -/
theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Frame3.lean ====
/-
  Region 3: the body's triple and the pipeline's body obligation. On whole staging buffers, the input's at the
  block read and the output's at anything, the body runs to the input's buffer unchanged and the output's buffer
  holding the one whole-block store, whose value is a function of the block read alone.
-/
import proofs.«129114_j1357209666244_2_alg».proof.Proof.KI.Blocks

import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- The input window's current staging buffer holds its block at every point, fetched there or not: the window is
    fetched at every point, is uncut and never idle, and the body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store is of the whole block, so it covers the buffer. -/
theorem cover3_1 (p0 : Vec F S1x8x192x192 .f32) (y : S1x8x192x192.Idx) :
    ∃ pc ∈ ([⟨r3, p0⟩] : List (View.Piece (Elt F) S1x8x192x192 .f32)), y ∈ pc.1.set :=
  View.cover_of_tiled [⟨r3, p0⟩] S1x8x192x192.size (by rfl) y

set_option maxHeartbeats 1000000 in
/-- The body on whole staging buffers, the input's at `x0` and the output's at anything, runs to the continuation
    holding the input's as it was and the output's at `out3_1 x0`. -/
theorem sound_kernel3 (c : Dev nD) (E : Set ℕ) (i : grid3.Coords) (arg1 : Memref sig .tc .vmem S1x8x192x192 .f32) (harg1 : arg1.IsWhole) (arg2 : Memref sig .tc .vmem S1x8x192x192 .f32) (harg2 : arg2.IsWhole)
    (x0 : Vec F S1x8x192x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3_kernel i arg1 harg1 arg2 harg2) K := by
  simp only [cc3_kernel_eq_skeleton]; unfold cc3_kernel_skel
  simp only [k3_part1_eq_skeleton]; unfold k3_part1_skel
  simp only [k3_part2_eq_skeleton]; unfold k3_part2_skel
  simp only [k3_part3_eq_skeleton]; unfold k3_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover3_1 _)

/-- The input's current staging buffer holds its block at every point, for the region's own pipeline data. -/
theorem before3_0 (c : Dev nD) (t : Fin cfg3.N) (d) : (dat3 V c).before 0 t d = iblk3 V c 0 t :=
  before3_0_of V (dat3 V c) (A_eq3 V c 0) (after3_0 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Frame.lean ====
/-
  The run of @main as nine segments — five stretches of host operations and four kernel regions in turn — and
  what it leaves: every unscoped buffer of every core at the contents obtained by folding the segments over the
  launch memory. A host stretch's step is the stretch's own valuation transformer; a region's step puts the
  region's arrays at what its pipeline leaves (the input array as entered, the output array at its write-backs)
  and leaves every other buffer as entered. The argument array is written by no segment, so it ends as launched.
-/
import proofs.«129114_j1357209666244_2_alg».proof.Proof.KI.Blocks
import proofs.«129114_j1357209666244_2_alg».proof.Proof.KI.Frame0
import proofs.«129114_j1357209666244_2_alg».proof.Proof.KI.Frame1
import proofs.«129114_j1357209666244_2_alg».proof.Proof.KI.Frame2
import proofs.«129114_j1357209666244_2_alg».proof.Proof.KI.Frame3
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import proofs.«129114_j1357209666244_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After the host stretch `hostOps0` (region 0's entry). -/
abbrev W1 (c : Dev nD) : Valuation τ sig (Elt F) := StableHlo.after hostOps0 (W0 m ρ c)
/-- The same read at the TensorCore's references (what region 0's pipeline data take). -/
abbrev V1 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 (c : Dev nD) : Valuation τ sig (Elt F) := StableHlo.after hostOps1 (W2 m ρ c)
/-- The same read at the TensorCore's references (what region 1's pipeline data take). -/
abbrev V3 : (c : Dev nD) → (b : Ref sig .tc) → Buf (Elt F) ((c : Thread nD τ).loc b) := fun c b => W3 m ρ c b
/-- At region 1's exit: its arrays at what the pipeline leaves (the input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 (c : Dev nD) : Valuation τ sig (Elt F) := StableHlo.after hostOps2 (W4 m ρ c)
/-- The same read at the TensorCore's references (what region 2's pipeline data take). -/
abbrev V5 : (c : Dev nD) → (b : Ref sig .tc) → Buf (Elt F) ((c : Thread nD τ).loc b) := fun c b => W5 m ρ c b
/-- At region 2's exit: its arrays at what the pipeline leaves (the input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 (c : Dev nD) : Valuation τ sig (Elt F) := StableHlo.after hostOps3 (W6 m ρ c)
/-- The same read at the TensorCore's references (what region 3's pipeline data take). -/
abbrev V7 : (c : Dev nD) → (b : Ref sig .tc) → Buf (Elt F) ((c : Thread nD τ).loc b) := fun c b => W7 m ρ c b
/-- At region 3's exit: its arrays at what the pipeline leaves (the input as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch `hostOps4`: what the launch reads at the end. -/
abbrev W9 (c : Dev nD) : Valuation τ sig (Elt F) := StableHlo.after hostOps4 (W8 m ρ c)

/-! ### The argument ends as launched: no host stretch writes it and no region has it among its arrays -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-! ## The pipeline data family and the thread state -/

/-- Every pipeline's data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's transform of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments. -/
theorem main_run (c : Dev nD) : main (F := F) c = Pipeline.Seg.run (segs m ρ) :=
  main_segs adm (pdats m ρ) () 𝒱₀ L lv _ _ _ _ _ (reg0 m ρ) (reg1 m ρ) (reg2 m ρ) (reg3 m ρ) rfl rfl rfl rfl rfl c

set_option backward.isDefEq.respectTransparency.types false in
/-- THE RUN: at the compiled mesh, from any memory with zero counters, every weakly fair execution of @main on the
    TensorCores terminates, nothing faulting, and in every final state every unscoped buffer of every core holds the
    last boundary's contents `W9`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every weakly fair execution of @main terminates, nothing faulting, and every final state has the
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W9_main_arg0 m ρ c)) (run_all m ρ)

end Cert.KernelIdeal.Fr

end
-- ==== Proof.KI.ArrFold.lean ====
/-
  The contents of @main's buffers at the boundaries, read at the buffers that matter. Each region's input array is a
  slice of the argument along the channel axis (channels 0–15, 16–31, 32–47, 48–55), because the argument reaches
  every host stretch as launched. The result buffer is the concatenation along the channel axis of the four regions'
  output arrays, each as its region left it (no later segment writes it), and of channels 56–63 of the argument.
-/
import proofs.«129114_j1357209666244_2_alg».proof.Proof.KI.Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Idealize.ShloMosaic.StableHlo
open Cert.KernelIdeal Cert.KernelIdeal.Gen

variable {F : FTy → Type} [FloatOps F]

/-! ## What each host stretch writes, from any contents -/

/-- The stretch before region 0 writes the region's input array: a channel slice of the argument. -/
theorem hostOps0_in (Wv : Valuation τ sig (Elt F)) : StableHlo.after hostOps0 Wv (Proc.devRef .tc main_v0)
    = extractStridedSlice S16x16x192x192 ![0, 0, 0, 0] (Wv (Proc.devRef .tc main_arg0)) slices_S16x64x192x192_S16x16x192x192_0_0_0_0 := by
  after_results

/-- The stretch before region 1 writes the region's input array: a channel slice of the argument. -/
theorem hostOps1_in (Wv : Valuation τ sig (Elt F)) : StableHlo.after hostOps1 Wv (Proc.devRef .tc main_v2)
    = extractStridedSlice S16x16x192x192 ![0, 16, 0, 0] (Wv (Proc.devRef .tc main_arg0)) slices_S16x64x192x192_S16x16x192x192_0_16_0_0 := by
  after_results

/-- The stretch before region 2 writes the region's input array: a channel slice of the argument. -/
theorem hostOps2_in (Wv : Valuation τ sig (Elt F)) : StableHlo.after hostOps2 Wv (Proc.devRef .tc main_v4)
    = extractStridedSlice S16x16x192x192 ![0, 32, 0, 0] (Wv (Proc.devRef .tc main_arg0)) slices_S16x64x192x192_S16x16x192x192_0_32_0_0 := by
  after_results

/-- The stretch before region 3 writes the region's input array: a channel slice of the argument. -/
theorem hostOps3_in (Wv : Valuation τ sig (Elt F)) : StableHlo.after hostOps3 Wv (Proc.devRef .tc main_v6)
    = extractStridedSlice S16x8x192x192 ![0, 48, 0, 0] (Wv (Proc.devRef .tc main_arg0)) slices_S16x64x192x192_S16x8x192x192_0_48_0_0 := by
  after_results

/-- The last stretch writes the result: the four regions' output arrays and the argument's last channels, concatenated
    along the channel axis. -/
theorem hostOps4_v9 (Wv : Valuation τ sig (Elt F)) : StableHlo.after hostOps4 Wv (Proc.devRef .tc main_v9)
    = concatenate S16x64x192x192 1 [⟨S16x16x192x192, Wv (Proc.devRef .tc main_v1)⟩, ⟨S16x16x192x192, Wv (Proc.devRef .tc main_v3)⟩, ⟨S16x16x192x192, Wv (Proc.devRef .tc main_v5)⟩, ⟨S16x8x192x192, Wv (Proc.devRef .tc main_v7)⟩,
        ⟨S16x8x192x192, extractStridedSlice S16x8x192x192 ![0, 56, 0, 0] (Wv (Proc.devRef .tc main_arg0)) slices_S16x64x192x192_S16x8x192x192_0_56_0_0⟩]
      concatenates_S16x16x192x192_S16x16x192x192_S16x16x192x192_S16x8x192x192_S16x8x192x192_S16x64x192x192_d1 := by
  after_results
  dsimp only [Matrix.cons_val_zero, Matrix.cons_val_one, Matrix.cons_val]
  rw [StableHlo.unary_result]
  rw [StableHlo.unary_result_ne (h := (by decide : main_v1 ≠ main_v8)), StableHlo.unary_result_ne (h := (by decide : main_v3 ≠ main_v8)),
    StableHlo.unary_result_ne (h := (by decide : main_v5 ≠ main_v8)), StableHlo.unary_result_ne (h := (by decide : main_v7 ≠ main_v8))]

variable (m : (ℓ : Loc nD τ sig) → Buf (Elt F) ℓ) (ρ : Dev nD → PrngReg)

/-! ## A host stretch keeps what it does not write -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## The argument at every boundary: as launched -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_keep m ρ c main_arg0 (by decide)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (W7_keep m ρ c main_arg0 (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)

/-! ## Each region's input array is a channel slice of the argument -/

theorem V1_in (c : Dev nD) : V1 m ρ c main_v0
    = extractStridedSlice S16x16x192x192 ![0, 0, 0, 0] (m ((c : Thread nD τ).loc main_arg0)) slices_S16x64x192x192_S16x16x192x192_0_0_0_0 := by
  show StableHlo.after hostOps0 (W0 m ρ c) (Proc.devRef .tc main_v0) = _
  rw [hostOps0_in, W0_main_arg0 m ρ c]

theorem V3_in (c : Dev nD) : V3 m ρ c main_v2
    = extractStridedSlice S16x16x192x192 ![0, 16, 0, 0] (m ((c : Thread nD τ).loc main_arg0)) slices_S16x64x192x192_S16x16x192x192_0_16_0_0 := by
  show StableHlo.after hostOps1 (W2 m ρ c) (Proc.devRef .tc main_v2) = _
  rw [hostOps1_in, W2_main_arg0 m ρ c]

theorem V5_in (c : Dev nD) : V5 m ρ c main_v4
    = extractStridedSlice S16x16x192x192 ![0, 32, 0, 0] (m ((c : Thread nD τ).loc main_arg0)) slices_S16x64x192x192_S16x16x192x192_0_32_0_0 := by
  show StableHlo.after hostOps2 (W4 m ρ c) (Proc.devRef .tc main_v4) = _
  rw [hostOps2_in, W4_main_arg0 m ρ c]

theorem V7_in (c : Dev nD) : V7 m ρ c main_v6
    = extractStridedSlice S16x8x192x192 ![0, 48, 0, 0] (m ((c : Thread nD τ).loc main_arg0)) slices_S16x64x192x192_S16x8x192x192_0_48_0_0 := by
  show StableHlo.after hostOps3 (W6 m ρ c) (Proc.devRef .tc main_v6) = _
  rw [hostOps3_in, W6_main_arg0 m ρ c]

/-! ## Each region's output array reaches the last stretch as the region left it -/

theorem W8_main_v7 (c : Dev nD) : W8 m ρ c (Proc.devRef .tc main_v7) = (dat3 (V7 m ρ) c).arrAt 1 cfg3.N :=
  W8_arr m ρ c 1
theorem W8_main_v5 (c : Dev nD) : W8 m ρ c (Proc.devRef .tc main_v5) = (dat2 (V5 m ρ) c).arrAt 1 cfg2.N :=
  (W8_of_ne m ρ c main_v5 (by decide)).trans <| (W7_keep m ρ c main_v5 (by decide)).trans (W6_arr m ρ c 1)
theorem W8_main_v3 (c : Dev nD) : W8 m ρ c (Proc.devRef .tc main_v3) = (dat1 (V3 m ρ) c).arrAt 1 cfg1.N :=
  (W8_of_ne m ρ c main_v3 (by decide)).trans <| (W7_keep m ρ c main_v3 (by decide)).trans <|
    (W6_of_ne m ρ c main_v3 (by decide)).trans <| (W5_keep m ρ c main_v3 (by decide)).trans (W4_arr m ρ c 1)
theorem W8_main_v1 (c : Dev nD) : W8 m ρ c (Proc.devRef .tc main_v1) = (dat0 (V1 m ρ) c).arrAt 1 cfg0.N :=
  (W8_of_ne m ρ c main_v1 (by decide)).trans <| (W7_keep m ρ c main_v1 (by decide)).trans <|
    (W6_of_ne m ρ c main_v1 (by decide)).trans <| (W5_keep m ρ c main_v1 (by decide)).trans <|
    (W4_of_ne m ρ c main_v1 (by decide)).trans <| (W3_keep m ρ c main_v1 (by decide)).trans (W2_arr m ρ c 1)

/-! ## The result buffer at the end -/

/-- What the launch reads in the result buffer: the four regions' output arrays and the argument's last eight
    channels, concatenated along the channel axis. -/
theorem W9_main_v9 (c : Dev nD) : W9 m ρ c (Proc.devRef .tc main_v9)
    = concatenate S16x64x192x192 1 [⟨S16x16x192x192, (dat0 (V1 m ρ) c).arrAt 1 cfg0.N⟩, ⟨S16x16x192x192, (dat1 (V3 m ρ) c).arrAt 1 cfg1.N⟩,
        ⟨S16x16x192x192, (dat2 (V5 m ρ) c).arrAt 1 cfg2.N⟩, ⟨S16x8x192x192, (dat3 (V7 m ρ) c).arrAt 1 cfg3.N⟩,
        ⟨S16x8x192x192, extractStridedSlice S16x8x192x192 ![0, 56, 0, 0] (m ((c : Thread nD τ).loc main_arg0)) slices_S16x64x192x192_S16x8x192x192_0_56_0_0⟩]
      concatenates_S16x16x192x192_S16x16x192x192_S16x16x192x192_S16x8x192x192_S16x8x192x192_S16x64x192x192_d1 := by
  show StableHlo.after hostOps4 (W8 m ρ c) (Proc.devRef .tc main_v9) = _
  rw [hostOps4_v9, W8_main_v1 m ρ c, W8_main_v3 m ρ c, W8_main_v5 m ρ c, W8_main_v7 m ρ c, W8_main_arg0 m ρ c]

end Cert.KernelIdeal.Fr

end
-- ==== Proof.Spec.lean ====
/-
  The specification both programs are compared with.

  The activation array has shape [16, 64, 192, 192]. Its 64 channels fall into five ranges. In the first four
  (channels 0–15, 16–31, 32–47, 48–55, with group sizes 1, 2, 4, 8) each 192 × 192 plane is cut into groups of
  bs × bs neighbouring entries; an entry is kept when the sum of its group is positive and replaced by zero
  otherwise: it is multiplied by the 0/1 indicator of that sum being positive. The last range (channels 56–63)
  is passed through unchanged. Group `(h / bs, w / bs)` of a plane holds the entries `(a + bs * (h / bs), b + bs * (w / bs))`
  for `a, b < bs`.
-/
import Idealize.ShloMosaic.PureOps.Ideal
import Idealize.ShloMosaic.Lib.ValueIdx

noncomputable section

namespace Cert.Spec

open Idealize.ShloMosaic Idealize.ShloMosaic.ValueIdx

/-- The 0/1 indicator of positivity, as an extended real. -/
def ind (s : EReal) : EReal := if 0 < s then 1 else 0

/-- An array of `C` channels of 192 × 192 planes for each of 16 batch entries, as extended reals. -/
abbrev Arr (C : ℕ) : Type := (⟨4, ![16, C, 192, 192]⟩ : Shape).Idx → EReal

/-- Offset `a` inside the group of `h` is a row of the plane. -/
theorem pos_lt {bs : ℕ} (hd : bs ∣ 192) {a h : ℕ} (ha : a < bs) (hh : h < 192) : a + bs * (h / bs) < 192 := by
  obtain ⟨q, hq⟩ := hd
  have h1 : h / bs < q := Nat.div_lt_of_lt_mul (by rw [← hq]; exact hh)
  have h2 : bs * (h / bs + 1) ≤ bs * q := Nat.mul_le_mul_left bs h1
  rw [← hq] at h2
  have h3 : bs * (h / bs + 1) = bs * (h / bs) + bs := by ring
  omega

/-- The sum of the `bs × bs` group that entry `(h, w)` of plane `(n, c)` lies in. -/
def gsum (bs : ℕ) (hd : bs ∣ 192) {C : ℕ} (y : Arr C) (n : Fin 16) (c : Fin C) (h w : Fin 192) : EReal :=
  ∑ a : Fin bs, ∑ b : Fin bs,
    y (ix4 n c ⟨a.val + bs * (h.val / bs), pos_lt hd a.isLt h.isLt⟩ ⟨b.val + bs * (w.val / bs), pos_lt hd b.isLt w.isLt⟩)

/-- One channel range with group size `bs`: each entry times the indicator that its group's sum is positive. -/
def Gg (bs : ℕ) (hd : bs ∣ 192) {C : ℕ} (y : Arr C) : Arr C := fun i =>
  y i * ind (gsum bs hd y ⟨(i 0).val, (i 0).isLt⟩ ⟨(i 1).val, (i 1).isLt⟩ ⟨(i 2).val, (i 2).isLt⟩ ⟨(i 3).val, (i 3).isLt⟩)

theorem Gg_ix4 (bs : ℕ) (hd : bs ∣ 192) {C : ℕ} (y : Arr C) (n : Fin 16) (c : Fin C) (h w : Fin 192) :
    Gg bs hd y (ix4 n c h w) = y (ix4 n c h w) * ind (gsum bs hd y n c h w) := rfl

/-- Channels `o … o + C - 1` of the whole array, as an array of `C` channels. -/
def chans (o C : ℕ) (hC : o + C ≤ 64) (x : Arr 64) : Arr C := fun j =>
  x (ix4 ⟨(j 0).val, (j 0).isLt⟩ ⟨o + (j 1).val, by have h : (j 1).val < C := (j 1).isLt; show o + (j 1).val < 64; omega⟩ ⟨(j 2).val, (j 2).isLt⟩ ⟨(j 3).val, (j 3).isLt⟩)

theorem chans_ix4 (o C : ℕ) (hC : o + C ≤ 64) (x : Arr 64) (n : Fin 16) (c : Fin C) (h w : Fin 192) :
    chans o C hC x (ix4 n c h w) = x (ix4 n ⟨o + c.val, by have := c.isLt; omega⟩ h w) := rfl

theorem d1 : 1 ∣ 192 := by decide
theorem d2 : 2 ∣ 192 := by decide
theorem d4 : 4 ∣ 192 := by decide
theorem d8 : 8 ∣ 192 := by decide

/-- The whole result: the five channel ranges side by side. -/
def G (x : Arr 64) : Arr 64 := fun i =>
  if h0 : (i 1).val < 16 then Gg 1 d1 (chans 0 16 (by decide) x) (ix4 ⟨(i 0).val, (i 0).isLt⟩ ⟨(i 1).val, h0⟩ ⟨(i 2).val, (i 2).isLt⟩ ⟨(i 3).val, (i 3).isLt⟩)
  else if h1 : (i 1).val < 32 then Gg 2 d2 (chans 16 16 (by decide) x) (ix4 ⟨(i 0).val, (i 0).isLt⟩ ⟨(i 1).val - 16, by omega⟩ ⟨(i 2).val, (i 2).isLt⟩ ⟨(i 3).val, (i 3).isLt⟩)
  else if h2 : (i 1).val < 48 then Gg 4 d4 (chans 32 16 (by decide) x) (ix4 ⟨(i 0).val, (i 0).isLt⟩ ⟨(i 1).val - 32, by omega⟩ ⟨(i 2).val, (i 2).isLt⟩ ⟨(i 3).val, (i 3).isLt⟩)
  else if h3 : (i 1).val < 56 then Gg 8 d8 (chans 48 8 (by decide) x) (ix4 ⟨(i 0).val, (i 0).isLt⟩ ⟨(i 1).val - 48, by omega⟩ ⟨(i 2).val, (i 2).isLt⟩ ⟨(i 3).val, (i 3).isLt⟩)
  else x i

/-- Every entry of the array is a real number. -/
def Finite {C : ℕ} (y : Arr C) : Prop := ∀ i, ∃ r : ℝ, y i = (r : EReal)

theorem Finite.chans {o C : ℕ} (hC : o + C ≤ 64) {x : Arr 64} (hx : Finite x) : Finite (chans o C hC x) :=
  fun _ => hx _

end Cert.Spec

end
-- ==== Proof.Consts.lean ====
/-
  The float constants the kernels spell, as the extended reals their patterns denote: the group means' factors
  1/4, 1/16 and 1/64 (exact dyadic rationals) and zero.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_quarter : Ideal.ofBits .f32 0x3E800000#32 = ((1 / 4 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

end Cert.Consts

end
-- ==== Proof.KI.Val0.lean ====
/-
  Region 0's body at group size 1: the body stores the pointwise maximum with zero of the block it loaded. A group of
  one entry is the entry itself, and for a real number `r`, `max r 0 = r * (if 0 < r then 1 else 0)`: the stored block
  is the loaded block times the 0/1 indicator that each entry's (one-entry) group sum is positive.
-/
import proofs.«129114_j1357209666244_2_alg».proof.Proof.KI.Blocks
import proofs.«129114_j1357209666244_2_alg».proof.Proof.Spec
import proofs.«129114_j1357209666244_2_alg».proof.Proof.Consts
import Idealize.ShloMosaic.Lib.Pipeline.Value

noncomputable section

namespace Cert.KernelIdeal.Val0

open Idealize.ShloMosaic Idealize.ShloMosaic.ValueIdx
open Cert.KernelIdeal Cert.KernelIdeal.Gen
open scoped BigOperators

/-- The sum of the 1 × 1 group that entry `(h, w)` of plane `c` of the block lies in. -/
def blockSum (x0 : Vec Ideal S1x16x192x192 .f32) (c : Fin 16) (h w : Fin 192) : EReal :=
  ∑ a : Fin 1, ∑ b : Fin 1,
    x0 (ix4 0 c ⟨a.val + 1 * (h.val / 1), Cert.Spec.pos_lt Cert.Spec.d1 a.isLt h.isLt⟩
      ⟨b.val + 1 * (w.val / 1), Cert.Spec.pos_lt Cert.Spec.d1 b.isLt w.isLt⟩)

/-- A group of one entry sums to the entry. -/
theorem blockSum_eq (x0 : Vec Ideal S1x16x192x192 .f32) (c : Fin 16) (h w : Fin 192) :
    blockSum x0 c h w = x0 (ix4 0 c h w) := by
  unfold blockSum
  rw [Fin.sum_univ_one, Fin.sum_univ_one]
  refine congrArg x0 (funext fun a => ?_)
  match a with
  | ⟨0, _⟩ => rfl
  | ⟨1, _⟩ => rfl
  | ⟨2, _⟩ => exact Fin.ext (by show 0 + 1 * (h.val / 1) = h.val; rw [Nat.div_one]; omega)
  | ⟨3, _⟩ => exact Fin.ext (by show 0 + 1 * (w.val / 1) = w.val; rw [Nat.div_one]; omega)

/-- For a real number, the maximum with zero is the number times the indicator of its positivity. -/
theorem max_zero_eq_mul_ind (r : ℝ) : max (r : EReal) 0 = (r : EReal) * Cert.Spec.ind (r : EReal) := by
  unfold Cert.Spec.ind
  by_cases hr : (0 : EReal) < (r : EReal)
  · rw [if_pos hr, mul_one, max_eq_left hr.le]
  · rw [if_neg hr, mul_zero, max_eq_right (not_lt.1 hr)]

/-- **Region 0's body read at an entry**: the loaded entry times the indicator that its group sum is positive. -/
theorem pay_apply (x0 : Vec Ideal S1x16x192x192 .f32) (hx : ∀ i, ∃ r : ℝ, x0 i = (r : EReal)) (c : Fin 16) (h w : Fin 192) :
    Cert.KernelIdeal.Fr.pay0 (F := Ideal) x0 (ix4 0 c h w) = x0 (ix4 0 c h w) * Cert.Spec.ind (blockSum x0 c h w) := by
  have e : Cert.KernelIdeal.Fr.pay0 (F := Ideal) x0 (ix4 0 c h w)
      = max (shapeCast S1x16x192x192 x0 Facts₀.shapeCasts_S1x16x192x192_S1x16x192x192 (ix4 0 c h w)) (Ideal.ofBits .f32 0x00000000#32) := rfl
  rw [e, shapeCast_self, Cert.Consts.ofBits_zero, blockSum_eq]
  obtain ⟨r, hr⟩ := hx (ix4 0 c h w)
  rw [hr]
  exact max_zero_eq_mul_ind r

end Cert.KernelIdeal.Val0

end
-- ==== Proof.KI.Arr0.lean ====
/-
  Region 0: the output array after the region as ONE function of the input array. Point `t` of the grid stages
  batch row `t` of the input array whole, and writes the body's stored block back as batch row `t` of the output
  array; the sixteen rows tile the output array. So when the stored block at row `t` is row `t` of a function `G` of
  the input array, the output array ends holding `G` of the input array.
-/
import proofs.«129114_j1357209666244_2_alg».proof.Proof.KI.Blocks
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

-- the TensorCore's buffer contents when the region is entered
variable (V : (c : Dev nD) → (b : Ref sig .tc) → Buf (Elt F) ((c : Thread nD τ).loc b)) (c : Dev nD)

theorem hz4_0 : (![0, 0, 0, 0] : Fin 4 → Nat) = fun _ => 0 := funext fun a => by fin_cases a <;> rfl

/-! ## Region 0: from the blocks to the array -/

/-- The index maps of region 0, decided over the grid: point `t` stages batch row `t` of either array, whole. -/
theorem idx_facts0 : ∀ t : Fin cfg0.N, win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The input block at point `t` is batch row `t` of the input array. -/
theorem iblk0_row (c : Dev nD) (t : Fin cfg0.N) (ht : t.val < 16) :
    (iblk0 V c 0 t : S1x16x192x192.Idx → Elt F .f32) = fun i' => (V c (Pipeline.arrRef spec0 0) : S16x16x192x192.Idx → Elt F .f32)
      (ix4 (⟨t.val, ht⟩ : Fin 16) ⟨(i' 1).val, (i' 1).isLt⟩ ⟨(i' 2).val, (i' 2).isLt⟩ ⟨(i' 3).val, (i' 3).isLt⟩) := by
  obtain ⟨e0, e1, e2, e3, -, -, -, -⟩ := idx_facts0 t
  funext y
  show (V c (Pipeline.arrRef spec0 0) : S16x16x192x192.Idx → Elt F .f32) (((cfg0.win 0).blk t).view.emb y) = _
  congr 1
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 16 + 1 * (y 1).val = (y 1).val; omega
  | ⟨2, _⟩ => show win0_0.index t (2 : Fin 4) * 192 + 1 * (y 2).val = (y 2).val; omega
  | ⟨3, _⟩ => show win0_0.index t (3 : Fin 4) * 192 + 1 * (y 3).val = (y 3).val; omega

/-- WHAT POINT `t` WRITES BACK is block `t` of `G` of the input array, when the body's stored value at row `t` is
    `G` of the input array there. -/
theorem flushed0_eq (G : (S16x16x192x192.Idx → Elt F .f32) → (S16x16x192x192.Idx → Elt F .f32))
    (hpay : ∀ (t : Fin 16) (i : S1x16x192x192.Idx), pay0 (fun i' => (V c (Pipeline.arrRef spec0 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec0 0)) (ix4 t ⟨(i 1).val, (i 1).isLt⟩ ⟨(i 2).val, (i 2).isLt⟩ ⟨(i 3).val, (i 3).isLt⟩))
    (t : Fin cfg0.N) :
    (dat0 V c).flushed 1 t = ((cfg0.win 1).blk t).view.read (Elt F) (G (V c (Pipeline.arrRef spec0 0))) := by
  have ht : t.val < 16 := Nat.lt_of_lt_of_eq t.isLt N_0
  show (cfg0.win 1).cut (grid0.coords t) ((dat0 V c).after 1 t) = _
  rw [after0_1]
  unfold out0_1
  rw [View.canon_unit_zero hz4_0]
  simp only [View.ld_unit_zero (S := S1x16x192x192) hz4_0]
  rw [iblk0_row V c t ht]
  obtain ⟨-, -, -, -, e0, e1, e2, e3⟩ := idx_facts0 t
  funext j
  show pay0 _ j = G (V c (Pipeline.arrRef spec0 0)) (((cfg0.win 1).blk t).view.emb j)
  refine (hpay ⟨t.val, ht⟩ j).trans ?_
  congr 1
  funext a; apply Fin.ext
  match a with
  | ⟨0, _⟩ => show t.val = win0_1.index t (0 : Fin 4) * 1 + 1 * (j 0).val; have hj : (j 0).val < 1 := (j 0).isLt; omega
  | ⟨1, _⟩ => show (j 1).val = win0_1.index t (1 : Fin 4) * 16 + 1 * (j 1).val; omega
  | ⟨2, _⟩ => show (j 2).val = win0_1.index t (2 : Fin 4) * 192 + 1 * (j 2).val; omega
  | ⟨3, _⟩ => show (j 3).val = win0_1.index t (3 : Fin 4) * 192 + 1 * (j 3).val; omega

/-- An index of the output array is in point `t`'s block iff each coordinate is in the block's range on its axis. -/
theorem mem_blk0 (t : Fin cfg0.N) (i : S16x16x192x192.Idx) :
    i ∈ ((cfg0.win 1).blk t).view.set ↔ ∀ a : Fin 4, win0_1.index t a * S1x16x192x192.size a ≤ (i a).val ∧ (i a).val < win0_1.index t a * S1x16x192x192.size a + S1x16x192x192.size a := by
  show i ∈ ((View.whole main_v1).slice (win0_1.rect t)).set ↔ _
  rw [View.set_slice_whole, Rect.mem_set_unit]
  exact Iff.rfl

/-- Every index of the output array is in the block of the point its batch row names. -/
theorem cover0 (i : S16x16x192x192.Idx) : ∃ t : Fin cfg0.N, (cfg0.win 1).flush t = true ∧ i ∈ ((cfg0.win 1).blk t).view.set := by
  have hi0 : (i 0).val < 16 := (i 0).isLt
  have hi1 : (i 1).val < 16 := (i 1).isLt
  have hi2 : (i 2).val < 192 := (i 2).isLt
  have hi3 : (i 3).val < 192 := (i 3).isLt
  refine ⟨⟨(i 0).val, Nat.lt_of_lt_of_eq hi0 N_0.symm⟩, flush0_1 _, ?_⟩
  rw [mem_blk0]
  obtain ⟨-, -, -, -, e0, e1, e2, e3⟩ := idx_facts0 ⟨(i 0).val, Nat.lt_of_lt_of_eq hi0 N_0.symm⟩
  intro a
  match a with
  | ⟨0, _⟩ => show win0_1.index _ (0 : Fin 4) * 1 ≤ (i 0).val ∧ (i 0).val < win0_1.index _ (0 : Fin 4) * 1 + 1; rw [e0]; dsimp only; omega
  | ⟨1, _⟩ => show win0_1.index _ (1 : Fin 4) * 16 ≤ (i 1).val ∧ (i 1).val < win0_1.index _ (1 : Fin 4) * 16 + 16; rw [e1]; omega
  | ⟨2, _⟩ => show win0_1.index _ (2 : Fin 4) * 192 ≤ (i 2).val ∧ (i 2).val < win0_1.index _ (2 : Fin 4) * 192 + 192; rw [e2]; omega
  | ⟨3, _⟩ => show win0_1.index _ (3 : Fin 4) * 192 ≤ (i 3).val ∧ (i 3).val < win0_1.index _ (3 : Fin 4) * 192 + 192; rw [e3]; omega

/-- THE OUTPUT ARRAY after region 0: `G` of the input array, when the body's stored value at every batch row is
    `G` of the input array at that row. -/
theorem arr0_of_pay (G : (S16x16x192x192.Idx → Elt F .f32) → (S16x16x192x192.Idx → Elt F .f32))
    (hpay : ∀ (t : Fin 16) (i : S1x16x192x192.Idx), pay0 (fun i' => (V c (Pipeline.arrRef spec0 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec0 0)) (ix4 t ⟨(i 1).val, (i 1).isLt⟩ ⟨(i 2).val, (i 2).isLt⟩ ⟨(i 3).val, (i 3).isLt⟩)) :
    (dat0 V c).arrAt 1 cfg0.N = G (V c (Pipeline.arrRef spec0 0)) :=
  (dat0 V c).arrAt_eq_of_cover 1 (G (V c (Pipeline.arrRef spec0 0))) (fun t _ => flushed0_eq V c G hpay t) cover0

end Cert.KernelIdeal.Fr

end
-- ==== Proof.LibPlanes.lean ====
/-
  Planes of a stack regarded as rows, for any extents.

  A stack of `B` planes of `H × W` entries (with a leading unit axis) regarded as `B * H` rows of `W` entries,
  and back; `M` rows regarded as `B` groups of `H` rows, and back; and the swap of the last two axes of a
  rank-3 array — each read at an index given by coordinates. Row `b * H + h` is row `h` of plane `b`: the
  indices on the two sides of a cast have the same row-major position.
-/
import Idealize.ShloMosaic.Lib.Pipeline.Value
import Idealize.ShloMosaic.Lib.ValueIdx

noncomputable section

namespace Cert.Planes

open Idealize.ShloMosaic Idealize.ShloMosaic.ValueIdx

/-- Row `h` of plane `b` is row `b * H + h` of the `M = B * H` rows. -/
theorem row_lt {B H M : ℕ} (hM : M = B * H) (b : Fin B) (h : Fin H) : b.val * H + h.val < M := by
  have hb := b.isLt; have hh := h.isLt
  have : (b.val + 1) * H ≤ B * H := Nat.mul_le_mul_right H hb
  rw [hM]; nlinarith

/-- `[1, B, H, W]` regarded as `[M, W]`: row `b * H + h` at column `w` is entry `(0, b, h, w)`. -/
theorem planes_to_rows {α : Type} {B H W M : ℕ} (hM : M = B * H) (x : (⟨4, ![1, B, H, W]⟩ : Shape).Idx → α)
    (hc : (⟨4, ![1, B, H, W]⟩ : Shape).ShapeCasts ⟨2, ![M, W]⟩) (b : Fin B) (h : Fin H) (w : Fin W) :
    shapeCast ⟨2, ![M, W]⟩ x hc (ix2 ⟨b.val * H + h.val, row_lt hM b h⟩ w) = x (ix4 0 b h w) :=
  shapeCast_apply x hc _ _ (by
    rw [Shape.rowMajor_val_two, Shape.rowMajor_val_four]
    show (((0 : ℕ) * B + b.val) * H + h.val) * W + w.val = (b.val * H + h.val) * W + w.val
    rw [Nat.zero_mul, Nat.zero_add])

/-- `[M, W]` regarded as `[1, B, H, W]`: entry `(0, b, h, w)` is row `b * H + h` at column `w`. -/
theorem rows_to_planes {α : Type} {B H W M : ℕ} (hM : M = B * H) (x : (⟨2, ![M, W]⟩ : Shape).Idx → α)
    (hc : (⟨2, ![M, W]⟩ : Shape).ShapeCasts ⟨4, ![1, B, H, W]⟩) (b : Fin B) (h : Fin H) (w : Fin W) :
    shapeCast ⟨4, ![1, B, H, W]⟩ x hc (ix4 0 b h w) = x (ix2 ⟨b.val * H + h.val, row_lt hM b h⟩ w) :=
  shapeCast_apply x hc _ _ (by
    rw [Shape.rowMajor_val_two, Shape.rowMajor_val_four]
    show (b.val * H + h.val) * W + w.val = (((0 : ℕ) * B + b.val) * H + h.val) * W + w.val
    rw [Nat.zero_mul, Nat.zero_add])

/-- `[M, D]` regarded as `[B, H, D]`: entry `(b, h, d)` is row `b * H + h` at column `d`. -/
theorem rows_to_groups {α : Type} {B H D M : ℕ} (hM : M = B * H) (x : (⟨2, ![M, D]⟩ : Shape).Idx → α)
    (hc : (⟨2, ![M, D]⟩ : Shape).ShapeCasts ⟨3, ![B, H, D]⟩) (b : Fin B) (h : Fin H) (d : Fin D) :
    shapeCast ⟨3, ![B, H, D]⟩ x hc (ix3 b h d) = x (ix2 ⟨b.val * H + h.val, row_lt hM b h⟩ d) :=
  shapeCast_apply x hc _ _ (by
    rw [Shape.rowMajor_val_two, Shape.rowMajor_val_three]
    rfl)

/-- `[B, H, D]` regarded as `[M, D]`: row `b * H + h` at column `d` is entry `(b, h, d)`. -/
theorem groups_to_rows {α : Type} {B H D M : ℕ} (hM : M = B * H) (x : (⟨3, ![B, H, D]⟩ : Shape).Idx → α)
    (hc : (⟨3, ![B, H, D]⟩ : Shape).ShapeCasts ⟨2, ![M, D]⟩) (b : Fin B) (h : Fin H) (d : Fin D) :
    shapeCast ⟨2, ![M, D]⟩ x hc (ix2 ⟨b.val * H + h.val, row_lt hM b h⟩ d) = x (ix3 b h d) :=
  shapeCast_apply x hc _ _ (by
    rw [Shape.rowMajor_val_two, Shape.rowMajor_val_three]
    rfl)

/-- The last two axes of a rank-3 array swapped: entry `(b, d, h)` of the result is entry `(b, h, d)`. -/
theorem swap_last_two {α : Type} {B H D : ℕ} (x : (⟨3, ![B, H, D]⟩ : Shape).Idx → α)
    (ht : (⟨3, ![B, H, D]⟩ : Shape).Transposes [0, 2, 1] ⟨3, ![B, D, H]⟩) (b : Fin B) (d : Fin D) (h : Fin H) :
    transpose ⟨3, ![B, D, H]⟩ [0, 2, 1] x ht (ix3 b d h) = x (ix3 b h d) :=
  transpose_apply [0, 2, 1] x ht _ _ (fun a => match a with
    | ⟨0, _⟩ => rfl
    | ⟨1, _⟩ => rfl
    | ⟨2, _⟩ => rfl)

end Cert.Planes

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibHotSum.lean ====
/-
  Sums against one-hot matrices, and the sign of a mean.

  A one-hot grouping matrix has entry `1` where the row index lies in the group the column names (row `k`
  in group `k / bs`) and `0` elsewhere. Summing a family against a column of it keeps the group's terms: on
  the extended reals `x * 0 = 0` and `x * 1 = x` for every `x`, so no finiteness is needed for that. A family
  indexed by `Hb * bs` consecutive positions, summed over the positions of group `j`, is the sum of its `bs`
  terms at positions `b + bs * j`. Spreading a family back over the groups picks the entry of the group: the
  sum over `i` of `m i` times the indicator of `h / bs = i` is `m (h / bs)`.
  For real `s` and a positive real `q`, `s * q` is positive exactly when `s` is.
-/
import Mathlib.Algebra.BigOperators.Fin
import Mathlib.Logic.Equiv.Fin.Basic
import Mathlib.Data.EReal.Operations
import Mathlib.Tactic

namespace Cert.HotSum

open Finset

/-- The one-hot entry: `1` when position `k` lies in group `g` of groups of `bs`, else `0`. -/
noncomputable def hot (bs k g : ℕ) : EReal := if k / bs = g then 1 else 0

theorem mul_hot (x : EReal) (bs k g : ℕ) : x * hot bs k g = if k / bs = g then x else 0 := by
  unfold hot; split_ifs <;> simp

/-- A sum over `Hb * bs` positions of the terms whose group is `j` is the sum of that group's `bs` terms. -/
theorem sum_group {M : Type*} [AddCommMonoid M] {N Hb bs : ℕ} (hN : N = Hb * bs) (hbs : 0 < bs) (f : Fin N → M) (j : Fin Hb) :
    (∑ k : Fin N, if k.val / bs = j.val then f k else 0)
      = ∑ b : Fin bs, f ⟨b.val + bs * j.val, by
          have hb := b.isLt; have hj := j.isLt
          have : bs * (j.val + 1) ≤ bs * Hb := Nat.mul_le_mul_left bs hj
          rw [hN]; nlinarith⟩ := by
  subst hN
  rw [← Equiv.sum_comp finProdFinEquiv, Fintype.sum_prod_type]
  have hdiv : ∀ (a : Fin Hb) (b : Fin bs), (finProdFinEquiv (a, b) : Fin (Hb * bs)).val / bs = a.val := by
    intro a b
    show (b.val + bs * a.val) / bs = a.val
    rw [Nat.add_mul_div_left _ _ hbs, Nat.div_eq_of_lt b.isLt, Nat.zero_add]
  simp only [hdiv]
  rw [Finset.sum_eq_single j]
  · exact Finset.sum_congr rfl fun b _ => by rw [if_pos rfl]; rfl
  · intro a _ ha
    exact Finset.sum_eq_zero fun b _ => if_neg (fun h => ha (Fin.ext h))
  · intro h; exact absurd (Finset.mem_univ j) h

/-- Summing a family of extended reals against column `j` of the one-hot matrix keeps group `j`'s terms. -/
theorem sum_mul_hot {N Hb bs : ℕ} (hN : N = Hb * bs) (hbs : 0 < bs) (f : Fin N → EReal) (j : Fin Hb) :
    (∑ k : Fin N, f k * hot bs k.val j.val)
      = ∑ b : Fin bs, f ⟨b.val + bs * j.val, by
          have hb := b.isLt; have hj := j.isLt
          have : bs * (j.val + 1) ≤ bs * Hb := Nat.mul_le_mul_left bs hj
          rw [hN]; nlinarith⟩ := by
  simp only [mul_hot]
  exact sum_group hN hbs f j

/-- Spreading over the groups: the sum over groups `i` of `m i` times the indicator that `h` lies in group `i`
    is the entry of `h`'s group. -/
theorem sum_spread {Hb bs : ℕ} (m : Fin Hb → EReal) (h : ℕ) (hh : h / bs < Hb) :
    (∑ i : Fin Hb, m i * hot bs h i.val) = m ⟨h / bs, hh⟩ := by
  simp only [mul_hot]
  rw [Finset.sum_eq_single (⟨h / bs, hh⟩ : Fin Hb)]
  · rw [if_pos rfl]
  · intro i _ hi
    rw [if_neg (fun e => hi (Fin.ext e.symm))]
  · intro h'; exact absurd (Finset.mem_univ _) h'

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real `s` and a positive real `q`: `s * q` is positive exactly when `s` is. -/
theorem coe_mul_pos_iff (s q : ℝ) (hq : 0 < q) : (0 : EReal) < (s : EReal) * (q : EReal) ↔ (0 : EReal) < (s : EReal) := by
  rw [← EReal.coe_mul, ← EReal.coe_zero, EReal.coe_lt_coe_iff, EReal.coe_lt_coe_iff]
  constructor
  · intro h; by_contra hs; have hs' := not_lt.mp hs; nlinarith
  · intro h; positivity

end Cert.HotSum
-- ==== Proof.OneHot.lean ====
/-
  The one-hot grouping matrices' entries.

  The kernels build each grouping matrix from two index arrays: the row index divided by the group size (the
  floor division, spelt as the truncated quotient less one when the signs differ and the remainder is not zero)
  compared with the column index, the one-bit answer widened to a word and converted to a float. For a row
  index below 192 and a group size 2, 4 or 8 the floor division is the ordinary quotient of natural numbers, so
  at the extended reals the entry is 1 when `k / bs = g` and 0 otherwise.
-/
import Idealize.ShloMosaic.PureOps
import Idealize.ShloMosaic.PureOps.Ideal
import proofs.«129114_j1357209666244_2_alg».proof.Proof.LibHotSum

namespace Cert.OneHot

open Idealize.ShloMosaic Cert.HotSum

/-- The floor division of the word `A` by the word `bs`, as the kernels spell it. -/
def fdivW (bs A : BitVec 32) : BitVec 32 :=
  Scalar.select
    (IntOp.andi
      (IntOp.cmpi .ne (IntOp.subi ((IntOp.cmpi .sgt A 0#32).setWidth 32) ((IntOp.cmpi .slt A 0#32).setWidth 32))
        (Scalar.subi (Scalar.extui (Scalar.cmpi .sgt bs 0#32)) (Scalar.extui (Scalar.cmpi .slt bs 0#32))))
      (IntOp.cmpi .ne (IntOp.remsi .vector A bs) 0#32))
    (IntOp.subi (IntOp.divsi .vector A bs) 1#32)
    (IntOp.divsi .vector A bs)

theorem fdivW_2 : ∀ a : Fin 192, fdivW 2#32 (BitVec.ofNat 32 a.val) = BitVec.ofNat 32 (a.val / 2) := by decide +kernel
theorem fdivW_4 : ∀ a : Fin 192, fdivW 4#32 (BitVec.ofNat 32 a.val) = BitVec.ofNat 32 (a.val / 4) := by decide +kernel
theorem fdivW_8 : ∀ a : Fin 192, fdivW 8#32 (BitVec.ofNat 32 a.val) = BitVec.ofNat 32 (a.val / 8) := by decide +kernel

/-- Two small naturals have the same 32-bit word exactly when they are equal. -/
theorem ofNat_eq_iff {x y : ℕ} (hx : x < 192) (hy : y < 192) : BitVec.ofNat 32 x = BitVec.ofNat 32 y ↔ x = y := by
  constructor
  · intro h
    have := congrArg BitVec.toNat h
    simp only [BitVec.toNat_ofNat] at this
    omega
  · intro h; rw [h]

/-- The entry of a grouping matrix at the extended reals: 1 when row `k` lies in group `g`, else 0. -/
theorem hot_entry (bs : BitVec 32) (bsN : ℕ) (hfd : ∀ a : Fin 192, fdivW bs (BitVec.ofNat 32 a.val) = BitVec.ofNat 32 (a.val / bsN))
    (k : Fin 192) (g : ℕ) (hg : g < 192) :
    FloatOps.sitofp (F := Ideal) .f32 ((IntOp.cmpi .eq (fdivW bs (BitVec.ofNat 32 k.val)) (BitVec.ofNat 32 g)).setWidth 32)
      = hot bsN k.val g := by
  rw [hfd k]
  have hk : k.val / bsN < 192 := lt_of_le_of_lt (Nat.div_le_self _ _) k.isLt
  unfold hot IntOp.cmpi
  show (((((BitVec.ofBool (BitVec.ofNat 32 (k.val / bsN) == BitVec.ofNat 32 g)).setWidth 32).toInt : ℝ)) : EReal) = _
  by_cases h : k.val / bsN = g
  · rw [if_pos h, h]
    simp
  · rw [if_neg h]
    have hne : ¬ BitVec.ofNat 32 (k.val / bsN) = BitVec.ofNat 32 g := fun e => h ((ofNat_eq_iff hk hg).mp e)
    have : (BitVec.ofNat 32 (k.val / bsN) == BitVec.ofNat 32 g) = false := by simpa using hne
    rw [this]
    simp

end Cert.OneHot
-- ==== Proof.KI.Val1.lean ====
/-
  Region 1's stored block, read entry by entry at the extended reals (group size 2).

  The body's value is the loaded block times a mask, the mask being five stages: the rows of the 16 planes summed
  in groups of 2 along the last axis (a product with a one-hot matrix), those sums summed in groups of 2 along
  the rows (the last two axes swapped, a second product), the sign test of the mean (the sum times 1/4), and
  the 0/1 answer spread back over each group along the rows and then along the last axis (two more products with
  one-hot matrices, the axes swapped back in between). Each stage is read at an index given by coordinates; with
  every loaded entry a real number, entry (c, h, w) of the stored block is the loaded entry times the indicator
  that the sum of its 2 × 2 group is positive.
-/
import proofs.«129114_j1357209666244_2_alg».proof.Proof.Gen.KernelIdeal
import proofs.«129114_j1357209666244_2_alg».proof.Proof.Gen.KernelIdeal.Skeleton
import proofs.«129114_j1357209666244_2_alg».proof.Proof.KI.Blocks
import proofs.«129114_j1357209666244_2_alg».proof.Proof.LibPlanes
import proofs.«129114_j1357209666244_2_alg».proof.Proof.LibPlainDot
import proofs.«129114_j1357209666244_2_alg».proof.Proof.LibHotSum
import proofs.«129114_j1357209666244_2_alg».proof.Proof.OneHot
import proofs.«129114_j1357209666244_2_alg».proof.Proof.Spec
import proofs.«129114_j1357209666244_2_alg».proof.Proof.Consts
import Idealize.ShloMosaic.PureOps.Ideal.Laws
import Idealize.ShloMosaic.Lib.ValueIdx

noncomputable section

namespace Cert.KernelIdeal.Val1

open Idealize.ShloMosaic Idealize.ShloMosaic.ValueIdx Cert.KernelIdeal Cert.KernelIdeal.Gen
open Cert.HotSum Cert.Planes Cert.Sage Cert.OneHot

/-! ## The stages -/

/-- Each row of each plane summed in groups along the last axis: the block as 3072 rows, times the one-hot matrix. -/
def rowSums (v1 : FVec Ideal S1x16x192x192 .f32) (Pw : FVec Ideal S192x96 .f32) : FVec Ideal S3072x96 .f32 :=
  matmul dot_S3072x192_S192x96_S3072x96_1_0_0_1_n_n (some .fp32) (shapeCast S3072x192 v1 shapeCasts_S1x16x192x192_S3072x192) Pw (constant S3072x96 .f32 0x00000000#32)

/-- Those sums summed in groups along the rows: the last two axes swapped, then a second product. -/
def groupSums (r : FVec Ideal S3072x96 .f32) (Ph : FVec Ideal S192x96 .f32) : FVec Ideal S16x96x96 .f32 :=
  shapeCast S16x96x96 (matmul dot_S1536x192_S192x96_S1536x96_1_0_0_1_n_n (some .fp32)
    (shapeCast S1536x192 (transpose S16x96x192 [0, 2, 1] (shapeCast S16x192x96 r shapeCasts_S3072x96_S16x192x96) transposes_S16x192x96_p0_2_1_S16x96x192) shapeCasts_S16x96x192_S1536x192)
    Ph (constant S1536x96 .f32 0x00000000#32)) shapeCasts_S1536x96_S16x96x96

/-- The sign test of the mean: 1 where the group's sum times 1/4 is positive, else 0. -/
def signMask (s : FVec Ideal S16x96x96 .f32) : FVec Ideal S16x96x96 .f32 :=
  sitofp .f32 (extui 32 (cmpf .ogt (mulf s (broadcast S16x96x96 (Scalar.ofBits .f32 0x3E800000#32))) (broadcast S16x96x96 (Scalar.ofBits .f32 0x00000000#32))) natLt_1_32)

/-- The mask spread over each group along the rows. -/
def spreadH (mk : FVec Ideal S16x96x96 .f32) (PhT : FVec Ideal S96x192 .f32) : FVec Ideal S16x96x192 .f32 :=
  shapeCast S16x96x192 (matmul dot_S1536x96_S96x192_S1536x192_1_0_0_1_n_n none (shapeCast S1536x96 mk shapeCasts_S16x96x96_S1536x96) PhT (constant S1536x192 .f32 0x00000000#32)) shapeCasts_S1536x192_S16x96x192

/-- … and along the last axis, back to the block's shape. -/
def spreadW (mh : FVec Ideal S16x96x192 .f32) (PwT : FVec Ideal S96x192 .f32) : FVec Ideal S1x16x192x192 .f32 :=
  shapeCast S1x16x192x192 (matmul dot_S3072x96_S96x192_S3072x192_1_0_0_1_n_n none
    (shapeCast S3072x96 (transpose S16x192x96 [0, 2, 1] mh transposes_S16x96x192_p0_2_1_S16x192x96) shapeCasts_S16x192x96_S3072x96)
    PwT (constant S3072x192 .f32 0x00000000#32)) shapeCasts_S3072x192_S1x16x192x192

/-- The one-hot matrix the body builds last (group index against row index), from its index arrays. -/
def hotT (v89 v90 : IVec S96x192 32) (c : BitVec 32) (v92 : IVec S96x192 32) : FVec Ideal S96x192 .f32 :=
  sitofp .f32 (extui 32 (cmpi .eq
    (select
      (andi
        (cmpi .ne (subi (extui 32 (cmpi .sgt v89 (broadcast S96x192 0#32)) natLt_1_32) (extui 32 (cmpi .slt v89 (broadcast S96x192 0#32)) natLt_1_32))
          (broadcast S96x192 (Scalar.subi (Scalar.extui (Scalar.cmpi .sgt c 0#32)) (Scalar.extui (Scalar.cmpi .slt c 0#32)))))
        (cmpi .ne (remsi v89 (broadcast S96x192 c)) (broadcast S96x192 0#32)))
      (subi v92 (broadcast S96x192 1#32)) v92)
    v90) natLt_1_32)

/-- The body's stored value is the loaded block times the five stages. -/
theorem pay8_eq (v1 : FVec Ideal S1x16x192x192 .f32) (v30 : FVec Ideal S192x96 .f32) (v59 : FVec Ideal S96x192 .f32) (v88 : FVec Ideal S192x96 .f32)
    (v89 v90 : IVec S96x192 32) (c : BitVec 32) (v92 : IVec S96x192 32) :
    k1_pay8 (F := Ideal) v1 v30 v59 v88 v89 v90 c v92
      = mulf v1 (spreadW (spreadH (signMask (groupSums (rowSums v1 v30) v88)) (hotT v89 v90 c v92)) v59) := rfl

/-! ## The stages at an index -/

theorem rowSums_apply (v1 : FVec Ideal S1x16x192x192 .f32) (Pw : FVec Ideal S192x96 .f32) (c : Fin 16) (h : Fin 192) (j : Fin 96) :
    rowSums v1 Pw (ix2 ⟨c.val * 192 + h.val, row_lt (B := 16) (H := 192) rfl c h⟩ j)
      = ∑ w' : Fin 192, v1 (ix4 0 c h w') * Pw (ix2 w' j) := by
  unfold rowSums
  refine (matmul_plain_zero_apply (M := 3072) (K := 192) (N := 96) (some .fp32) _ Pw ⟨c.val * 192 + h.val, row_lt (B := 16) (H := 192) rfl c h⟩ j).trans ?_
  exact Finset.sum_congr rfl fun w' _ => by rw [planes_to_rows (B := 16) (H := 192) (W := 192) (M := 3072) rfl v1 _ c h w']

theorem groupSums_apply (r : FVec Ideal S3072x96 .f32) (Ph : FVec Ideal S192x96 .f32) (c : Fin 16) (j i : Fin 96) :
    groupSums r Ph (ix3 c j i)
      = ∑ h' : Fin 192, r (ix2 ⟨c.val * 192 + h'.val, row_lt (B := 16) (H := 192) rfl c h'⟩ j) * Ph (ix2 h' i) := by
  unfold groupSums
  rw [rows_to_groups (B := 16) (H := 96) (D := 96) (M := 1536) rfl _ _ c j i]
  refine (matmul_plain_zero_apply (M := 1536) (K := 192) (N := 96) (some .fp32) _ Ph ⟨c.val * 96 + j.val, row_lt (B := 16) (H := 96) rfl c j⟩ i).trans ?_
  refine Finset.sum_congr rfl fun h' _ => ?_
  rw [groups_to_rows (B := 16) (H := 96) (D := 192) (M := 1536) rfl _ _ c j h', swap_last_two (B := 16) (H := 192) (D := 96) _ _ c j h',
    rows_to_groups (B := 16) (H := 192) (D := 96) (M := 3072) rfl r _ c h' j]

theorem spreadH_apply (mk : FVec Ideal S16x96x96 .f32) (PhT : FVec Ideal S96x192 .f32) (c : Fin 16) (j : Fin 96) (h : Fin 192) :
    spreadH mk PhT (ix3 c j h) = ∑ i' : Fin 96, mk (ix3 c j i') * PhT (ix2 i' h) := by
  unfold spreadH
  rw [rows_to_groups (B := 16) (H := 96) (D := 192) (M := 1536) rfl _ _ c j h]
  refine (matmul_plain_zero_apply (M := 1536) (K := 96) (N := 192) none _ PhT ⟨c.val * 96 + j.val, row_lt (B := 16) (H := 96) rfl c j⟩ h).trans ?_
  exact Finset.sum_congr rfl fun i' _ => by rw [groups_to_rows (B := 16) (H := 96) (D := 96) (M := 1536) rfl mk _ c j i']

theorem spreadW_apply (mh : FVec Ideal S16x96x192 .f32) (PwT : FVec Ideal S96x192 .f32) (c : Fin 16) (h w : Fin 192) :
    spreadW mh PwT (ix4 0 c h w) = ∑ j' : Fin 96, mh (ix3 c j' h) * PwT (ix2 j' w) := by
  unfold spreadW
  rw [rows_to_planes (B := 16) (H := 192) (W := 192) (M := 3072) rfl _ _ c h w]
  refine (matmul_plain_zero_apply (M := 3072) (K := 96) (N := 192) none _ PwT ⟨c.val * 192 + h.val, row_lt (B := 16) (H := 192) rfl c h⟩ w).trans ?_
  refine Finset.sum_congr rfl fun j' _ => ?_
  rw [groups_to_rows (B := 16) (H := 192) (D := 96) (M := 3072) rfl _ _ c h j', swap_last_two (B := 16) (H := 96) (D := 192) mh _ c h j']

/-! ## The one-hot matrices' entries -/

/-- The matrix spreading along the last axis (group index against column index). -/
def PwT : FVec Ideal S96x192 .f32 :=
  k1_pay5 (F := Ideal) (iota .tc S96x192 32 [1] iota_S96x192_d1_w32) (iota .tc S96x192 32 [0] iota_S96x192_d0_w32) 2#32 k1_pay3 k1_pay4
    (Scalar.extui (Scalar.cmpi .sgt 2#32 0#32))

/-- The matrix spreading along the rows. -/
def PhT : FVec Ideal S96x192 .f32 :=
  hotT (iota .tc S96x192 32 [1] iota_S96x192_d1_w32) (iota .tc S96x192 32 [0] iota_S96x192_d0_w32) 2#32 k1_pay7

theorem Pw_apply (k : Fin 192) (g : Fin 96) : k1_pay2 (F := Ideal) (ix2 k g) = hot 2 k.val g.val := by
  have e := hot_entry 2#32 2 fdivW_2 k g.val (by have := g.isLt; omega)
  have h0 : k1_pay2 (F := Ideal) (ix2 k g) = FloatOps.sitofp (F := Ideal) .f32
      ((IntOp.cmpi .eq (fdivW 2#32 (BitVec.ofNat 32 (0 * 192 + k.val))) (BitVec.ofNat 32 (0 * 96 + g.val))).setWidth 32) := rfl
  rw [h0]; simp only [Nat.zero_mul, Nat.zero_add]; exact e

theorem Ph_apply (k : Fin 192) (g : Fin 96) : k1_pay6 (F := Ideal) (ix2 k g) = hot 2 k.val g.val := by
  have e := hot_entry 2#32 2 fdivW_2 k g.val (by have := g.isLt; omega)
  have h0 : k1_pay6 (F := Ideal) (ix2 k g) = FloatOps.sitofp (F := Ideal) .f32
      ((IntOp.cmpi .eq (fdivW 2#32 (BitVec.ofNat 32 (0 * 192 + k.val))) (BitVec.ofNat 32 (0 * 96 + g.val))).setWidth 32) := rfl
  rw [h0]; simp only [Nat.zero_mul, Nat.zero_add]; exact e

theorem PwT_apply (g : Fin 96) (k : Fin 192) : PwT (ix2 g k) = hot 2 k.val g.val := by
  have e := hot_entry 2#32 2 fdivW_2 k g.val (by have := g.isLt; omega)
  have h0 : PwT (ix2 g k) = FloatOps.sitofp (F := Ideal) .f32
      ((IntOp.cmpi .eq (fdivW 2#32 (BitVec.ofNat 32 (0 * 192 + k.val))) (BitVec.ofNat 32 (0 * 96 + g.val))).setWidth 32) := rfl
  rw [h0]; simp only [Nat.zero_mul, Nat.zero_add]; exact e

theorem PhT_apply (g : Fin 96) (k : Fin 192) : PhT (ix2 g k) = hot 2 k.val g.val := by
  have e := hot_entry 2#32 2 fdivW_2 k g.val (by have := g.isLt; omega)
  have h0 : PhT (ix2 g k) = FloatOps.sitofp (F := Ideal) .f32
      ((IntOp.cmpi .eq (fdivW 2#32 (BitVec.ofNat 32 (0 * 192 + k.val))) (BitVec.ofNat 32 (0 * 96 + g.val))).setWidth 32) := rfl
  rw [h0]; simp only [Nat.zero_mul, Nat.zero_add]; exact e

/-! ## The sign test -/

theorem signMask_apply (s : FVec Ideal S16x96x96 .f32) (c : Fin 16) (j i : Fin 96) :
    signMask s (ix3 c j i) = if (0 : EReal) < s (ix3 c j i) * ((1/4 : ℝ) : EReal) then 1 else 0 := by
  have h0 : signMask s (ix3 c j i)
      = (((((BitVec.ofBool (decide (Ideal.ofBits .f32 0x00000000#32 < s (ix3 c j i) * Ideal.ofBits .f32 0x3E800000#32))).setWidth 32).toInt : ℝ)) : EReal) := rfl
  rw [h0, Cert.Consts.ofBits_zero, Cert.Consts.ofBits_quarter]
  by_cases h : (0 : EReal) < s (ix3 c j i) * ((1/4 : ℝ) : EReal)
  · rw [if_pos h, decide_eq_true h]; simp
  · rw [if_neg h, decide_eq_false h]; simp

/-! ## The stored block -/

theorem pay1_self (x0 : Vec Ideal S1x16x192x192 .f32) : k1_pay1 (F := Ideal) x0 = x0 := by
  unfold k1_pay1; exact shapeCast_self _ _

theorem pay_unfold (x0 : Vec Ideal S1x16x192x192 .f32) :
    Cert.KernelIdeal.Fr.pay1 (F := Ideal) x0
      = mulf (k1_pay1 x0) (spreadW (spreadH (signMask (groupSums (rowSums (k1_pay1 x0) (k1_pay2 (F := Ideal))) (k1_pay6 (F := Ideal)))) PhT) PwT) := rfl

/-- The sum of the group of `(h, w)` in plane `c` of the block. -/
def blockSum (x0 : Vec Ideal S1x16x192x192 .f32) (c : Fin 16) (h w : Fin 192) : EReal :=
  ∑ a : Fin 2, ∑ b : Fin 2,
    x0 (ix4 0 c ⟨a.val + 2 * (h.val / 2), Cert.Spec.pos_lt Cert.Spec.d2 a.isLt h.isLt⟩ ⟨b.val + 2 * (w.val / 2), Cert.Spec.pos_lt Cert.Spec.d2 b.isLt w.isLt⟩)

/-- The mask at `(c, h, w)`: the sign test of the group's sum. -/
theorem mask_apply (x0 : Vec Ideal S1x16x192x192 .f32) (c : Fin 16) (h w : Fin 192) :
    spreadW (spreadH (signMask (groupSums (rowSums x0 (k1_pay2 (F := Ideal))) (k1_pay6 (F := Ideal)))) PhT) PwT (ix4 0 c h w)
      = if (0 : EReal) < blockSum x0 c h w * ((1/4 : ℝ) : EReal) then 1 else 0 := by
  have hw2 : w.val / 2 < 96 := by have := w.isLt; omega
  have hh2 : h.val / 2 < 96 := by have := h.isLt; omega
  rw [spreadW_apply]
  rw [Finset.sum_congr rfl (fun j' _ => by rw [PwT_apply j' w])]
  rw [sum_spread (bs := 2) (fun j' : Fin 96 => spreadH (signMask (groupSums (rowSums x0 (k1_pay2 (F := Ideal))) (k1_pay6 (F := Ideal)))) PhT (ix3 c j' h)) w.val hw2]
  rw [spreadH_apply]
  rw [Finset.sum_congr rfl (fun i' _ => by rw [PhT_apply i' h])]
  rw [sum_spread (bs := 2) (fun i' : Fin 96 => signMask (groupSums (rowSums x0 (k1_pay2 (F := Ideal))) (k1_pay6 (F := Ideal))) (ix3 c ⟨w.val / 2, hw2⟩ i')) h.val hh2]
  rw [signMask_apply, groupSums_apply]
  rw [Finset.sum_congr rfl (fun h' _ => by rw [Ph_apply h' ⟨h.val / 2, hh2⟩])]
  rw [sum_mul_hot (N := 192) (Hb := 96) (bs := 2) rfl (by decide)
    (fun h' : Fin 192 => rowSums x0 (k1_pay2 (F := Ideal)) (ix2 ⟨c.val * 192 + h'.val, row_lt (B := 16) (H := 192) rfl c h'⟩ ⟨w.val / 2, hw2⟩)) ⟨h.val / 2, hh2⟩]
  have inner : ∀ a : Fin 2,
      rowSums x0 (k1_pay2 (F := Ideal)) (ix2 ⟨c.val * 192 + (a.val + 2 * (h.val / 2)), row_lt (B := 16) (H := 192) rfl c ⟨a.val + 2 * (h.val / 2), Cert.Spec.pos_lt Cert.Spec.d2 a.isLt h.isLt⟩⟩ ⟨w.val / 2, hw2⟩)
        = ∑ b : Fin 2, x0 (ix4 0 c ⟨a.val + 2 * (h.val / 2), Cert.Spec.pos_lt Cert.Spec.d2 a.isLt h.isLt⟩ ⟨b.val + 2 * (w.val / 2), Cert.Spec.pos_lt Cert.Spec.d2 b.isLt w.isLt⟩) := by
    intro a
    rw [rowSums_apply x0 _ c ⟨a.val + 2 * (h.val / 2), Cert.Spec.pos_lt Cert.Spec.d2 a.isLt h.isLt⟩ ⟨w.val / 2, hw2⟩]
    rw [Finset.sum_congr rfl (fun w' _ => by rw [Pw_apply w' ⟨w.val / 2, hw2⟩])]
    exact sum_mul_hot (N := 192) (Hb := 96) (bs := 2) rfl (by decide)
      (fun w' : Fin 192 => x0 (ix4 0 c ⟨a.val + 2 * (h.val / 2), Cert.Spec.pos_lt Cert.Spec.d2 a.isLt h.isLt⟩ w')) ⟨w.val / 2, hw2⟩
  unfold blockSum
  rw [Finset.sum_congr rfl (fun a _ => inner a)]

/-- With every entry of the block a real number: entry `(c, h, w)` of the stored block is the loaded entry times
    the indicator that its group's sum is positive. -/
theorem pay_apply (x0 : Vec Ideal S1x16x192x192 .f32) (hx : ∀ i, ∃ r : ℝ, x0 i = (r : EReal)) (c : Fin 16) (h w : Fin 192) :
    Cert.KernelIdeal.Fr.pay1 (F := Ideal) x0 (ix4 0 c h w) = x0 (ix4 0 c h w) * Cert.Spec.ind (blockSum x0 c h w) := by
  rw [pay_unfold, pay1_self]
  show x0 (ix4 0 c h w) * _ = _
  rw [mask_apply]
  -- the group's sum is a real number
  choose r hr using hx
  have hs : blockSum x0 c h w = (((∑ a : Fin 2, ∑ b : Fin 2,
      r (ix4 0 c ⟨a.val + 2 * (h.val / 2), Cert.Spec.pos_lt Cert.Spec.d2 a.isLt h.isLt⟩ ⟨b.val + 2 * (w.val / 2), Cert.Spec.pos_lt Cert.Spec.d2 b.isLt w.isLt⟩) : ℝ)) : EReal) := by
    unfold blockSum
    rw [coe_sum]
    refine Finset.sum_congr rfl fun a _ => ?_
    rw [coe_sum]
    exact Finset.sum_congr rfl fun b _ => hr _
  rw [hs]
  unfold Cert.Spec.ind
  congr 1
  exact if_congr (coe_mul_pos_iff _ (1/4) (by norm_num)) rfl rfl

end Cert.KernelIdeal.Val1

end
-- ==== Proof.KI.Arr1.lean ====
/-
  Region 1: the output array after the region as ONE function of the input array. Point `t` of the grid stages
  batch row `t` of the input array whole, and writes the body's stored block back as batch row `t` of the output
  array; the sixteen rows tile the output array. So when the stored block at row `t` is row `t` of a function `G` of
  the input array, the output array ends holding `G` of the input array.
-/
import proofs.«129114_j1357209666244_2_alg».proof.Proof.KI.Blocks
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

-- the TensorCore's buffer contents when the region is entered
variable (V : (c : Dev nD) → (b : Ref sig .tc) → Buf (Elt F) ((c : Thread nD τ).loc b)) (c : Dev nD)

theorem hz4_1 : (![0, 0, 0, 0] : Fin 4 → Nat) = fun _ => 0 := funext fun a => by fin_cases a <;> rfl

/-! ## Region 1: from the blocks to the array -/

/-- The index maps of region 1, decided over the grid: point `t` stages batch row `t` of either array, whole. -/
theorem idx_facts1 : ∀ t : Fin cfg1.N, win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)

/-- The input block at point `t` is batch row `t` of the input array. -/
theorem iblk1_row (c : Dev nD) (t : Fin cfg1.N) (ht : t.val < 16) :
    (iblk1 V c 0 t : S1x16x192x192.Idx → Elt F .f32) = fun i' => (V c (Pipeline.arrRef spec1 0) : S16x16x192x192.Idx → Elt F .f32)
      (ix4 (⟨t.val, ht⟩ : Fin 16) ⟨(i' 1).val, (i' 1).isLt⟩ ⟨(i' 2).val, (i' 2).isLt⟩ ⟨(i' 3).val, (i' 3).isLt⟩) := by
  obtain ⟨e0, e1, e2, e3, -, -, -, -⟩ := idx_facts1 t
  funext y
  show (V c (Pipeline.arrRef spec1 0) : S16x16x192x192.Idx → Elt F .f32) (((cfg1.win 0).blk t).view.emb y) = _
  congr 1
  funext a; apply Fin.ext
  match a with
  | ⟨0, _⟩ => show win1_0.index t (0 : Fin 4) * 1 + 1 * (y 0).val = t.val; have hy : (y 0).val < 1 := (y 0).isLt; omega
  | ⟨1, _⟩ => show win1_0.index t (1 : Fin 4) * 16 + 1 * (y 1).val = (y 1).val; omega
  | ⟨2, _⟩ => show win1_0.index t (2 : Fin 4) * 192 + 1 * (y 2).val = (y 2).val; omega
  | ⟨3, _⟩ => show win1_0.index t (3 : Fin 4) * 192 + 1 * (y 3).val = (y 3).val; omega

/-- WHAT POINT `t` WRITES BACK is block `t` of `G` of the input array, when the body's stored value at row `t` is
    `G` of the input array there. -/
theorem flushed1_eq (G : (S16x16x192x192.Idx → Elt F .f32) → (S16x16x192x192.Idx → Elt F .f32))
    (hpay : ∀ (t : Fin 16) (i : S1x16x192x192.Idx), pay1 (fun i' => (V c (Pipeline.arrRef spec1 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec1 0)) (ix4 t ⟨(i 1).val, (i 1).isLt⟩ ⟨(i 2).val, (i 2).isLt⟩ ⟨(i 3).val, (i 3).isLt⟩))
    (t : Fin cfg1.N) :
    (dat1 V c).flushed 1 t = ((cfg1.win 1).blk t).view.read (Elt F) (G (V c (Pipeline.arrRef spec1 0))) := by
  have ht : t.val < 16 := Nat.lt_of_lt_of_eq t.isLt N_1
  show (cfg1.win 1).cut (grid1.coords t) ((dat1 V c).after 1 t) = _
  rw [after1_1]
  unfold out1_1
  rw [View.canon_unit_zero hz4_1]
  simp only [View.ld_unit_zero (S := S1x16x192x192) hz4_1]
  rw [iblk1_row V c t ht]
  obtain ⟨-, -, -, -, e0, e1, e2, e3⟩ := idx_facts1 t
  funext j
  show pay1 _ j = G (V c (Pipeline.arrRef spec1 0)) (((cfg1.win 1).blk t).view.emb j)
  refine (hpay ⟨t.val, ht⟩ j).trans ?_
  congr 1
  funext a; apply Fin.ext
  match a with
  | ⟨0, _⟩ => show t.val = win1_1.index t (0 : Fin 4) * 1 + 1 * (j 0).val; have hj : (j 0).val < 1 := (j 0).isLt; omega
  | ⟨1, _⟩ => show (j 1).val = win1_1.index t (1 : Fin 4) * 16 + 1 * (j 1).val; omega
  | ⟨2, _⟩ => show (j 2).val = win1_1.index t (2 : Fin 4) * 192 + 1 * (j 2).val; omega
  | ⟨3, _⟩ => show (j 3).val = win1_1.index t (3 : Fin 4) * 192 + 1 * (j 3).val; omega

/-- An index of the output array is in point `t`'s block iff each coordinate is in the block's range on its axis. -/
theorem mem_blk1 (t : Fin cfg1.N) (i : S16x16x192x192.Idx) :
    i ∈ ((cfg1.win 1).blk t).view.set ↔ ∀ a : Fin 4, win1_1.index t a * S1x16x192x192.size a ≤ (i a).val ∧ (i a).val < win1_1.index t a * S1x16x192x192.size a + S1x16x192x192.size a := by
  show i ∈ ((View.whole main_v3).slice (win1_1.rect t)).set ↔ _
  rw [View.set_slice_whole, Rect.mem_set_unit]
  exact Iff.rfl

/-- Every index of the output array is in the block of the point its batch row names. -/
theorem cover1 (i : S16x16x192x192.Idx) : ∃ t : Fin cfg1.N, (cfg1.win 1).flush t = true ∧ i ∈ ((cfg1.win 1).blk t).view.set := by
  have hi0 : (i 0).val < 16 := (i 0).isLt
  have hi1 : (i 1).val < 16 := (i 1).isLt
  have hi2 : (i 2).val < 192 := (i 2).isLt
  have hi3 : (i 3).val < 192 := (i 3).isLt
  refine ⟨⟨(i 0).val, Nat.lt_of_lt_of_eq hi0 N_1.symm⟩, flush1_1 _, ?_⟩
  rw [mem_blk1]
  obtain ⟨-, -, -, -, e0, e1, e2, e3⟩ := idx_facts1 ⟨(i 0).val, Nat.lt_of_lt_of_eq hi0 N_1.symm⟩
  intro a
  match a with
  | ⟨0, _⟩ => show win1_1.index _ (0 : Fin 4) * 1 ≤ (i 0).val ∧ (i 0).val < win1_1.index _ (0 : Fin 4) * 1 + 1; rw [e0]; dsimp only; omega
  | ⟨1, _⟩ => show win1_1.index _ (1 : Fin 4) * 16 ≤ (i 1).val ∧ (i 1).val < win1_1.index _ (1 : Fin 4) * 16 + 16; rw [e1]; omega
  | ⟨2, _⟩ => show win1_1.index _ (2 : Fin 4) * 192 ≤ (i 2).val ∧ (i 2).val < win1_1.index _ (2 : Fin 4) * 192 + 192; rw [e2]; omega
  | ⟨3, _⟩ => show win1_1.index _ (3 : Fin 4) * 192 ≤ (i 3).val ∧ (i 3).val < win1_1.index _ (3 : Fin 4) * 192 + 192; rw [e3]; omega

/-- THE OUTPUT ARRAY after region 1: `G` of the input array, when the body's stored value at every batch row is
    `G` of the input array at that row. -/
theorem arr1_of_pay (G : (S16x16x192x192.Idx → Elt F .f32) → (S16x16x192x192.Idx → Elt F .f32))
    (hpay : ∀ (t : Fin 16) (i : S1x16x192x192.Idx), pay1 (fun i' => (V c (Pipeline.arrRef spec1 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec1 0)) (ix4 t ⟨(i 1).val, (i 1).isLt⟩ ⟨(i 2).val, (i 2).isLt⟩ ⟨(i 3).val, (i 3).isLt⟩)) :
    (dat1 V c).arrAt 1 cfg1.N = G (V c (Pipeline.arrRef spec1 0)) :=
  (dat1 V c).arrAt_eq_of_cover 1 (G (V c (Pipeline.arrRef spec1 0))) (fun t _ => flushed1_eq V c G hpay t) cover1

end Cert.KernelIdeal.Fr

end
-- ==== Proof.KI.Val2.lean ====
/-
  Region 2's stored block, read entry by entry at the extended reals (group size 4).

  The body's value is the loaded block times a mask, the mask being five stages: the rows of the 16 planes summed
  in groups of 4 along the last axis (a product with a one-hot matrix), those sums summed in groups of 4 along
  the rows (the last two axes swapped, a second product), the sign test of the mean (the sum times 1/16), and
  the 0/1 answer spread back over each group along the rows and then along the last axis (two more products with
  one-hot matrices, the axes swapped back in between). Each stage is read at an index given by coordinates; with
  every loaded entry a real number, entry (c, h, w) of the stored block is the loaded entry times the indicator
  that the sum of its 4 × 4 group is positive.
-/
import proofs.«129114_j1357209666244_2_alg».proof.Proof.Gen.KernelIdeal
import proofs.«129114_j1357209666244_2_alg».proof.Proof.Gen.KernelIdeal.Skeleton
import proofs.«129114_j1357209666244_2_alg».proof.Proof.KI.Blocks
import proofs.«129114_j1357209666244_2_alg».proof.Proof.LibPlanes
import proofs.«129114_j1357209666244_2_alg».proof.Proof.LibPlainDot
import proofs.«129114_j1357209666244_2_alg».proof.Proof.LibHotSum
import proofs.«129114_j1357209666244_2_alg».proof.Proof.OneHot
import proofs.«129114_j1357209666244_2_alg».proof.Proof.Spec
import proofs.«129114_j1357209666244_2_alg».proof.Proof.Consts
import Idealize.ShloMosaic.PureOps.Ideal.Laws
import Idealize.ShloMosaic.Lib.ValueIdx

noncomputable section

namespace Cert.KernelIdeal.Val2

open Idealize.ShloMosaic Idealize.ShloMosaic.ValueIdx Cert.KernelIdeal Cert.KernelIdeal.Gen
open Cert.HotSum Cert.Planes Cert.Sage Cert.OneHot

/-! ## The stages -/

/-- Each row of each plane summed in groups along the last axis: the block as 3072 rows, times the one-hot matrix. -/
def rowSums (v1 : FVec Ideal S1x16x192x192 .f32) (Pw : FVec Ideal S192x48 .f32) : FVec Ideal S3072x48 .f32 :=
  matmul dot_S3072x192_S192x48_S3072x48_1_0_0_1_n_n (some .fp32) (shapeCast S3072x192 v1 shapeCasts_S1x16x192x192_S3072x192) Pw (constant S3072x48 .f32 0x00000000#32)

/-- Those sums summed in groups along the rows: the last two axes swapped, then a second product. -/
def groupSums (r : FVec Ideal S3072x48 .f32) (Ph : FVec Ideal S192x48 .f32) : FVec Ideal S16x48x48 .f32 :=
  shapeCast S16x48x48 (matmul dot_S768x192_S192x48_S768x48_1_0_0_1_n_n (some .fp32)
    (shapeCast S768x192 (transpose S16x48x192 [0, 2, 1] (shapeCast S16x192x48 r shapeCasts_S3072x48_S16x192x48) transposes_S16x192x48_p0_2_1_S16x48x192) shapeCasts_S16x48x192_S768x192)
    Ph (constant S768x48 .f32 0x00000000#32)) shapeCasts_S768x48_S16x48x48

/-- The sign test of the mean: 1 where the group's sum times 1/16 is positive, else 0. -/
def signMask (s : FVec Ideal S16x48x48 .f32) : FVec Ideal S16x48x48 .f32 :=
  sitofp .f32 (extui 32 (cmpf .ogt (mulf s (broadcast S16x48x48 (Scalar.ofBits .f32 0x3D800000#32))) (broadcast S16x48x48 (Scalar.ofBits .f32 0x00000000#32))) natLt_1_32)

/-- The mask spread over each group along the rows. -/
def spreadH (mk : FVec Ideal S16x48x48 .f32) (PhT : FVec Ideal S48x192 .f32) : FVec Ideal S16x48x192 .f32 :=
  shapeCast S16x48x192 (matmul dot_S768x48_S48x192_S768x192_1_0_0_1_n_n none (shapeCast S768x48 mk shapeCasts_S16x48x48_S768x48) PhT (constant S768x192 .f32 0x00000000#32)) shapeCasts_S768x192_S16x48x192

/-- … and along the last axis, back to the block's shape. -/
def spreadW (mh : FVec Ideal S16x48x192 .f32) (PwT : FVec Ideal S48x192 .f32) : FVec Ideal S1x16x192x192 .f32 :=
  shapeCast S1x16x192x192 (matmul dot_S3072x48_S48x192_S3072x192_1_0_0_1_n_n none
    (shapeCast S3072x48 (transpose S16x192x48 [0, 2, 1] mh transposes_S16x48x192_p0_2_1_S16x192x48) shapeCasts_S16x192x48_S3072x48)
    PwT (constant S3072x192 .f32 0x00000000#32)) shapeCasts_S3072x192_S1x16x192x192

/-- The one-hot matrix the body builds last (group index against row index), from its index arrays. -/
def hotT (v89 v90 : IVec S48x192 32) (c : BitVec 32) (v92 : IVec S48x192 32) : FVec Ideal S48x192 .f32 :=
  sitofp .f32 (extui 32 (cmpi .eq
    (select
      (andi
        (cmpi .ne (subi (extui 32 (cmpi .sgt v89 (broadcast S48x192 0#32)) natLt_1_32) (extui 32 (cmpi .slt v89 (broadcast S48x192 0#32)) natLt_1_32))
          (broadcast S48x192 (Scalar.subi (Scalar.extui (Scalar.cmpi .sgt c 0#32)) (Scalar.extui (Scalar.cmpi .slt c 0#32)))))
        (cmpi .ne (remsi v89 (broadcast S48x192 c)) (broadcast S48x192 0#32)))
      (subi v92 (broadcast S48x192 1#32)) v92)
    v90) natLt_1_32)

/-- The body's stored value is the loaded block times the five stages. -/
theorem pay8_eq (v1 : FVec Ideal S1x16x192x192 .f32) (v30 : FVec Ideal S192x48 .f32) (v59 : FVec Ideal S48x192 .f32) (v88 : FVec Ideal S192x48 .f32)
    (v89 v90 : IVec S48x192 32) (c : BitVec 32) (v92 : IVec S48x192 32) :
    k2_pay8 (F := Ideal) v1 v30 v59 v88 v89 v90 c v92
      = mulf v1 (spreadW (spreadH (signMask (groupSums (rowSums v1 v30) v88)) (hotT v89 v90 c v92)) v59) := rfl

/-! ## The stages at an index -/

theorem rowSums_apply (v1 : FVec Ideal S1x16x192x192 .f32) (Pw : FVec Ideal S192x48 .f32) (c : Fin 16) (h : Fin 192) (j : Fin 48) :
    rowSums v1 Pw (ix2 ⟨c.val * 192 + h.val, row_lt (B := 16) (H := 192) rfl c h⟩ j)
      = ∑ w' : Fin 192, v1 (ix4 0 c h w') * Pw (ix2 w' j) := by
  unfold rowSums
  refine (matmul_plain_zero_apply (M := 3072) (K := 192) (N := 48) (some .fp32) _ Pw ⟨c.val * 192 + h.val, row_lt (B := 16) (H := 192) rfl c h⟩ j).trans ?_
  exact Finset.sum_congr rfl fun w' _ => by rw [planes_to_rows (B := 16) (H := 192) (W := 192) (M := 3072) rfl v1 _ c h w']

theorem groupSums_apply (r : FVec Ideal S3072x48 .f32) (Ph : FVec Ideal S192x48 .f32) (c : Fin 16) (j i : Fin 48) :
    groupSums r Ph (ix3 c j i)
      = ∑ h' : Fin 192, r (ix2 ⟨c.val * 192 + h'.val, row_lt (B := 16) (H := 192) rfl c h'⟩ j) * Ph (ix2 h' i) := by
  unfold groupSums
  rw [rows_to_groups (B := 16) (H := 48) (D := 48) (M := 768) rfl _ _ c j i]
  refine (matmul_plain_zero_apply (M := 768) (K := 192) (N := 48) (some .fp32) _ Ph ⟨c.val * 48 + j.val, row_lt (B := 16) (H := 48) rfl c j⟩ i).trans ?_
  refine Finset.sum_congr rfl fun h' _ => ?_
  rw [groups_to_rows (B := 16) (H := 48) (D := 192) (M := 768) rfl _ _ c j h', swap_last_two (B := 16) (H := 192) (D := 48) _ _ c j h',
    rows_to_groups (B := 16) (H := 192) (D := 48) (M := 3072) rfl r _ c h' j]

theorem spreadH_apply (mk : FVec Ideal S16x48x48 .f32) (PhT : FVec Ideal S48x192 .f32) (c : Fin 16) (j : Fin 48) (h : Fin 192) :
    spreadH mk PhT (ix3 c j h) = ∑ i' : Fin 48, mk (ix3 c j i') * PhT (ix2 i' h) := by
  unfold spreadH
  rw [rows_to_groups (B := 16) (H := 48) (D := 192) (M := 768) rfl _ _ c j h]
  refine (matmul_plain_zero_apply (M := 768) (K := 48) (N := 192) none _ PhT ⟨c.val * 48 + j.val, row_lt (B := 16) (H := 48) rfl c j⟩ h).trans ?_
  exact Finset.sum_congr rfl fun i' _ => by rw [groups_to_rows (B := 16) (H := 48) (D := 48) (M := 768) rfl mk _ c j i']

theorem spreadW_apply (mh : FVec Ideal S16x48x192 .f32) (PwT : FVec Ideal S48x192 .f32) (c : Fin 16) (h w : Fin 192) :
    spreadW mh PwT (ix4 0 c h w) = ∑ j' : Fin 48, mh (ix3 c j' h) * PwT (ix2 j' w) := by
  unfold spreadW
  rw [rows_to_planes (B := 16) (H := 192) (W := 192) (M := 3072) rfl _ _ c h w]
  refine (matmul_plain_zero_apply (M := 3072) (K := 48) (N := 192) none _ PwT ⟨c.val * 192 + h.val, row_lt (B := 16) (H := 192) rfl c h⟩ w).trans ?_
  refine Finset.sum_congr rfl fun j' _ => ?_
  rw [groups_to_rows (B := 16) (H := 192) (D := 48) (M := 3072) rfl _ _ c h j', swap_last_two (B := 16) (H := 48) (D := 192) mh _ c h j']

/-! ## The one-hot matrices' entries -/

/-- The matrix spreading along the last axis (group index against column index). -/
def PwT : FVec Ideal S48x192 .f32 :=
  k2_pay5 (F := Ideal) (iota .tc S48x192 32 [1] iota_S48x192_d1_w32) (iota .tc S48x192 32 [0] iota_S48x192_d0_w32) 4#32 k2_pay3 k2_pay4
    (Scalar.extui (Scalar.cmpi .sgt 4#32 0#32))

/-- The matrix spreading along the rows. -/
def PhT : FVec Ideal S48x192 .f32 :=
  hotT (iota .tc S48x192 32 [1] iota_S48x192_d1_w32) (iota .tc S48x192 32 [0] iota_S48x192_d0_w32) 4#32 k2_pay7

theorem Pw_apply (k : Fin 192) (g : Fin 48) : k2_pay2 (F := Ideal) (ix2 k g) = hot 4 k.val g.val := by
  have e := hot_entry 4#32 4 fdivW_4 k g.val (by have := g.isLt; omega)
  have h0 : k2_pay2 (F := Ideal) (ix2 k g) = FloatOps.sitofp (F := Ideal) .f32
      ((IntOp.cmpi .eq (fdivW 4#32 (BitVec.ofNat 32 (0 * 192 + k.val))) (BitVec.ofNat 32 (0 * 48 + g.val))).setWidth 32) := rfl
  rw [h0]; simp only [Nat.zero_mul, Nat.zero_add]; exact e

theorem Ph_apply (k : Fin 192) (g : Fin 48) : k2_pay6 (F := Ideal) (ix2 k g) = hot 4 k.val g.val := by
  have e := hot_entry 4#32 4 fdivW_4 k g.val (by have := g.isLt; omega)
  have h0 : k2_pay6 (F := Ideal) (ix2 k g) = FloatOps.sitofp (F := Ideal) .f32
      ((IntOp.cmpi .eq (fdivW 4#32 (BitVec.ofNat 32 (0 * 192 + k.val))) (BitVec.ofNat 32 (0 * 48 + g.val))).setWidth 32) := rfl
  rw [h0]; simp only [Nat.zero_mul, Nat.zero_add]; exact e

theorem PwT_apply (g : Fin 48) (k : Fin 192) : PwT (ix2 g k) = hot 4 k.val g.val := by
  have e := hot_entry 4#32 4 fdivW_4 k g.val (by have := g.isLt; omega)
  have h0 : PwT (ix2 g k) = FloatOps.sitofp (F := Ideal) .f32
      ((IntOp.cmpi .eq (fdivW 4#32 (BitVec.ofNat 32 (0 * 192 + k.val))) (BitVec.ofNat 32 (0 * 48 + g.val))).setWidth 32) := rfl
  rw [h0]; simp only [Nat.zero_mul, Nat.zero_add]; exact e

theorem PhT_apply (g : Fin 48) (k : Fin 192) : PhT (ix2 g k) = hot 4 k.val g.val := by
  have e := hot_entry 4#32 4 fdivW_4 k g.val (by have := g.isLt; omega)
  have h0 : PhT (ix2 g k) = FloatOps.sitofp (F := Ideal) .f32
      ((IntOp.cmpi .eq (fdivW 4#32 (BitVec.ofNat 32 (0 * 192 + k.val))) (BitVec.ofNat 32 (0 * 48 + g.val))).setWidth 32) := rfl
  rw [h0]; simp only [Nat.zero_mul, Nat.zero_add]; exact e

/-! ## The sign test -/

theorem signMask_apply (s : FVec Ideal S16x48x48 .f32) (c : Fin 16) (j i : Fin 48) :
    signMask s (ix3 c j i) = if (0 : EReal) < s (ix3 c j i) * ((1/16 : ℝ) : EReal) then 1 else 0 := by
  have h0 : signMask s (ix3 c j i)
      = (((((BitVec.ofBool (decide (Ideal.ofBits .f32 0x00000000#32 < s (ix3 c j i) * Ideal.ofBits .f32 0x3D800000#32))).setWidth 32).toInt : ℝ)) : EReal) := rfl
  rw [h0, Cert.Consts.ofBits_zero, Cert.Consts.ofBits_sixteenth]
  by_cases h : (0 : EReal) < s (ix3 c j i) * ((1/16 : ℝ) : EReal)
  · rw [if_pos h, decide_eq_true h]; simp
  · rw [if_neg h, decide_eq_false h]; simp

/-! ## The stored block -/

theorem pay1_self (x0 : Vec Ideal S1x16x192x192 .f32) : k2_pay1 (F := Ideal) x0 = x0 := by
  unfold k2_pay1; exact shapeCast_self _ _

theorem pay_unfold (x0 : Vec Ideal S1x16x192x192 .f32) :
    Cert.KernelIdeal.Fr.pay2 (F := Ideal) x0
      = mulf (k2_pay1 x0) (spreadW (spreadH (signMask (groupSums (rowSums (k2_pay1 x0) (k2_pay2 (F := Ideal))) (k2_pay6 (F := Ideal)))) PhT) PwT) := rfl

/-- The sum of the group of `(h, w)` in plane `c` of the block. -/
def blockSum (x0 : Vec Ideal S1x16x192x192 .f32) (c : Fin 16) (h w : Fin 192) : EReal :=
  ∑ a : Fin 4, ∑ b : Fin 4,
    x0 (ix4 0 c ⟨a.val + 4 * (h.val / 4), Cert.Spec.pos_lt Cert.Spec.d4 a.isLt h.isLt⟩ ⟨b.val + 4 * (w.val / 4), Cert.Spec.pos_lt Cert.Spec.d4 b.isLt w.isLt⟩)

/-- The mask at `(c, h, w)`: the sign test of the group's sum. -/
theorem mask_apply (x0 : Vec Ideal S1x16x192x192 .f32) (c : Fin 16) (h w : Fin 192) :
    spreadW (spreadH (signMask (groupSums (rowSums x0 (k2_pay2 (F := Ideal))) (k2_pay6 (F := Ideal)))) PhT) PwT (ix4 0 c h w)
      = if (0 : EReal) < blockSum x0 c h w * ((1/16 : ℝ) : EReal) then 1 else 0 := by
  have hw2 : w.val / 4 < 48 := by have := w.isLt; omega
  have hh2 : h.val / 4 < 48 := by have := h.isLt; omega
  rw [spreadW_apply]
  rw [Finset.sum_congr rfl (fun j' _ => by rw [PwT_apply j' w])]
  rw [sum_spread (bs := 4) (fun j' : Fin 48 => spreadH (signMask (groupSums (rowSums x0 (k2_pay2 (F := Ideal))) (k2_pay6 (F := Ideal)))) PhT (ix3 c j' h)) w.val hw2]
  rw [spreadH_apply]
  rw [Finset.sum_congr rfl (fun i' _ => by rw [PhT_apply i' h])]
  rw [sum_spread (bs := 4) (fun i' : Fin 48 => signMask (groupSums (rowSums x0 (k2_pay2 (F := Ideal))) (k2_pay6 (F := Ideal))) (ix3 c ⟨w.val / 4, hw2⟩ i')) h.val hh2]
  rw [signMask_apply, groupSums_apply]
  rw [Finset.sum_congr rfl (fun h' _ => by rw [Ph_apply h' ⟨h.val / 4, hh2⟩])]
  rw [sum_mul_hot (N := 192) (Hb := 48) (bs := 4) rfl (by decide)
    (fun h' : Fin 192 => rowSums x0 (k2_pay2 (F := Ideal)) (ix2 ⟨c.val * 192 + h'.val, row_lt (B := 16) (H := 192) rfl c h'⟩ ⟨w.val / 4, hw2⟩)) ⟨h.val / 4, hh2⟩]
  have inner : ∀ a : Fin 4,
      rowSums x0 (k2_pay2 (F := Ideal)) (ix2 ⟨c.val * 192 + (a.val + 4 * (h.val / 4)), row_lt (B := 16) (H := 192) rfl c ⟨a.val + 4 * (h.val / 4), Cert.Spec.pos_lt Cert.Spec.d4 a.isLt h.isLt⟩⟩ ⟨w.val / 4, hw2⟩)
        = ∑ b : Fin 4, x0 (ix4 0 c ⟨a.val + 4 * (h.val / 4), Cert.Spec.pos_lt Cert.Spec.d4 a.isLt h.isLt⟩ ⟨b.val + 4 * (w.val / 4), Cert.Spec.pos_lt Cert.Spec.d4 b.isLt w.isLt⟩) := by
    intro a
    rw [rowSums_apply x0 _ c ⟨a.val + 4 * (h.val / 4), Cert.Spec.pos_lt Cert.Spec.d4 a.isLt h.isLt⟩ ⟨w.val / 4, hw2⟩]
    rw [Finset.sum_congr rfl (fun w' _ => by rw [Pw_apply w' ⟨w.val / 4, hw2⟩])]
    exact sum_mul_hot (N := 192) (Hb := 48) (bs := 4) rfl (by decide)
      (fun w' : Fin 192 => x0 (ix4 0 c ⟨a.val + 4 * (h.val / 4), Cert.Spec.pos_lt Cert.Spec.d4 a.isLt h.isLt⟩ w')) ⟨w.val / 4, hw2⟩
  unfold blockSum
  rw [Finset.sum_congr rfl (fun a _ => inner a)]

/-- With every entry of the block a real number: entry `(c, h, w)` of the stored block is the loaded entry times
    the indicator that its group's sum is positive. -/
theorem pay_apply (x0 : Vec Ideal S1x16x192x192 .f32) (hx : ∀ i, ∃ r : ℝ, x0 i = (r : EReal)) (c : Fin 16) (h w : Fin 192) :
    Cert.KernelIdeal.Fr.pay2 (F := Ideal) x0 (ix4 0 c h w) = x0 (ix4 0 c h w) * Cert.Spec.ind (blockSum x0 c h w) := by
  rw [pay_unfold, pay1_self]
  show x0 (ix4 0 c h w) * _ = _
  rw [mask_apply]
  -- the group's sum is a real number
  choose r hr using hx
  have hs : blockSum x0 c h w = (((∑ a : Fin 4, ∑ b : Fin 4,
      r (ix4 0 c ⟨a.val + 4 * (h.val / 4), Cert.Spec.pos_lt Cert.Spec.d4 a.isLt h.isLt⟩ ⟨b.val + 4 * (w.val / 4), Cert.Spec.pos_lt Cert.Spec.d4 b.isLt w.isLt⟩) : ℝ)) : EReal) := by
    unfold blockSum
    rw [coe_sum]
    refine Finset.sum_congr rfl fun a _ => ?_
    rw [coe_sum]
    exact Finset.sum_congr rfl fun b _ => hr _
  rw [hs]
  unfold Cert.Spec.ind
  congr 1
  exact if_congr (coe_mul_pos_iff _ (1/16) (by norm_num)) rfl rfl

end Cert.KernelIdeal.Val2

end
-- ==== Proof.KI.Arr2.lean ====
/-
  Region 2: the output array after the region as ONE function of the input array. Point `t` of the grid stages
  batch row `t` of the input array whole, and writes the body's stored block back as batch row `t` of the output
  array; the sixteen rows tile the output array. So when the stored block at row `t` is row `t` of a function `G` of
  the input array, the output array ends holding `G` of the input array.
-/
import proofs.«129114_j1357209666244_2_alg».proof.Proof.KI.Blocks
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

-- the TensorCore's buffer contents when the region is entered
variable (V : (c : Dev nD) → (b : Ref sig .tc) → Buf (Elt F) ((c : Thread nD τ).loc b)) (c : Dev nD)

theorem hz4_2 : (![0, 0, 0, 0] : Fin 4 → Nat) = fun _ => 0 := funext fun a => by fin_cases a <;> rfl

/-! ## Region 2: from the blocks to the array -/

/-- The index maps of region 2, decided over the grid: point `t` stages batch row `t` of either array, whole. -/
theorem idx_facts2 : ∀ t : Fin cfg2.N, win2_0.index t (0 : Fin 4) = t.val ∧ win2_0.index t (1 : Fin 4) = 0 ∧ win2_0.index t (2 : Fin 4) = 0 ∧ win2_0.index t (3 : Fin 4) = 0
    ∧ win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)

/-- The input block at point `t` is batch row `t` of the input array. -/
theorem iblk2_row (c : Dev nD) (t : Fin cfg2.N) (ht : t.val < 16) :
    (iblk2 V c 0 t : S1x16x192x192.Idx → Elt F .f32) = fun i' => (V c (Pipeline.arrRef spec2 0) : S16x16x192x192.Idx → Elt F .f32)
      (ix4 (⟨t.val, ht⟩ : Fin 16) ⟨(i' 1).val, (i' 1).isLt⟩ ⟨(i' 2).val, (i' 2).isLt⟩ ⟨(i' 3).val, (i' 3).isLt⟩) := by
  obtain ⟨e0, e1, e2, e3, -, -, -, -⟩ := idx_facts2 t
  funext y
  show (V c (Pipeline.arrRef spec2 0) : S16x16x192x192.Idx → Elt F .f32) (((cfg2.win 0).blk t).view.emb y) = _
  congr 1
  funext a; apply Fin.ext
  match a with
  | ⟨0, _⟩ => show win2_0.index t (0 : Fin 4) * 1 + 1 * (y 0).val = t.val; have hy : (y 0).val < 1 := (y 0).isLt; omega
  | ⟨1, _⟩ => show win2_0.index t (1 : Fin 4) * 16 + 1 * (y 1).val = (y 1).val; omega
  | ⟨2, _⟩ => show win2_0.index t (2 : Fin 4) * 192 + 1 * (y 2).val = (y 2).val; omega
  | ⟨3, _⟩ => show win2_0.index t (3 : Fin 4) * 192 + 1 * (y 3).val = (y 3).val; omega

/-- WHAT POINT `t` WRITES BACK is block `t` of `G` of the input array, when the body's stored value at row `t` is
    `G` of the input array there. -/
theorem flushed2_eq (G : (S16x16x192x192.Idx → Elt F .f32) → (S16x16x192x192.Idx → Elt F .f32))
    (hpay : ∀ (t : Fin 16) (i : S1x16x192x192.Idx), pay2 (fun i' => (V c (Pipeline.arrRef spec2 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec2 0)) (ix4 t ⟨(i 1).val, (i 1).isLt⟩ ⟨(i 2).val, (i 2).isLt⟩ ⟨(i 3).val, (i 3).isLt⟩))
    (t : Fin cfg2.N) :
    (dat2 V c).flushed 1 t = ((cfg2.win 1).blk t).view.read (Elt F) (G (V c (Pipeline.arrRef spec2 0))) := by
  have ht : t.val < 16 := Nat.lt_of_lt_of_eq t.isLt N_2
  show (cfg2.win 1).cut (grid2.coords t) ((dat2 V c).after 1 t) = _
  rw [after2_1]
  unfold out2_1
  rw [View.canon_unit_zero hz4_2]
  simp only [View.ld_unit_zero (S := S1x16x192x192) hz4_2]
  rw [iblk2_row V c t ht]
  obtain ⟨-, -, -, -, e0, e1, e2, e3⟩ := idx_facts2 t
  funext j
  show pay2 _ j = G (V c (Pipeline.arrRef spec2 0)) (((cfg2.win 1).blk t).view.emb j)
  refine (hpay ⟨t.val, ht⟩ j).trans ?_
  congr 1
  funext a; apply Fin.ext
  match a with
  | ⟨0, _⟩ => show t.val = win2_1.index t (0 : Fin 4) * 1 + 1 * (j 0).val; have hj : (j 0).val < 1 := (j 0).isLt; omega
  | ⟨1, _⟩ => show (j 1).val = win2_1.index t (1 : Fin 4) * 16 + 1 * (j 1).val; omega
  | ⟨2, _⟩ => show (j 2).val = win2_1.index t (2 : Fin 4) * 192 + 1 * (j 2).val; omega
  | ⟨3, _⟩ => show (j 3).val = win2_1.index t (3 : Fin 4) * 192 + 1 * (j 3).val; omega

/-- An index of the output array is in point `t`'s block iff each coordinate is in the block's range on its axis. -/
theorem mem_blk2 (t : Fin cfg2.N) (i : S16x16x192x192.Idx) :
    i ∈ ((cfg2.win 1).blk t).view.set ↔ ∀ a : Fin 4, win2_1.index t a * S1x16x192x192.size a ≤ (i a).val ∧ (i a).val < win2_1.index t a * S1x16x192x192.size a + S1x16x192x192.size a := by
  show i ∈ ((View.whole main_v5).slice (win2_1.rect t)).set ↔ _
  rw [View.set_slice_whole, Rect.mem_set_unit]
  exact Iff.rfl

/-- Every index of the output array is in the block of the point its batch row names. -/
theorem cover2 (i : S16x16x192x192.Idx) : ∃ t : Fin cfg2.N, (cfg2.win 1).flush t = true ∧ i ∈ ((cfg2.win 1).blk t).view.set := by
  have hi0 : (i 0).val < 16 := (i 0).isLt
  have hi1 : (i 1).val < 16 := (i 1).isLt
  have hi2 : (i 2).val < 192 := (i 2).isLt
  have hi3 : (i 3).val < 192 := (i 3).isLt
  refine ⟨⟨(i 0).val, Nat.lt_of_lt_of_eq hi0 N_2.symm⟩, flush2_1 _, ?_⟩
  rw [mem_blk2]
  obtain ⟨-, -, -, -, e0, e1, e2, e3⟩ := idx_facts2 ⟨(i 0).val, Nat.lt_of_lt_of_eq hi0 N_2.symm⟩
  intro a
  match a with
  | ⟨0, _⟩ => show win2_1.index _ (0 : Fin 4) * 1 ≤ (i 0).val ∧ (i 0).val < win2_1.index _ (0 : Fin 4) * 1 + 1; rw [e0]; dsimp only; omega
  | ⟨1, _⟩ => show win2_1.index _ (1 : Fin 4) * 16 ≤ (i 1).val ∧ (i 1).val < win2_1.index _ (1 : Fin 4) * 16 + 16; rw [e1]; omega
  | ⟨2, _⟩ => show win2_1.index _ (2 : Fin 4) * 192 ≤ (i 2).val ∧ (i 2).val < win2_1.index _ (2 : Fin 4) * 192 + 192; rw [e2]; omega
  | ⟨3, _⟩ => show win2_1.index _ (3 : Fin 4) * 192 ≤ (i 3).val ∧ (i 3).val < win2_1.index _ (3 : Fin 4) * 192 + 192; rw [e3]; omega

/-- THE OUTPUT ARRAY after region 2: `G` of the input array, when the body's stored value at every batch row is
    `G` of the input array at that row. -/
theorem arr2_of_pay (G : (S16x16x192x192.Idx → Elt F .f32) → (S16x16x192x192.Idx → Elt F .f32))
    (hpay : ∀ (t : Fin 16) (i : S1x16x192x192.Idx), pay2 (fun i' => (V c (Pipeline.arrRef spec2 0) : S16x16x192x192.Idx → Elt F .f32) (ix4 t ⟨(i' 1).val, (i' 1).isLt⟩ ⟨(i' 2).val, (i' 2).isLt⟩ ⟨(i' 3).val, (i' 3).isLt⟩)) i
      = G (V c (Pipeline.arrRef spec2 0)) (ix4 t ⟨(i 1).val, (i 1).isLt⟩ ⟨(i 2).val, (i 2).isLt⟩ ⟨(i 3).val, (i 3).isLt⟩)) :
    (dat2 V c).arrAt 1 cfg2.N = G (V c (Pipeline.arrRef spec2 0)) :=
  (dat2 V c).arrAt_eq_of_cover 1 (G (V c (Pipeline.arrRef spec2 0))) (fun t _ => flushed2_eq V c G hpay t) cover2

end Cert.KernelIdeal.Fr

end
-- ==== Proof.KI.Val3.lean ====
/-
  Region 3's stored block, read entry by entry at the extended reals (group size 8).

  The body's value is the loaded block times a mask, the mask being five stages: the rows of the 8 planes summed
  in groups of 8 along the last axis (a product with a one-hot matrix), those sums summed in groups of 8 along
  the rows (the last two axes swapped, a second product), the sign test of the mean (the sum times 1/64), and
  the 0/1 answer spread back over each group along the rows and then along the last axis (two more products with
  one-hot matrices, the axes swapped back in between). Each stage is read at an index given by coordinates; with
  every loaded entry a real number, entry (c, h, w) of the stored block is the loaded entry times the indicator
  that the sum of its 8 × 8 group is positive.
-/
import proofs.«129114_j1357209666244_2_alg».proof.Proof.Gen.KernelIdeal
import proofs.«129114_j1357209666244_2_alg».proof.Proof.Gen.KernelIdeal.Skeleton
import proofs.«129114_j1357209666244_2_alg».proof.Proof.KI.Blocks
import proofs.«129114_j1357209666244_2_alg».proof.Proof.LibPlanes
import proofs.«129114_j1357209666244_2_alg».proof.Proof.LibPlainDot
import proofs.«129114_j1357209666244_2_alg».proof.Proof.LibHotSum
import proofs.«129114_j1357209666244_2_alg».proof.Proof.OneHot
import proofs.«129114_j1357209666244_2_alg».proof.Proof.Spec
import proofs.«129114_j1357209666244_2_alg».proof.Proof.Consts
import Idealize.ShloMosaic.PureOps.Ideal.Laws
import Idealize.ShloMosaic.Lib.ValueIdx

noncomputable section

namespace Cert.KernelIdeal.Val3

open Idealize.ShloMosaic Idealize.ShloMosaic.ValueIdx Cert.KernelIdeal Cert.KernelIdeal.Gen
open Cert.HotSum Cert.Planes Cert.Sage Cert.OneHot

/-! ## The stages -/

/-- Each row of each plane summed in groups along the last axis: the block as 1536 rows, times the one-hot matrix. -/
def rowSums (v1 : FVec Ideal S1x8x192x192 .f32) (Pw : FVec Ideal S192x24 .f32) : FVec Ideal S1536x24 .f32 :=
  matmul dot_S1536x192_S192x24_S1536x24_1_0_0_1_n_n (some .fp32) (shapeCast S1536x192 v1 shapeCasts_S1x8x192x192_S1536x192) Pw (constant S1536x24 .f32 0x00000000#32)

/-- Those sums summed in groups along the rows: the last two axes swapped, then a second product. -/
def groupSums (r : FVec Ideal S1536x24 .f32) (Ph : FVec Ideal S192x24 .f32) : FVec Ideal S8x24x24 .f32 :=
  shapeCast S8x24x24 (matmul dot_S192x192_S192x24_S192x24_1_0_0_1_n_n (some .fp32)
    (shapeCast S192x192 (transpose S8x24x192 [0, 2, 1] (shapeCast S8x192x24 r shapeCasts_S1536x24_S8x192x24) transposes_S8x192x24_p0_2_1_S8x24x192) shapeCasts_S8x24x192_S192x192)
    Ph (constant S192x24 .f32 0x00000000#32)) shapeCasts_S192x24_S8x24x24

/-- The sign test of the mean: 1 where the group's sum times 1/64 is positive, else 0. -/
def signMask (s : FVec Ideal S8x24x24 .f32) : FVec Ideal S8x24x24 .f32 :=
  sitofp .f32 (extui 32 (cmpf .ogt (mulf s (broadcast S8x24x24 (Scalar.ofBits .f32 0x3C800000#32))) (broadcast S8x24x24 (Scalar.ofBits .f32 0x00000000#32))) natLt_1_32)

/-- The mask spread over each group along the rows. -/
def spreadH (mk : FVec Ideal S8x24x24 .f32) (PhT : FVec Ideal S24x192 .f32) : FVec Ideal S8x24x192 .f32 :=
  shapeCast S8x24x192 (matmul dot_S192x24_S24x192_S192x192_1_0_0_1_n_n none (shapeCast S192x24 mk shapeCasts_S8x24x24_S192x24) PhT (constant S192x192 .f32 0x00000000#32)) shapeCasts_S192x192_S8x24x192

/-- … and along the last axis, back to the block's shape. -/
def spreadW (mh : FVec Ideal S8x24x192 .f32) (PwT : FVec Ideal S24x192 .f32) : FVec Ideal S1x8x192x192 .f32 :=
  shapeCast S1x8x192x192 (matmul dot_S1536x24_S24x192_S1536x192_1_0_0_1_n_n none
    (shapeCast S1536x24 (transpose S8x192x24 [0, 2, 1] mh transposes_S8x24x192_p0_2_1_S8x192x24) shapeCasts_S8x192x24_S1536x24)
    PwT (constant S1536x192 .f32 0x00000000#32)) shapeCasts_S1536x192_S1x8x192x192

/-- The one-hot matrix the body builds last (group index against row index), from its index arrays. -/
def hotT (v89 v90 : IVec S24x192 32) (c : BitVec 32) (v92 : IVec S24x192 32) : FVec Ideal S24x192 .f32 :=
  sitofp .f32 (extui 32 (cmpi .eq
    (select
      (andi
        (cmpi .ne (subi (extui 32 (cmpi .sgt v89 (broadcast S24x192 0#32)) natLt_1_32) (extui 32 (cmpi .slt v89 (broadcast S24x192 0#32)) natLt_1_32))
          (broadcast S24x192 (Scalar.subi (Scalar.extui (Scalar.cmpi .sgt c 0#32)) (Scalar.extui (Scalar.cmpi .slt c 0#32)))))
        (cmpi .ne (remsi v89 (broadcast S24x192 c)) (broadcast S24x192 0#32)))
      (subi v92 (broadcast S24x192 1#32)) v92)
    v90) natLt_1_32)

/-- The body's stored value is the loaded block times the five stages. -/
theorem pay8_eq (v1 : FVec Ideal S1x8x192x192 .f32) (v30 : FVec Ideal S192x24 .f32) (v59 : FVec Ideal S24x192 .f32) (v88 : FVec Ideal S192x24 .f32)
    (v89 v90 : IVec S24x192 32) (c : BitVec 32) (v92 : IVec S24x192 32) :
    k3_pay8 (F := Ideal) v1 v30 v59 v88 v89 v90 c v92
      = mulf v1 (spreadW (spreadH (signMask (groupSums (rowSums v1 v30) v88)) (hotT v89 v90 c v92)) v59) := rfl

/-! ## The stages at an index -/

theorem rowSums_apply (v1 : FVec Ideal S1x8x192x192 .f32) (Pw : FVec Ideal S192x24 .f32) (c : Fin 8) (h : Fin 192) (j : Fin 24) :
    rowSums v1 Pw (ix2 ⟨c.val * 192 + h.val, row_lt (B := 8) (H := 192) rfl c h⟩ j)
      = ∑ w' : Fin 192, v1 (ix4 0 c h w') * Pw (ix2 w' j) := by
  unfold rowSums
  refine (matmul_plain_zero_apply (M := 1536) (K := 192) (N := 24) (some .fp32) _ Pw ⟨c.val * 192 + h.val, row_lt (B := 8) (H := 192) rfl c h⟩ j).trans ?_
  exact Finset.sum_congr rfl fun w' _ => by rw [planes_to_rows (B := 8) (H := 192) (W := 192) (M := 1536) rfl v1 _ c h w']

theorem groupSums_apply (r : FVec Ideal S1536x24 .f32) (Ph : FVec Ideal S192x24 .f32) (c : Fin 8) (j i : Fin 24) :
    groupSums r Ph (ix3 c j i)
      = ∑ h' : Fin 192, r (ix2 ⟨c.val * 192 + h'.val, row_lt (B := 8) (H := 192) rfl c h'⟩ j) * Ph (ix2 h' i) := by
  unfold groupSums
  rw [rows_to_groups (B := 8) (H := 24) (D := 24) (M := 192) rfl _ _ c j i]
  refine (matmul_plain_zero_apply (M := 192) (K := 192) (N := 24) (some .fp32) _ Ph ⟨c.val * 24 + j.val, row_lt (B := 8) (H := 24) rfl c j⟩ i).trans ?_
  refine Finset.sum_congr rfl fun h' _ => ?_
  rw [groups_to_rows (B := 8) (H := 24) (D := 192) (M := 192) rfl _ _ c j h', swap_last_two (B := 8) (H := 192) (D := 24) _ _ c j h',
    rows_to_groups (B := 8) (H := 192) (D := 24) (M := 1536) rfl r _ c h' j]

theorem spreadH_apply (mk : FVec Ideal S8x24x24 .f32) (PhT : FVec Ideal S24x192 .f32) (c : Fin 8) (j : Fin 24) (h : Fin 192) :
    spreadH mk PhT (ix3 c j h) = ∑ i' : Fin 24, mk (ix3 c j i') * PhT (ix2 i' h) := by
  unfold spreadH
  rw [rows_to_groups (B := 8) (H := 24) (D := 192) (M := 192) rfl _ _ c j h]
  refine (matmul_plain_zero_apply (M := 192) (K := 24) (N := 192) none _ PhT ⟨c.val * 24 + j.val, row_lt (B := 8) (H := 24) rfl c j⟩ h).trans ?_
  exact Finset.sum_congr rfl fun i' _ => by rw [groups_to_rows (B := 8) (H := 24) (D := 24) (M := 192) rfl mk _ c j i']

theorem spreadW_apply (mh : FVec Ideal S8x24x192 .f32) (PwT : FVec Ideal S24x192 .f32) (c : Fin 8) (h w : Fin 192) :
    spreadW mh PwT (ix4 0 c h w) = ∑ j' : Fin 24, mh (ix3 c j' h) * PwT (ix2 j' w) := by
  unfold spreadW
  rw [rows_to_planes (B := 8) (H := 192) (W := 192) (M := 1536) rfl _ _ c h w]
  refine (matmul_plain_zero_apply (M := 1536) (K := 24) (N := 192) none _ PwT ⟨c.val * 192 + h.val, row_lt (B := 8) (H := 192) rfl c h⟩ w).trans ?_
  refine Finset.sum_congr rfl fun j' _ => ?_
  rw [groups_to_rows (B := 8) (H := 192) (D := 24) (M := 1536) rfl _ _ c h j', swap_last_two (B := 8) (H := 24) (D := 192) mh _ c h j']

/-! ## The one-hot matrices' entries -/

/-- The matrix spreading along the last axis (group index against column index). -/
def PwT : FVec Ideal S24x192 .f32 :=
  k3_pay5 (F := Ideal) (iota .tc S24x192 32 [1] iota_S24x192_d1_w32) (iota .tc S24x192 32 [0] iota_S24x192_d0_w32) 8#32 k3_pay3 k3_pay4
    (Scalar.extui (Scalar.cmpi .sgt 8#32 0#32))

/-- The matrix spreading along the rows. -/
def PhT : FVec Ideal S24x192 .f32 :=
  hotT (iota .tc S24x192 32 [1] iota_S24x192_d1_w32) (iota .tc S24x192 32 [0] iota_S24x192_d0_w32) 8#32 k3_pay7

theorem Pw_apply (k : Fin 192) (g : Fin 24) : k3_pay2 (F := Ideal) (ix2 k g) = hot 8 k.val g.val := by
  have e := hot_entry 8#32 8 fdivW_8 k g.val (by have := g.isLt; omega)
  have h0 : k3_pay2 (F := Ideal) (ix2 k g) = FloatOps.sitofp (F := Ideal) .f32
      ((IntOp.cmpi .eq (fdivW 8#32 (BitVec.ofNat 32 (0 * 192 + k.val))) (BitVec.ofNat 32 (0 * 24 + g.val))).setWidth 32) := rfl
  rw [h0]; simp only [Nat.zero_mul, Nat.zero_add]; exact e

theorem Ph_apply (k : Fin 192) (g : Fin 24) : k3_pay6 (F := Ideal) (ix2 k g) = hot 8 k.val g.val := by
  have e := hot_entry 8#32 8 fdivW_8 k g.val (by have := g.isLt; omega)
  have h0 : k3_pay6 (F := Ideal) (ix2 k g) = FloatOps.sitofp (F := Ideal) .f32
      ((IntOp.cmpi .eq (fdivW 8#32 (BitVec.ofNat 32 (0 * 192 + k.val))) (BitVec.ofNat 32 (0 * 24 + g.val))).setWidth 32) := rfl
  rw [h0]; simp only [Nat.zero_mul, Nat.zero_add]; exact e

theorem PwT_apply (g : Fin 24) (k : Fin 192) : PwT (ix2 g k) = hot 8 k.val g.val := by
  have e := hot_entry 8#32 8 fdivW_8 k g.val (by have := g.isLt; omega)
  have h0 : PwT (ix2 g k) = FloatOps.sitofp (F := Ideal) .f32
      ((IntOp.cmpi .eq (fdivW 8#32 (BitVec.ofNat 32 (0 * 192 + k.val))) (BitVec.ofNat 32 (0 * 24 + g.val))).setWidth 32) := rfl
  rw [h0]; simp only [Nat.zero_mul, Nat.zero_add]; exact e

theorem PhT_apply (g : Fin 24) (k : Fin 192) : PhT (ix2 g k) = hot 8 k.val g.val := by
  have e := hot_entry 8#32 8 fdivW_8 k g.val (by have := g.isLt; omega)
  have h0 : PhT (ix2 g k) = FloatOps.sitofp (F := Ideal) .f32
      ((IntOp.cmpi .eq (fdivW 8#32 (BitVec.ofNat 32 (0 * 192 + k.val))) (BitVec.ofNat 32 (0 * 24 + g.val))).setWidth 32) := rfl
  rw [h0]; simp only [Nat.zero_mul, Nat.zero_add]; exact e

/-! ## The sign test -/

theorem signMask_apply (s : FVec Ideal S8x24x24 .f32) (c : Fin 8) (j i : Fin 24) :
    signMask s (ix3 c j i) = if (0 : EReal) < s (ix3 c j i) * ((1/64 : ℝ) : EReal) then 1 else 0 := by
  have h0 : signMask s (ix3 c j i)
      = (((((BitVec.ofBool (decide (Ideal.ofBits .f32 0x00000000#32 < s (ix3 c j i) * Ideal.ofBits .f32 0x3C800000#32))).setWidth 32).toInt : ℝ)) : EReal) := rfl
  rw [h0, Cert.Consts.ofBits_zero, Cert.Consts.ofBits_sixtyfourth]
  by_cases h : (0 : EReal) < s (ix3 c j i) * ((1/64 : ℝ) : EReal)
  · rw [if_pos h, decide_eq_true h]; simp
  · rw [if_neg h, decide_eq_false h]; simp

/-! ## The stored block -/

theorem pay1_self (x0 : Vec Ideal S1x8x192x192 .f32) : k3_pay1 (F := Ideal) x0 = x0 := by
  unfold k3_pay1; exact shapeCast_self _ _

theorem pay_unfold (x0 : Vec Ideal S1x8x192x192 .f32) :
    Cert.KernelIdeal.Fr.pay3 (F := Ideal) x0
      = mulf (k3_pay1 x0) (spreadW (spreadH (signMask (groupSums (rowSums (k3_pay1 x0) (k3_pay2 (F := Ideal))) (k3_pay6 (F := Ideal)))) PhT) PwT) := rfl

/-- The sum of the group of `(h, w)` in plane `c` of the block. -/
def blockSum (x0 : Vec Ideal S1x8x192x192 .f32) (c : Fin 8) (h w : Fin 192) : EReal :=
  ∑ a : Fin 8, ∑ b : Fin 8,
    x0 (ix4 0 c ⟨a.val + 8 * (h.val / 8), Cert.Spec.pos_lt Cert.Spec.d8 a.isLt h.isLt⟩ ⟨b.val + 8 * (w.val / 8), Cert.Spec.pos_lt Cert.Spec.d8 b.isLt w.isLt⟩)

/-- The mask at `(c, h, w)`: the sign test of the group's sum. -/
theorem mask_apply (x0 : Vec Ideal S1x8x192x192 .f32) (c : Fin 8) (h w : Fin 192) :
    spreadW (spreadH (signMask (groupSums (rowSums x0 (k3_pay2 (F := Ideal))) (k3_pay6 (F := Ideal)))) PhT) PwT (ix4 0 c h w)
      = if (0 : EReal) < blockSum x0 c h w * ((1/64 : ℝ) : EReal) then 1 else 0 := by
  have hw2 : w.val / 8 < 24 := by have := w.isLt; omega
  have hh2 : h.val / 8 < 24 := by have := h.isLt; omega
  rw [spreadW_apply]
  rw [Finset.sum_congr rfl (fun j' _ => by rw [PwT_apply j' w])]
  rw [sum_spread (bs := 8) (fun j' : Fin 24 => spreadH (signMask (groupSums (rowSums x0 (k3_pay2 (F := Ideal))) (k3_pay6 (F := Ideal)))) PhT (ix3 c j' h)) w.val hw2]
  rw [spreadH_apply]
  rw [Finset.sum_congr rfl (fun i' _ => by rw [PhT_apply i' h])]
  rw [sum_spread (bs := 8) (fun i' : Fin 24 => signMask (groupSums (rowSums x0 (k3_pay2 (F := Ideal))) (k3_pay6 (F := Ideal))) (ix3 c ⟨w.val / 8, hw2⟩ i')) h.val hh2]
  rw [signMask_apply, groupSums_apply]
  rw [Finset.sum_congr rfl (fun h' _ => by rw [Ph_apply h' ⟨h.val / 8, hh2⟩])]
  rw [sum_mul_hot (N := 192) (Hb := 24) (bs := 8) rfl (by decide)
    (fun h' : Fin 192 => rowSums x0 (k3_pay2 (F := Ideal)) (ix2 ⟨c.val * 192 + h'.val, row_lt (B := 8) (H := 192) rfl c h'⟩ ⟨w.val / 8, hw2⟩)) ⟨h.val / 8, hh2⟩]
  have inner : ∀ a : Fin 8,
      rowSums x0 (k3_pay2 (F := Ideal)) (ix2 ⟨c.val * 192 + (a.val + 8 * (h.val / 8)), row_lt (B := 8) (H := 192) rfl c ⟨a.val + 8 * (h.val / 8), Cert.Spec.pos_lt Cert.Spec.d8 a.isLt h.isLt⟩⟩ ⟨w.val / 8, hw2⟩)
        = ∑ b : Fin 8, x0 (ix4 0 c ⟨a.val + 8 * (h.val / 8), Cert.Spec.pos_lt Cert.Spec.d8 a.isLt h.isLt⟩ ⟨b.val + 8 * (w.val / 8), Cert.Spec.pos_lt Cert.Spec.d8 b.isLt w.isLt⟩) := by
    intro a
    rw [rowSums_apply x0 _ c ⟨a.val + 8 * (h.val / 8), Cert.Spec.pos_lt Cert.Spec.d8 a.isLt h.isLt⟩ ⟨w.val / 8, hw2⟩]
    rw [Finset.sum_congr rfl (fun w' _ => by rw [Pw_apply w' ⟨w.val / 8, hw2⟩])]
    exact sum_mul_hot (N := 192) (Hb := 24) (bs := 8) rfl (by decide)
      (fun w' : Fin 192 => x0 (ix4 0 c ⟨a.val + 8 * (h.val / 8), Cert.Spec.pos_lt Cert.Spec.d8 a.isLt h.isLt⟩ w')) ⟨w.val / 8, hw2⟩
  unfold blockSum
  rw [Finset.sum_congr rfl (fun a _ => inner a)]

/-- With every entry of the block a real number: entry `(c, h, w)` of the stored block is the loaded entry times
    the indicator that its group's sum is positive. -/
theorem pay_apply (x0 : Vec Ideal S1x8x192x192 .f32) (hx : ∀ i, ∃ r : ℝ, x0 i = (r : EReal)) (c : Fin 8) (h w : Fin 192) :
    Cert.KernelIdeal.Fr.pay3 (F := Ideal) x0 (ix4 0 c h w) = x0 (ix4 0 c h w) * Cert.Spec.ind (blockSum x0 c h w) := by
  rw [pay_unfold, pay1_self]
  show x0 (ix4 0 c h w) * _ = _
  rw [mask_apply]
  -- the group's sum is a real number
  choose r hr using hx
  have hs : blockSum x0 c h w = (((∑ a : Fin 8, ∑ b : Fin 8,
      r (ix4 0 c ⟨a.val + 8 * (h.val / 8), Cert.Spec.pos_lt Cert.Spec.d8 a.isLt h.isLt⟩ ⟨b.val + 8 * (w.val / 8), Cert.Spec.pos_lt Cert.Spec.d8 b.isLt w.isLt⟩) : ℝ)) : EReal) := by
    unfold blockSum
    rw [coe_sum]
    refine Finset.sum_congr rfl fun a _ => ?_
    rw [coe_sum]
    exact Finset.sum_congr rfl fun b _ => hr _
  rw [hs]
  unfold Cert.Spec.ind
  congr 1
  exact if_congr (coe_mul_pos_iff _ (1/64) (by norm_num)) rfl rfl

end Cert.KernelIdeal.Val3

end
-- ==== Proof.KI.Arr3.lean ====
/-
  Region 3: the output array after the region as ONE function of the input array. Point `t` of the grid stages
  batch row `t` of the input array whole, and writes the body's stored block back as batch row `t` of the output
  array; the sixteen rows tile the output array. So when the stored block at row `t` is row `t` of a function `G` of
  the input array, the output array ends holding `G` of the input array.
-/
import proofs.«129114_j1357209666244_2_alg».proof.Proof.KI.Blocks
import proofs.«129114_j1357209666244_2_alg».proof.Proof.Gen.KernelIdeal.Launch
import proofs.«129114_j1357209666244_2_alg».proof.Proof.Gen.KernelIdeal.Skeleton
import proofs.«129114_j1357209666244_2_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

-- the TensorCore's buffer contents when the region is entered
variable (V : (c : Dev nD) → (b : Ref sig .tc) → Buf (Elt F) ((c : Thread nD τ).loc b)) (c : Dev nD)

theorem hz4_3 : (![0, 0, 0, 0] : Fin 4 → Nat) = fun _ => 0 := funext fun a => by fin_cases a <;> rfl

/-! ## Region 3: from the blocks to the array -/

/-- The index maps of region 3, decided over the grid: point `t` stages batch row `t` of either array, whole. -/
theorem idx_facts3 : ∀ t : Fin cfg3.N, win3_0.index t (0 : Fin 4) = t.val ∧ win3_0.index t (1 : Fin 4) = 0 ∧ win3_0.index t (2 : Fin 4) = 0 ∧ win3_0.index t (3 : Fin 4) = 0
    ∧ win3_1.index t (0 : Fin 4) = t.val ∧ win3_1.index t (1 : Fin 4) = 0 ∧ win3_1.index t (2 : Fin 4) = 0 ∧ win3_1.index t (3 : Fin 4) = 0 :=
  (by decide +kernel : ∀ t : Fin grid3.N, _)

/-- The input block at point `t` is batch row `t` of the input array. -/
theorem iblk3_row (c : Dev nD) (t : Fin cfg3.N) (ht : t.val < 16) :
    (iblk3 V c 0 t : S1x8x192x192.Idx → Elt F .f32) = fun i' => (V c (Pipeline.arrRef spec3 0) : S16x8x192x192.Idx → Elt F .f32)
      (ix4 (⟨t.val, ht⟩ : Fin 16) ⟨(i' 1).val, (i' 1).isLt⟩ ⟨(i' 2).val, (i' 2).isLt⟩ ⟨(i' 3).val, (i' 3).isLt⟩) := by
  obtain ⟨e0, e1, e2, e3, -, -, -, -⟩ := idx_facts3 t
  funext y
  show (V c (Pipeline.arrRef spec3 0) : S16x8x192x192.Idx → Elt F .f32) (((cfg3.win 0).blk t).view.emb y) = _
  congr 1
  funext a; apply Fin.ext
  match a with
  | ⟨0, _⟩ => show win3_0.index t (0 : Fin 4) * 1 + 1 * (y 0).val = t.val; have hy : (y 0).val < 1 := (y 0).isLt; omega
  | ⟨1, _⟩ => show win3_0.index t (1 : Fin 4) * 8 + 1 * (y 1).val = (y 1).val; omega
  | ⟨2, _⟩ => show win3_0.index t (2 : Fin 4) * 192 + 1 * (y 2).val = (y 2).val; omega
  | ⟨3, _⟩ => show win3_0.index t (3 : Fin 4) * 192 + 1 * (y 3).val = (y 3).val; omega

/-- WHAT POINT `t` WRITES BACK is block `t` of `G` of the input array, when the body's stored value at row `t` is
    `G` of the input array there. -/
theorem flushed3_eq (G : (S16x8x192x192.Idx → Elt F .f32) → (S16x8x192x192.Idx → Elt F .f32))
    (hpay : ∀ (t : Fin 16) (i : S1x8x192x192.Idx), pay3 (fun i' => (V c (Pipeline.arrRef spec3 0) : S16x8x192x192.Idx → Elt F .f32) (ix4 t ⟨(i' 1).val, (i' 1).isLt⟩ ⟨(i' 2).val, (i' 2).isLt⟩ ⟨(i' 3).val, (i' 3).isLt⟩)) i
      = G (V c (Pipeline.arrRef spec3 0)) (ix4 t ⟨(i 1).val, (i 1).isLt⟩ ⟨(i 2).val, (i 2).isLt⟩ ⟨(i 3).val, (i 3).isLt⟩))
    (t : Fin cfg3.N) :
    (dat3 V c).flushed 1 t = ((cfg3.win 1).blk t).view.read (Elt F) (G (V c (Pipeline.arrRef spec3 0))) := by
  have ht : t.val < 16 := Nat.lt_of_lt_of_eq t.isLt N_3
  show (cfg3.win 1).cut (grid3.coords t) ((dat3 V c).after 1 t) = _
  rw [after3_1]
  unfold out3_1
  rw [View.canon_unit_zero hz4_3]
  simp only [View.ld_unit_zero (S := S1x8x192x192) hz4_3]
  rw [iblk3_row V c t ht]
  obtain ⟨-, -, -, -, e0, e1, e2, e3⟩ := idx_facts3 t
  funext j
  show pay3 _ j = G (V c (Pipeline.arrRef spec3 0)) (((cfg3.win 1).blk t).view.emb j)
  refine (hpay ⟨t.val, ht⟩ j).trans ?_
  congr 1
  funext a; apply Fin.ext
  match a with
  | ⟨0, _⟩ => show t.val = win3_1.index t (0 : Fin 4) * 1 + 1 * (j 0).val; have hj : (j 0).val < 1 := (j 0).isLt; omega
  | ⟨1, _⟩ => show (j 1).val = win3_1.index t (1 : Fin 4) * 8 + 1 * (j 1).val; omega
  | ⟨2, _⟩ => show (j 2).val = win3_1.index t (2 : Fin 4) * 192 + 1 * (j 2).val; omega
  | ⟨3, _⟩ => show (j 3).val = win3_1.index t (3 : Fin 4) * 192 + 1 * (j 3).val; omega

/-- An index of the output array is in point `t`'s block iff each coordinate is in the block's range on its axis. -/
theorem mem_blk3 (t : Fin cfg3.N) (i : S16x8x192x192.Idx) :
    i ∈ ((cfg3.win 1).blk t).view.set ↔ ∀ a : Fin 4, win3_1.index t a * S1x8x192x192.size a ≤ (i a).val ∧ (i a).val < win3_1.index t a * S1x8x192x192.size a + S1x8x192x192.size a := by
  show i ∈ ((View.whole main_v7).slice (win3_1.rect t)).set ↔ _
  rw [View.set_slice_whole, Rect.mem_set_unit]
  exact Iff.rfl

/-- Every index of the output array is in the block of the point its batch row names. -/
theorem cover3 (i : S16x8x192x192.Idx) : ∃ t : Fin cfg3.N, (cfg3.win 1).flush t = true ∧ i ∈ ((cfg3.win 1).blk t).view.set := by
  have hi0 : (i 0).val < 16 := (i 0).isLt
  have hi1 : (i 1).val < 8 := (i 1).isLt
  have hi2 : (i 2).val < 192 := (i 2).isLt
  have hi3 : (i 3).val < 192 := (i 3).isLt
  refine ⟨⟨(i 0).val, Nat.lt_of_lt_of_eq hi0 N_3.symm⟩, flush3_1 _, ?_⟩
  rw [mem_blk3]
  obtain ⟨-, -, -, -, e0, e1, e2, e3⟩ := idx_facts3 ⟨(i 0).val, Nat.lt_of_lt_of_eq hi0 N_3.symm⟩
  intro a
  match a with
  | ⟨0, _⟩ => show win3_1.index _ (0 : Fin 4) * 1 ≤ (i 0).val ∧ (i 0).val < win3_1.index _ (0 : Fin 4) * 1 + 1; rw [e0]; dsimp only; omega
  | ⟨1, _⟩ => show win3_1.index _ (1 : Fin 4) * 8 ≤ (i 1).val ∧ (i 1).val < win3_1.index _ (1 : Fin 4) * 8 + 8; rw [e1]; omega
  | ⟨2, _⟩ => show win3_1.index _ (2 : Fin 4) * 192 ≤ (i 2).val ∧ (i 2).val < win3_1.index _ (2 : Fin 4) * 192 + 192; rw [e2]; omega
  | ⟨3, _⟩ => show win3_1.index _ (3 : Fin 4) * 192 ≤ (i 3).val ∧ (i 3).val < win3_1.index _ (3 : Fin 4) * 192 + 192; rw [e3]; omega

/-- THE OUTPUT ARRAY after region 3: `G` of the input array, when the body's stored value at every batch row is
    `G` of the input array at that row. -/
theorem arr3_of_pay (G : (S16x8x192x192.Idx → Elt F .f32) → (S16x8x192x192.Idx → Elt F .f32))
    (hpay : ∀ (t : Fin 16) (i : S1x8x192x192.Idx), pay3 (fun i' => (V c (Pipeline.arrRef spec3 0) : S16x8x192x192.Idx → Elt F .f32) (ix4 t ⟨(i' 1).val, (i' 1).isLt⟩ ⟨(i' 2).val, (i' 2).isLt⟩ ⟨(i' 3).val, (i' 3).isLt⟩)) i
      = G (V c (Pipeline.arrRef spec3 0)) (ix4 t ⟨(i 1).val, (i 1).isLt⟩ ⟨(i 2).val, (i 2).isLt⟩ ⟨(i 3).val, (i 3).isLt⟩)) :
    (dat3 V c).arrAt 1 cfg3.N = G (V c (Pipeline.arrRef spec3 0)) :=
  (dat3 V c).arrAt_eq_of_cover 1 (G (V c (Pipeline.arrRef spec3 0))) (fun t _ => flushed3_eq V c G hpay t) cover3

end Cert.KernelIdeal.Fr

end
-- ==== Proof.KI.Rows.lean ====
/-
  Each region's output array is the specification's group function of its input array.

  A grid point stages one batch entry: the block a body loads is row `t` of the input array, and the stored block
  is row `t` of the output. Entry (c, h, w) of the stored block is the loaded entry times the indicator of its
  group's sum (over the same plane of the same batch entry), which is the specification's value at (t, c, h, w).
-/
import proofs.«129114_j1357209666244_2_alg».proof.Proof.KI.Val0
import proofs.«129114_j1357209666244_2_alg».proof.Proof.KI.Arr0
import proofs.«129114_j1357209666244_2_alg».proof.Proof.KI.Val1
import proofs.«129114_j1357209666244_2_alg».proof.Proof.KI.Arr1
import proofs.«129114_j1357209666244_2_alg».proof.Proof.KI.Val2
import proofs.«129114_j1357209666244_2_alg».proof.Proof.KI.Arr2
import proofs.«129114_j1357209666244_2_alg».proof.Proof.KI.Val3
import proofs.«129114_j1357209666244_2_alg».proof.Proof.KI.Arr3
import proofs.«129114_j1357209666244_2_alg».proof.Proof.Spec

noncomputable section

namespace Cert.KernelIdeal.Fr

open Idealize.ShloMosaic Idealize.ShloMosaic.TcCoe Idealize.ShloMosaic.ValueIdx Cert.KernelIdeal Cert.KernelIdeal.Gen Cert.Spec

/-- Row `t` of an array of finite entries, as the block region 0's body loads, gives row `t` of the group function. -/
theorem pay_rows0 (y : Arr 16) (hy : Finite y) (t : Fin 16) (i : S1x16x192x192.Idx) :
    pay0 (F := Ideal) (fun i' : S1x16x192x192.Idx => y (ix4 t ⟨(i' 1).val, (i' 1).isLt⟩ ⟨(i' 2).val, (i' 2).isLt⟩ ⟨(i' 3).val, (i' 3).isLt⟩)) i
      = Gg 1 d1 y (ix4 t ⟨(i 1).val, (i 1).isLt⟩ ⟨(i 2).val, (i 2).isLt⟩ ⟨(i 3).val, (i 3).isLt⟩) := by
  obtain ⟨c, h, w, rfl⟩ : ∃ (c : Fin 16) (h w : Fin 192), i = ix4 0 c h w :=
    ⟨i 1, i 2, i 3, (eq_ix4 i).trans (by rw [show i 0 = (0 : Fin 1) from Fin.ext (Nat.lt_one_iff.mp (i 0).isLt)]; rfl)⟩
  exact (Cert.KernelIdeal.Val0.pay_apply _ (fun _ => hy _) c h w).trans rfl

/-- Region 0's output array after the run. -/
theorem arr0_G (V : (c : Dev nD) → (b : Ref sig .tc) → Buf (Elt Ideal) ((c : Thread nD τ).loc b)) (c : Dev nD)
    (hy : Finite (C := 16) (V c (Pipeline.arrRef spec0 0))) :
    (dat0 V c).arrAt 1 cfg0.N
      = (Gg 1 d1 : (S16x16x192x192.Idx → Elt Ideal .f32) → (S16x16x192x192.Idx → Elt Ideal .f32)) (V c (Pipeline.arrRef spec0 0)) :=
  arr0_of_pay V c (Gg 1 d1) (fun t i => pay_rows0 _ hy t i)

/-- Row `t` of an array of finite entries, as the block region 1's body loads, gives row `t` of the group function. -/
theorem pay_rows1 (y : Arr 16) (hy : Finite y) (t : Fin 16) (i : S1x16x192x192.Idx) :
    pay1 (F := Ideal) (fun i' : S1x16x192x192.Idx => y (ix4 t ⟨(i' 1).val, (i' 1).isLt⟩ ⟨(i' 2).val, (i' 2).isLt⟩ ⟨(i' 3).val, (i' 3).isLt⟩)) i
      = Gg 2 d2 y (ix4 t ⟨(i 1).val, (i 1).isLt⟩ ⟨(i 2).val, (i 2).isLt⟩ ⟨(i 3).val, (i 3).isLt⟩) := by
  obtain ⟨c, h, w, rfl⟩ : ∃ (c : Fin 16) (h w : Fin 192), i = ix4 0 c h w :=
    ⟨i 1, i 2, i 3, (eq_ix4 i).trans (by rw [show i 0 = (0 : Fin 1) from Fin.ext (Nat.lt_one_iff.mp (i 0).isLt)]; rfl)⟩
  exact (Cert.KernelIdeal.Val1.pay_apply _ (fun _ => hy _) c h w).trans rfl

/-- Region 1's output array after the run. -/
theorem arr1_G (V : (c : Dev nD) → (b : Ref sig .tc) → Buf (Elt Ideal) ((c : Thread nD τ).loc b)) (c : Dev nD)
    (hy : Finite (C := 16) (V c (Pipeline.arrRef spec1 0))) :
    (dat1 V c).arrAt 1 cfg1.N
      = (Gg 2 d2 : (S16x16x192x192.Idx → Elt Ideal .f32) → (S16x16x192x192.Idx → Elt Ideal .f32)) (V c (Pipeline.arrRef spec1 0)) :=
  arr1_of_pay V c (Gg 2 d2) (fun t i => pay_rows1 _ hy t i)

/-- Row `t` of an array of finite entries, as the block region 2's body loads, gives row `t` of the group function. -/
theorem pay_rows2 (y : Arr 16) (hy : Finite y) (t : Fin 16) (i : S1x16x192x192.Idx) :
    pay2 (F := Ideal) (fun i' : S1x16x192x192.Idx => y (ix4 t ⟨(i' 1).val, (i' 1).isLt⟩ ⟨(i' 2).val, (i' 2).isLt⟩ ⟨(i' 3).val, (i' 3).isLt⟩)) i
      = Gg 4 d4 y (ix4 t ⟨(i 1).val, (i 1).isLt⟩ ⟨(i 2).val, (i 2).isLt⟩ ⟨(i 3).val, (i 3).isLt⟩) := by
  obtain ⟨c, h, w, rfl⟩ : ∃ (c : Fin 16) (h w : Fin 192), i = ix4 0 c h w :=
    ⟨i 1, i 2, i 3, (eq_ix4 i).trans (by rw [show i 0 = (0 : Fin 1) from Fin.ext (Nat.lt_one_iff.mp (i 0).isLt)]; rfl)⟩
  exact (Cert.KernelIdeal.Val2.pay_apply _ (fun _ => hy _) c h w).trans rfl

/-- Region 2's output array after the run. -/
theorem arr2_G (V : (c : Dev nD) → (b : Ref sig .tc) → Buf (Elt Ideal) ((c : Thread nD τ).loc b)) (c : Dev nD)
    (hy : Finite (C := 16) (V c (Pipeline.arrRef spec2 0))) :
    (dat2 V c).arrAt 1 cfg2.N
      = (Gg 4 d4 : (S16x16x192x192.Idx → Elt Ideal .f32) → (S16x16x192x192.Idx → Elt Ideal .f32)) (V c (Pipeline.arrRef spec2 0)) :=
  arr2_of_pay V c (Gg 4 d4) (fun t i => pay_rows2 _ hy t i)

/-- Row `t` of an array of finite entries, as the block region 3's body loads, gives row `t` of the group function. -/
theorem pay_rows3 (y : Arr 8) (hy : Finite y) (t : Fin 16) (i : S1x8x192x192.Idx) :
    pay3 (F := Ideal) (fun i' : S1x8x192x192.Idx => y (ix4 t ⟨(i' 1).val, (i' 1).isLt⟩ ⟨(i' 2).val, (i' 2).isLt⟩ ⟨(i' 3).val, (i' 3).isLt⟩)) i
      = Gg 8 d8 y (ix4 t ⟨(i 1).val, (i 1).isLt⟩ ⟨(i 2).val, (i 2).isLt⟩ ⟨(i 3).val, (i 3).isLt⟩) := by
  obtain ⟨c, h, w, rfl⟩ : ∃ (c : Fin 8) (h w : Fin 192), i = ix4 0 c h w :=
    ⟨i 1, i 2, i 3, (eq_ix4 i).trans (by rw [show i 0 = (0 : Fin 1) from Fin.ext (Nat.lt_one_iff.mp (i 0).isLt)]; rfl)⟩
  exact (Cert.KernelIdeal.Val3.pay_apply _ (fun _ => hy _) c h w).trans rfl

/-- Region 3's output array after the run. -/
theorem arr3_G (V : (c : Dev nD) → (b : Ref sig .tc) → Buf (Elt Ideal) ((c : Thread nD τ).loc b)) (c : Dev nD)
    (hy : Finite (C := 8) (V c (Pipeline.arrRef spec3 0))) :
    (dat3 V c).arrAt 1 cfg3.N
      = (Gg 8 d8 : (S16x8x192x192.Idx → Elt Ideal .f32) → (S16x8x192x192.Idx → Elt Ideal .f32)) (V c (Pipeline.arrRef spec3 0)) :=
  arr3_of_pay V c (Gg 8 d8) (fun t i => pay_rows3 _ hy t i)

end Cert.KernelIdeal.Fr

end
-- ==== Proof.Asm.Kernel.lean ====
/-
  The layout assembly on the kernel's side.

  The kernel cuts the activation array [16, 64, 192, 192] into five channel ranges with unit-stride slices, works on
  four of them, and lays the five results side by side again along the channel axis. Here: each slice is the
  specification's channel range; the five-piece concatenation read at an index is the piece whose channel span holds
  the index's channel; and, when the four worked pieces are the specification's group maps of their ranges, the
  concatenation is the specification's whole result.
-/
import proofs.«129114_j1357209666244_2_alg».proof.Proof.Spec
import Idealize.ShloMosaic.Lib.Pipeline.Value

noncomputable section

namespace Cert.Asm

open Idealize.ShloMosaic Idealize.ShloMosaic.ValueIdx Cert.Spec

/-- The shape [16, C, 192, 192]. -/
abbrev Sh (C : ℕ) : Shape := ⟨4, ![16, C, 192, 192]⟩

/-- The unit-stride slice of the whole array that starts at channel `o` and has `C` channels is the specification's
    channel range. -/
theorem slice_eq_chans (o C : ℕ) (hC : o + C ≤ 64) (x : Arr 64) (h : (Sh 64).Slices ![0, o, 0, 0] (Sh C)) :
    extractStridedSlice (Sh C) ![0, o, 0, 0] x h = chans o C hC x := by
  funext j
  refine extractStridedSlice_apply _ x h j _ (fun a => ?_)
  match a with
  | ⟨0, _⟩ => exact (Nat.zero_add _).symm
  | ⟨1, _⟩ => rfl
  | ⟨2, _⟩ => exact (Nat.zero_add _).symm
  | ⟨3, _⟩ => exact (Nat.zero_add _).symm

section Cat
variable {α : Type}

/-- Five pieces of 16, 16, 16, 8 and 8 channels laid side by side along the channel axis, read at an index: the
    piece whose span holds the index's channel, at that channel less the channels before the piece. -/
theorem cat5_apply (u0 u1 u2 : (Sh 16).Idx → α) (u3 u4 : (Sh 8).Idx → α)
    (h : Shape.Concatenates [Sh 16, Sh 16, Sh 16, Sh 8, Sh 8] (Sh 64) 1) (j : (Sh 64).Idx) :
    concatenate (Sh 64) 1 [⟨Sh 16, u0⟩, ⟨Sh 16, u1⟩, ⟨Sh 16, u2⟩, ⟨Sh 8, u3⟩, ⟨Sh 8, u4⟩] h j =
      if h0 : (j 1).val < 16 then u0 (ix4 ⟨(j 0).val, (j 0).isLt⟩ ⟨(j 1).val, h0⟩ ⟨(j 2).val, (j 2).isLt⟩ ⟨(j 3).val, (j 3).isLt⟩)
      else if h1 : (j 1).val < 32 then u1 (ix4 ⟨(j 0).val, (j 0).isLt⟩ ⟨(j 1).val - 16, by omega⟩ ⟨(j 2).val, (j 2).isLt⟩ ⟨(j 3).val, (j 3).isLt⟩)
      else if h2 : (j 1).val < 48 then u2 (ix4 ⟨(j 0).val, (j 0).isLt⟩ ⟨(j 1).val - 32, by omega⟩ ⟨(j 2).val, (j 2).isLt⟩ ⟨(j 3).val, (j 3).isLt⟩)
      else if h3 : (j 1).val < 56 then u3 (ix4 ⟨(j 0).val, (j 0).isLt⟩ ⟨(j 1).val - 48, by omega⟩ ⟨(j 2).val, (j 2).isLt⟩ ⟨(j 3).val, (j 3).isLt⟩)
      else u4 (ix4 ⟨(j 0).val, (j 0).isLt⟩ ⟨(j 1).val - 56, by have : (j 1).val < 64 := (j 1).isLt; omega⟩ ⟨(j 2).val, (j 2).isLt⟩ ⟨(j 3).val, (j 3).isLt⟩) := by
  have hj : (j 1).val < 64 := (j 1).isLt
  by_cases h0 : (j 1).val < 16
  · rw [dif_pos h0]
    exact concatenate_apply_piece (t := Sh 64) 1 [⟨Sh 16, u0⟩, ⟨Sh 16, u1⟩, ⟨Sh 16, u2⟩, ⟨Sh 8, u3⟩, ⟨Sh 8, u4⟩] h j 0 (by simp) (Sh 16) u0 rfl rfl 0 rfl _
      (fun b hb => by
        match b with
        | ⟨0, _⟩ => rfl
        | ⟨1, _⟩ => exact absurd (Fin.ext rfl) hb
        | ⟨2, _⟩ => rfl
        | ⟨3, _⟩ => rfl)
      (Nat.zero_add _)
  rw [dif_neg h0]
  by_cases h1 : (j 1).val < 32
  · rw [dif_pos h1]
    exact concatenate_apply_piece (t := Sh 64) 1 [⟨Sh 16, u0⟩, ⟨Sh 16, u1⟩, ⟨Sh 16, u2⟩, ⟨Sh 8, u3⟩, ⟨Sh 8, u4⟩] h j 1 (by simp) (Sh 16) u1 rfl rfl 16 rfl _
      (fun b hb => by
        match b with
        | ⟨0, _⟩ => rfl
        | ⟨1, _⟩ => exact absurd (Fin.ext rfl) hb
        | ⟨2, _⟩ => rfl
        | ⟨3, _⟩ => rfl)
      (by show 16 + ((j 1).val - 16) = (j 1).val; omega)
  rw [dif_neg h1]
  by_cases h2 : (j 1).val < 48
  · rw [dif_pos h2]
    exact concatenate_apply_piece (t := Sh 64) 1 [⟨Sh 16, u0⟩, ⟨Sh 16, u1⟩, ⟨Sh 16, u2⟩, ⟨Sh 8, u3⟩, ⟨Sh 8, u4⟩] h j 2 (by simp) (Sh 16) u2 rfl rfl 32 rfl _
      (fun b hb => by
        match b with
        | ⟨0, _⟩ => rfl
        | ⟨1, _⟩ => exact absurd (Fin.ext rfl) hb
        | ⟨2, _⟩ => rfl
        | ⟨3, _⟩ => rfl)
      (by show 32 + ((j 1).val - 32) = (j 1).val; omega)
  rw [dif_neg h2]
  by_cases h3 : (j 1).val < 56
  · rw [dif_pos h3]
    exact concatenate_apply_piece (t := Sh 64) 1 [⟨Sh 16, u0⟩, ⟨Sh 16, u1⟩, ⟨Sh 16, u2⟩, ⟨Sh 8, u3⟩, ⟨Sh 8, u4⟩] h j 3 (by simp) (Sh 8) u3 rfl rfl 48 rfl _
      (fun b hb => by
        match b with
        | ⟨0, _⟩ => rfl
        | ⟨1, _⟩ => exact absurd (Fin.ext rfl) hb
        | ⟨2, _⟩ => rfl
        | ⟨3, _⟩ => rfl)
      (by show 48 + ((j 1).val - 48) = (j 1).val; omega)
  rw [dif_neg h3]
  exact concatenate_apply_piece (t := Sh 64) 1 [⟨Sh 16, u0⟩, ⟨Sh 16, u1⟩, ⟨Sh 16, u2⟩, ⟨Sh 8, u3⟩, ⟨Sh 8, u4⟩] h j 4 (by simp) (Sh 8) u4 rfl rfl 56 rfl _
    (fun b hb => by
      match b with
      | ⟨0, _⟩ => rfl
      | ⟨1, _⟩ => exact absurd (Fin.ext rfl) hb
      | ⟨2, _⟩ => rfl
      | ⟨3, _⟩ => rfl)
    (by show 56 + ((j 1).val - 56) = (j 1).val; omega)

end Cat

/-- When the four worked pieces are the specification's group maps of their channel ranges and the fifth is the last
    range itself, the five laid side by side are the specification's whole result. -/
theorem cat_eq_G (x : Arr 64) (g0 g1 g2 : Arr 16) (g3 : Arr 8)
    (e0 : g0 = Gg 1 d1 (chans 0 16 (by decide) x)) (e1 : g1 = Gg 2 d2 (chans 16 16 (by decide) x))
    (e2 : g2 = Gg 4 d4 (chans 32 16 (by decide) x)) (e3 : g3 = Gg 8 d8 (chans 48 8 (by decide) x))
    (h : Shape.Concatenates [Sh 16, Sh 16, Sh 16, Sh 8, Sh 8] (Sh 64) 1) :
    concatenate (Sh 64) 1 [⟨Sh 16, g0⟩, ⟨Sh 16, g1⟩, ⟨Sh 16, g2⟩, ⟨Sh 8, g3⟩, ⟨Sh 8, chans 56 8 (by decide) x⟩] h = G x := by
  subst e0 e1 e2 e3
  funext j
  rw [cat5_apply]
  unfold G
  by_cases h0 : (j 1).val < 16
  · rw [dif_pos h0, dif_pos h0]
  rw [dif_neg h0, dif_neg h0]
  by_cases h1 : (j 1).val < 32
  · rw [dif_pos h1, dif_pos h1]
  rw [dif_neg h1, dif_neg h1]
  by_cases h2 : (j 1).val < 48
  · rw [dif_pos h2, dif_pos h2]
  rw [dif_neg h2, dif_neg h2]
  by_cases h3 : (j 1).val < 56
  · rw [dif_pos h3, dif_pos h3]
  rw [dif_neg h3, dif_neg h3, chans_ix4]
  refine congrArg x (funext fun a => ?_)
  match a with
  | ⟨0, _⟩ => rfl
  | ⟨1, _⟩ => exact Fin.ext (by show 56 + ((j 1).val - 56) = (j 1).val; omega)
  | ⟨2, _⟩ => rfl
  | ⟨3, _⟩ => rfl

end Cert.Asm

end
-- ==== Proof.KI.Value.lean ====
/-
  The idealized kernel's run with its result named: from a memory whose argument array holds real numbers, every
  weakly fair execution ends with the result array at the specification of the argument array, and the argument
  unchanged. Each region's input array is a channel range of the argument; its output array is that range's group
  function; the result is the four outputs and the last channel range side by side, which is the specification.
-/
import proofs.«129114_j1357209666244_2_alg».proof.Proof.KI.Frame
import proofs.«129114_j1357209666244_2_alg».proof.Proof.KI.ArrFold
import proofs.«129114_j1357209666244_2_alg».proof.Proof.KI.Rows
import proofs.«129114_j1357209666244_2_alg».proof.Proof.Asm.Kernel
import proofs.«129114_j1357209666244_2_alg».proof.Proof.Spec

noncomputable section

namespace Cert.KernelIdeal.Fr

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (ρ : Dev nD → PrngReg)

/-- Region 0's input array is channels 0–15 of the argument. -/
theorem in0 (c : Dev nD) : (V1 m ρ c main_v0 : Arr 16) = chans 0 16 (by decide) (m ((c : Thread nD τ).loc main_arg0)) :=
  (V1_in m ρ c).trans (Cert.Asm.slice_eq_chans 0 16 _ _ _)
theorem in1 (c : Dev nD) : (V3 m ρ c main_v2 : Arr 16) = chans 16 16 (by decide) (m ((c : Thread nD τ).loc main_arg0)) :=
  (V3_in m ρ c).trans (Cert.Asm.slice_eq_chans 16 16 _ _ _)
theorem in2 (c : Dev nD) : (V5 m ρ c main_v4 : Arr 16) = chans 32 16 (by decide) (m ((c : Thread nD τ).loc main_arg0)) :=
  (V5_in m ρ c).trans (Cert.Asm.slice_eq_chans 32 16 _ _ _)
theorem in3 (c : Dev nD) : (V7 m ρ c main_v6 : Arr 8) = chans 48 8 (by decide) (m ((c : Thread nD τ).loc main_arg0)) :=
  (V7_in m ρ c).trans (Cert.Asm.slice_eq_chans 48 8 _ _ _)

/-- The result buffer at the end of the run is the specification of the argument array. -/
theorem W9_G (c : Dev nD) (hfin : Finite (C := 64) (m ((c : Thread nD τ).loc main_arg0))) :
    (W9 m ρ c (Proc.devRef .tc main_v9) : Arr 64) = G (m ((c : Thread nD τ).loc main_arg0)) := by
  have e0 : ((dat0 (V1 m ρ) c).arrAt 1 cfg0.N : Arr 16) = Gg 1 d1 (chans 0 16 (by decide) (m ((c : Thread nD τ).loc main_arg0))) := by
    have h := arr0_G (V1 m ρ) c (by show Finite (C := 16) (V1 m ρ c main_v0); rw [in0]; exact hfin.chans _)
    rw [h]; show Gg 1 d1 (V1 m ρ c main_v0 : Arr 16) = _; rw [in0]
  have e1 : ((dat1 (V3 m ρ) c).arrAt 1 cfg1.N : Arr 16) = Gg 2 d2 (chans 16 16 (by decide) (m ((c : Thread nD τ).loc main_arg0))) := by
    have h := arr1_G (V3 m ρ) c (by show Finite (C := 16) (V3 m ρ c main_v2); rw [in1]; exact hfin.chans _)
    rw [h]; show Gg 2 d2 (V3 m ρ c main_v2 : Arr 16) = _; rw [in1]
  have e2 : ((dat2 (V5 m ρ) c).arrAt 1 cfg2.N : Arr 16) = Gg 4 d4 (chans 32 16 (by decide) (m ((c : Thread nD τ).loc main_arg0))) := by
    have h := arr2_G (V5 m ρ) c (by show Finite (C := 16) (V5 m ρ c main_v4); rw [in2]; exact hfin.chans _)
    rw [h]; show Gg 4 d4 (V5 m ρ c main_v4 : Arr 16) = _; rw [in2]
  have e3 : ((dat3 (V7 m ρ) c).arrAt 1 cfg3.N : Arr 8) = Gg 8 d8 (chans 48 8 (by decide) (m ((c : Thread nD τ).loc main_arg0))) := by
    have h := arr3_G (V7 m ρ) c (by show Finite (C := 8) (V7 m ρ c main_v6); rw [in3]; exact hfin.chans _)
    rw [h]; show Gg 8 d8 (V7 m ρ c main_v6 : Arr 8) = _; rw [in3]
  rw [W9_main_v9 m ρ c]
  have e4 : (extractStridedSlice S16x8x192x192 ![0, 56, 0, 0] (m ((c : Thread nD τ).loc main_arg0)) slices_S16x64x192x192_S16x8x192x192_0_56_0_0 : Arr 8)
      = chans 56 8 (by decide) (m ((c : Thread nD τ).loc main_arg0)) := Cert.Asm.slice_eq_chans 56 8 _ _ _
  rw [e4]
  exact Cert.Asm.cat_eq_G (m ((c : Thread nD τ).loc main_arg0)) _ _ _ _ e0 e1 e2 e3 _

/-- The run with the result named. -/
theorem run_G (hfin : ∀ c : Dev nD, Finite (C := 64) (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v9) = G (m ((c.tc : Thread nD τ).loc main_arg0))
      ∧ r.2.mem ((c.tc : Thread nD τ).loc main_arg0) = m ((c.tc : Thread nD τ).loc main_arg0)) :=
  (θ_run (defs (F := Ideal)) _ _).mono (fun r h c =>
      ⟨(h c _ (mem_uc main_v9 (by decide))).trans (W9_G m ρ c (hfin c)),
       (h c _ (mem_uc main_arg0 (by decide))).trans (W9_main_arg0 m ρ c)⟩)
    (run_all m ρ)

end Cert.KernelIdeal.Fr

end
-- ==== Proof.LibScatterSet.lean ====
/-
  A scatter that SETS (its body returns the update) read at an index.

  `Host.scatter` is a left fold over the update indices in row-major order; each step whose target lies inside the
  operand overwrites ONE element. When the targets are pairwise distinct, the order does not matter to the
  value at an index: an index that is the target of update `j` ends at `upd j`, an index that is no update's
  target keeps the operand's element. The fold lemmas are stated for any list of steps, any index type and
  any combining function; the two scatter lemmas for any operand, index and update shapes.
-/
import Idealize.ShloMosaic.PureOps.ShapeOps

namespace Idealize.ShloMosaic.ScatterSet

/-- A fold of point updates, at an index NO step targets, keeps the starting function's value there. The step is any
    function that overwrites its target (`hsome`) or does nothing (`hnone`). -/
theorem foldl_apply_of_forall_ne {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) :
    ∀ (l : List κ) (x : ι → α), (∀ k ∈ l, tgt k ≠ some i') → l.foldl step x i' = x i'
  | [], _, _ => rfl
  | k :: l, x, h => by
    rw [List.foldl_cons, foldl_apply_of_forall_ne tgt f v step hsome hnone i' l (step x k)
      (fun k' hk' => h k' (List.mem_cons_of_mem _ hk'))]
    cases ht : tgt k with
    | none => rw [hnone x k ht]
    | some i =>
      rw [hsome x k i ht]
      have hne : i' ≠ i := fun e => h k List.mem_cons_self (by rw [ht, e])
      exact if_neg hne

/-- A fold of point updates over a list without repetition, at the index that step `k` and no other step targets, ends
    at the combining function of the starting value there and step `k`'s value. -/
theorem foldl_apply_of_unique {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) (k : κ) (hk : tgt k = some i') :
    ∀ (l : List κ) (x : ι → α), l.Nodup → k ∈ l → (∀ k' ∈ l, tgt k' = some i' → k' = k) →
      l.foldl step x i' = f (x i') (v k)
  | [], _, _, hm, _ => absurd hm List.not_mem_nil
  | a :: l, x, hnd, hm, huniq => by
    rw [List.foldl_cons]
    have hnd' := List.nodup_cons.mp hnd
    by_cases hak : a = k
    · subst hak
      rw [foldl_apply_of_forall_ne tgt f v step hsome hnone i' l (step x a) (fun k' hk' e =>
        hnd'.1 ((huniq k' (List.mem_cons_of_mem _ hk') e) ▸ hk')), hsome x a i' hk]
      exact if_pos rfl
    · have hkl : k ∈ l := (List.mem_cons.mp hm).resolve_left (fun e => hak e.symm)
      rw [foldl_apply_of_unique tgt f v step hsome hnone i' k hk l (step x a) hnd'.2 hkl
        (fun k' hk' e => huniq k' (List.mem_cons_of_mem _ hk') e)]
      have hta : tgt a ≠ some i' := fun e => hak (huniq a List.mem_cons_self e)
      cases ht : tgt a with
      | none => rw [hnone x a ht]
      | some i =>
        rw [hsome x a i ht]
        have hne : i' ≠ i := fun e => hta (by rw [ht, e])
        exact congrArg (f · (v k)) (if_neg hne)

variable {s si u : Shape} {α : Type} {w : Nat}

/-- The step of `Host.scatter`'s fold, as the fold lemmas want it: on a target inside the operand it overwrites. -/
private theorem step_some (d : ScatterDims s si u) (f : α → α → α) (idx : IVec si w) (upd : u.Idx → α)
    (r : s.Idx → α) (n : Fin u.numel) (i : s.Idx) (h : d.resultIdx? (u.rowMajor.symm n) idx = some i) :
    (match d.resultIdx? (u.rowMajor.symm n) idx with
      | some i => fun i' => if i' = i then f (r i) (upd (u.rowMajor.symm n)) else r i'
      | none => r) = fun j => if j = i then f (r i) (upd (u.rowMajor.symm n)) else r j := by
  rw [h]

/-- and on a target outside it does nothing. -/
private theorem step_none (d : ScatterDims s si u) (f : α → α → α) (idx : IVec si w) (upd : u.Idx → α)
    (r : s.Idx → α) (n : Fin u.numel) (h : d.resultIdx? (u.rowMajor.symm n) idx = none) :
    (match d.resultIdx? (u.rowMajor.symm n) idx with
      | some i => fun i' => if i' = i then f (r i) (upd (u.rowMajor.symm n)) else r i'
      | none => r) = r := by
  rw [h]

/-- A setting scatter whose update `j` lands at `g j`, `g` injective, read AT a landing index: the update's element. -/
theorem scatter_set_apply_target (d : ScatterDims s si u) (x : s.Idx → α) (idx : IVec si w) (upd : u.Idx → α)
    (g : u.Idx → s.Idx) (hg : Function.Injective g) (htgt : ∀ j, d.resultIdx? j idx = some (g j)) (j : u.Idx) :
    Host.scatter d (fun _ b => b) x idx upd (g j) = upd j := by
  unfold Host.scatter
  refine (foldl_apply_of_unique (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    (g j) (u.rowMajor j) (by rw [Equiv.symm_apply_apply]; exact htgt j)
    (List.finRange u.numel) x (List.nodup_finRange _) (List.mem_finRange _)
    (fun n _ hn => by
      rw [htgt] at hn
      have e := hg (Option.some.inj hn)
      rw [← e, Equiv.apply_symm_apply])).trans ?_
  show upd (u.rowMajor.symm (u.rowMajor j)) = upd j
  rw [Equiv.symm_apply_apply]

/-- The same scatter read at an index that is NO update's landing index: the operand's element. -/
theorem scatter_set_apply_other (d : ScatterDims s si u) (x : s.Idx → α) (idx : IVec si w) (upd : u.Idx → α)
    (g : u.Idx → s.Idx) (htgt : ∀ j, d.resultIdx? j idx = some (g j)) (i : s.Idx) (hi : ∀ j, g j ≠ i) :
    Host.scatter d (fun _ b => b) x idx upd i = x i := by
  unfold Host.scatter
  exact foldl_apply_of_forall_ne (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    i (List.finRange u.numel) x (fun n _ hn => by
      rw [htgt] at hn
      exact hi _ (Option.some.inj hn))

end Idealize.ShloMosaic.ScatterSet
-- ==== Proof.Asm.Scatter.lean ====
/-
  A scatter that writes ONE whole update window of `C` channels into the array [16, 64, 192, 192] at a channel offset
  `o` (an `x.at[:, o:o+C].set(v)`), read at an index: inside the channel span `o … o + C - 1` the update's element at
  the channel less `o`, outside it the operand's element.
-/
import proofs.«129114_j1357209666244_2_alg».proof.Proof.LibScatterSet
import proofs.«129114_j1357209666244_2_alg».proof.Proof.Asm.Kernel

noncomputable section

namespace Cert.Asm

open Idealize.ShloMosaic Idealize.ShloMosaic.ValueIdx

/-- The dimension numbers of such a scatter: the update's four axes are the window, no operand axis is inserted, and
    the one component of the one scatter index is a start on the channel axis. -/
abbrev chanDims (C : ℕ) (wf : ScatterDims.WF (Sh 64) ⟨1, ![1]⟩ (Sh C) [0, 1, 2, 3] [] [1] 0) :
    ScatterDims (Sh 64) ⟨1, ![1]⟩ (Sh C) :=
  { updateWindowDims := [0, 1, 2, 3], insertedWindowDims := [], scatterDimsToOperandDims := [1], indexVectorDim := 0, wf := wf }

/-- Where update index `j` lands: the same coordinates, the channel moved up by `o`. -/
def tgt (o C : ℕ) (hC : o + C ≤ 64) (j : (Sh C).Idx) : (Sh 64).Idx :=
  ix4 ⟨(j 0).val, (j 0).isLt⟩ ⟨o + (j 1).val, by have h : (j 1).val < C := (j 1).isLt; show o + (j 1).val < 64; omega⟩
    ⟨(j 2).val, (j 2).isLt⟩ ⟨(j 3).val, (j 3).isLt⟩

theorem tgt_injective (o C : ℕ) (hC : o + C ≤ 64) : Function.Injective (tgt o C hC) := by
  intro j j' e
  funext a
  apply Fin.ext
  match a with
  | ⟨0, _⟩ => exact congrArg Fin.val (congrFun e ⟨0, by decide⟩)
  | ⟨1, _⟩ =>
    have h : o + (j 1).val = o + (j' 1).val := congrArg Fin.val (congrFun e ⟨1, by decide⟩)
    exact Nat.add_left_cancel h
  | ⟨2, _⟩ => exact congrArg Fin.val (congrFun e ⟨2, by decide⟩)
  | ⟨3, _⟩ => exact congrArg Fin.val (congrFun e ⟨3, by decide⟩)

section
variable {α : Type}
variable (o C : ℕ) (hC : o + C ≤ 64) (wf : ScatterDims.WF (Sh 64) ⟨1, ![1]⟩ (Sh C) [0, 1, 2, 3] [] [1] 0)
  (idx : IVec ⟨1, ![1]⟩ 32) (hidx : ∀ k, (idx k).toInt = (o : ℤ))

include hidx in
/-- Start plus window coordinate, axis by axis, is the landing index's coordinate. -/
theorem start_add_window (j : (Sh C).Idx) (a : Fin 4) :
    (chanDims C wf).start j idx a + ((chanDims C wf).window j a : ℤ) = ((tgt o C hC j a).val : ℤ) := by
  match a with
  | ⟨0, _⟩ => exact Int.zero_add _
  | ⟨1, _⟩ =>
    show (idx ((chanDims C wf).siIdx j ⟨0, Nat.zero_lt_one⟩)).toInt + (((j 1).val : ℕ) : ℤ) = ((o + (j 1).val : ℕ) : ℤ)
    rw [hidx, Int.natCast_add]
  | ⟨2, _⟩ => exact Int.zero_add _
  | ⟨3, _⟩ => exact Int.zero_add _

include hidx in
/-- Every update index lands inside the operand, at `tgt`. -/
theorem resultIdx_eq (j : (Sh C).Idx) : (chanDims C wf).resultIdx? j idx = some (tgt o C hC j) := by
  have H := start_add_window o C hC wf idx hidx j
  unfold ScatterDims.resultIdx?
  rw [dif_pos (fun a => by
    rw [H a]
    exact ⟨Int.natCast_nonneg _, Int.ofNat_lt.2 (tgt o C hC j a).isLt⟩)]
  refine congrArg some (funext fun a => Fin.ext ?_)
  show ((chanDims C wf).start j idx a + ((chanDims C wf).window j a : ℤ)).toNat = _
  rw [H a, Int.toNat_natCast]

include hC hidx in
/-- **The scatter read at an index.** -/
theorem scatter_chan_apply (x : (Sh 64).Idx → α) (upd : (Sh C).Idx → α) (i : (Sh 64).Idx) :
    Host.scatter (chanDims C wf) (fun _ b => b) x idx upd i =
      if h : o ≤ (i 1).val ∧ (i 1).val < o + C then
        upd (ix4 ⟨(i 0).val, (i 0).isLt⟩ ⟨(i 1).val - o, by omega⟩ ⟨(i 2).val, (i 2).isLt⟩ ⟨(i 3).val, (i 3).isLt⟩)
      else x i := by
  by_cases h : o ≤ (i 1).val ∧ (i 1).val < o + C
  · rw [dif_pos h]
    have e : tgt o C hC (ix4 ⟨(i 0).val, (i 0).isLt⟩ ⟨(i 1).val - o, by omega⟩ ⟨(i 2).val, (i 2).isLt⟩ ⟨(i 3).val, (i 3).isLt⟩) = i := by
      funext a
      apply Fin.ext
      match a with
      | ⟨0, _⟩ => rfl
      | ⟨1, _⟩ => show o + ((i 1).val - o) = (i 1).val; omega
      | ⟨2, _⟩ => rfl
      | ⟨3, _⟩ => rfl
    exact (congrArg (Host.scatter (chanDims C wf) (fun _ b => b) x idx upd) e.symm).trans
      (ScatterSet.scatter_set_apply_target (chanDims C wf) x idx upd (tgt o C hC) (tgt_injective o C hC)
        (resultIdx_eq o C hC wf idx hidx) _)
  · rw [dif_neg h]
    refine ScatterSet.scatter_set_apply_other (chanDims C wf) x idx upd (tgt o C hC) (resultIdx_eq o C hC wf idx hidx) i
      (fun j e => h ?_)
    have h1 : o + (j 1).val = (i 1).val := congrArg Fin.val (congrFun e ⟨1, by decide⟩)
    have h2 : (j 1).val < C := (j 1).isLt
    omega

end

end Cert.Asm

end
-- ==== Proof.Asm.Reference.lean ====
/-
  The layout assembly on the reference's side.

  The reference cuts the activation array [16, 64, 192, 192] into four channel ranges with unit-stride slices, works
  on each, and writes each result back over its channels with a scatter of one whole update window at the range's
  channel offset (0, 16, 32, 48), one after the other, starting from the array itself. Here: each slice is the
  specification's channel range; the last scatter's result read at an index is the worked piece whose channel span
  holds the index's channel, and the array's own element in the last eight channels; and, when the four worked pieces
  are the specification's group maps of their ranges, the result is the specification's whole result.
-/
import proofs.«129114_j1357209666244_2_alg».proof.Proof.Gen.ReferenceIdeal.Read
import proofs.«129114_j1357209666244_2_alg».proof.Proof.Asm.Scatter

noncomputable section

namespace Cert.Asm

open Idealize.ShloMosaic Idealize.ShloMosaic.ValueIdx Cert.Spec
open Cert.ReferenceIdeal Cert.ReferenceIdeal.Read
open Cert.ReferenceIdeal.Facts₀ Cert.ReferenceIdeal.Facts

/-! ## The slices -/

theorem v0_eq (x0 : Arr 64) : val_main_v0 (F := Ideal) x0 = chans 0 16 (by decide) x0 := by
  unfold val_main_v0; exact slice_eq_chans 0 16 _ x0 _
theorem v13_eq (x0 : Arr 64) : val_main_v13 (F := Ideal) x0 = chans 16 16 (by decide) x0 := by
  unfold val_main_v13; exact slice_eq_chans 16 16 _ x0 _
theorem v27_eq (x0 : Arr 64) : val_main_v27 (F := Ideal) x0 = chans 32 16 (by decide) x0 := by
  unfold val_main_v27; exact slice_eq_chans 32 16 _ x0 _
theorem v41_eq (x0 : Arr 64) : val_main_v41 (F := Ideal) x0 = chans 48 8 (by decide) x0 := by
  unfold val_main_v41; exact slice_eq_chans 48 8 _ x0 _

/-! ## The four scatters, one at a time -/

section
variable {F : FTy → Type} [FloatOps F]

/-- The scatter at channel offset 0: inside channels 0 … 15 the update, elsewhere the operand. -/
theorem v12_apply (x0 : (⟨S16x64x192x192, .f32⟩ : BufTy).Contents (Elt F)) (i : S16x64x192x192.Idx) :
    val_main_v12 (F := F) x0 i =
      if h : 0 ≤ (i 1).val ∧ (i 1).val < 0 + 16 then val_main_v10 (F := F) x0 (ix4 ⟨(i 0).val, (i 0).isLt⟩ ⟨(i 1).val - 0, by omega⟩ ⟨(i 2).val, (i 2).isLt⟩ ⟨(i 3).val, (i 3).isLt⟩)
      else x0 i := by
  unfold val_main_v12
  exact scatter_chan_apply 0 16 (by decide) _ (val_main_v11 (F := F))
    (fun k => by rw [val_main_v11_apply, val_main_c_apply]; decide) _ _ i

/-- The scatter at channel offset 16: inside channels 16 … 31 the update, elsewhere the operand. -/
theorem v26_apply (x0 : (⟨S16x64x192x192, .f32⟩ : BufTy).Contents (Elt F)) (i : S16x64x192x192.Idx) :
    val_main_v26 (F := F) x0 i =
      if h : 16 ≤ (i 1).val ∧ (i 1).val < 16 + 16 then val_main_v24 (F := F) x0 (ix4 ⟨(i 0).val, (i 0).isLt⟩ ⟨(i 1).val - 16, by omega⟩ ⟨(i 2).val, (i 2).isLt⟩ ⟨(i 3).val, (i 3).isLt⟩)
      else val_main_v12 (F := F) x0 i := by
  unfold val_main_v26
  exact scatter_chan_apply 16 16 (by decide) _ (val_main_v25 (F := F))
    (fun k => by rw [val_main_v25_apply, val_main_c_5_apply]; decide) _ _ i

/-- The scatter at channel offset 32: inside channels 32 … 47 the update, elsewhere the operand. -/
theorem v40_apply (x0 : (⟨S16x64x192x192, .f32⟩ : BufTy).Contents (Elt F)) (i : S16x64x192x192.Idx) :
    val_main_v40 (F := F) x0 i =
      if h : 32 ≤ (i 1).val ∧ (i 1).val < 32 + 16 then val_main_v38 (F := F) x0 (ix4 ⟨(i 0).val, (i 0).isLt⟩ ⟨(i 1).val - 32, by omega⟩ ⟨(i 2).val, (i 2).isLt⟩ ⟨(i 3).val, (i 3).isLt⟩)
      else val_main_v26 (F := F) x0 i := by
  unfold val_main_v40
  exact scatter_chan_apply 32 16 (by decide) _ (val_main_v39 (F := F))
    (fun k => by rw [val_main_v39_apply, val_main_c_9_apply]; decide) _ _ i

/-- The scatter at channel offset 48: inside channels 48 … 55 the update, elsewhere the operand. -/
theorem v54_step (x0 : (⟨S16x64x192x192, .f32⟩ : BufTy).Contents (Elt F)) (i : S16x64x192x192.Idx) :
    val_main_v54 (F := F) x0 i =
      if h : 48 ≤ (i 1).val ∧ (i 1).val < 48 + 8 then val_main_v52 (F := F) x0 (ix4 ⟨(i 0).val, (i 0).isLt⟩ ⟨(i 1).val - 48, by omega⟩ ⟨(i 2).val, (i 2).isLt⟩ ⟨(i 3).val, (i 3).isLt⟩)
      else val_main_v40 (F := F) x0 i := by
  unfold val_main_v54
  exact scatter_chan_apply 48 8 (by decide) _ (val_main_v53 (F := F))
    (fun k => by rw [val_main_v53_apply, val_main_c_13_apply]; decide) _ _ i

/-! ## The chain -/

/-- The last scatter's result read at an index: the worked piece whose channel span holds the channel, at the channel
    less the span's start; in the last eight channels the array's own element. -/
theorem v54_apply (x0 : (⟨S16x64x192x192, .f32⟩ : BufTy).Contents (Elt F)) (i : S16x64x192x192.Idx) :
    val_main_v54 (F := F) x0 i =
      if h0 : (i 1).val < 16 then val_main_v10 (F := F) x0 (ix4 ⟨(i 0).val, (i 0).isLt⟩ ⟨(i 1).val, h0⟩ ⟨(i 2).val, (i 2).isLt⟩ ⟨(i 3).val, (i 3).isLt⟩)
      else if h1 : (i 1).val < 32 then val_main_v24 (F := F) x0 (ix4 ⟨(i 0).val, (i 0).isLt⟩ ⟨(i 1).val - 16, by omega⟩ ⟨(i 2).val, (i 2).isLt⟩ ⟨(i 3).val, (i 3).isLt⟩)
      else if h2 : (i 1).val < 48 then val_main_v38 (F := F) x0 (ix4 ⟨(i 0).val, (i 0).isLt⟩ ⟨(i 1).val - 32, by omega⟩ ⟨(i 2).val, (i 2).isLt⟩ ⟨(i 3).val, (i 3).isLt⟩)
      else if h3 : (i 1).val < 56 then val_main_v52 (F := F) x0 (ix4 ⟨(i 0).val, (i 0).isLt⟩ ⟨(i 1).val - 48, by omega⟩ ⟨(i 2).val, (i 2).isLt⟩ ⟨(i 3).val, (i 3).isLt⟩)
      else x0 i := by
  by_cases h0 : (i 1).val < 16
  · rw [dif_pos h0, v54_step, dif_neg (show ¬(48 ≤ (i 1).val ∧ (i 1).val < 48 + 8) by omega),
      v40_apply, dif_neg (show ¬(32 ≤ (i 1).val ∧ (i 1).val < 32 + 16) by omega),
      v26_apply, dif_neg (show ¬(16 ≤ (i 1).val ∧ (i 1).val < 16 + 16) by omega),
      v12_apply, dif_pos (show 0 ≤ (i 1).val ∧ (i 1).val < 0 + 16 by omega)]
    rfl
  rw [dif_neg h0]
  by_cases h1 : (i 1).val < 32
  · rw [dif_pos h1, v54_step, dif_neg (show ¬(48 ≤ (i 1).val ∧ (i 1).val < 48 + 8) by omega),
      v40_apply, dif_neg (show ¬(32 ≤ (i 1).val ∧ (i 1).val < 32 + 16) by omega),
      v26_apply, dif_pos (show 16 ≤ (i 1).val ∧ (i 1).val < 16 + 16 by omega)]
  rw [dif_neg h1]
  by_cases h2 : (i 1).val < 48
  · rw [dif_pos h2, v54_step, dif_neg (show ¬(48 ≤ (i 1).val ∧ (i 1).val < 48 + 8) by omega),
      v40_apply, dif_pos (show 32 ≤ (i 1).val ∧ (i 1).val < 32 + 16 by omega)]
  rw [dif_neg h2]
  by_cases h3 : (i 1).val < 56
  · rw [dif_pos h3, v54_step, dif_pos (show 48 ≤ (i 1).val ∧ (i 1).val < 48 + 8 by omega)]
  rw [dif_neg h3, v54_step, dif_neg (show ¬(48 ≤ (i 1).val ∧ (i 1).val < 48 + 8) by omega),
    v40_apply, dif_neg (show ¬(32 ≤ (i 1).val ∧ (i 1).val < 32 + 16) by omega),
    v26_apply, dif_neg (show ¬(16 ≤ (i 1).val ∧ (i 1).val < 16 + 16) by omega),
    v12_apply, dif_neg (show ¬(0 ≤ (i 1).val ∧ (i 1).val < 0 + 16) by omega)]

end

/-- When the four worked pieces are the specification's group maps of the slices, the reference's result is the
    specification's whole result. -/
theorem v54_eq_G (x0 : Arr 64)
    (hv10 : val_main_v10 (F := Ideal) x0 = Gg 1 d1 (val_main_v0 (F := Ideal) x0))
    (hv24 : val_main_v24 (F := Ideal) x0 = Gg 2 d2 (val_main_v13 (F := Ideal) x0))
    (hv38 : val_main_v38 (F := Ideal) x0 = Gg 4 d4 (val_main_v27 (F := Ideal) x0))
    (hv52 : val_main_v52 (F := Ideal) x0 = Gg 8 d8 (val_main_v41 (F := Ideal) x0)) :
    val_main_v54 (F := Ideal) x0 = G x0 := by
  funext i
  rw [v54_apply, hv10, hv24, hv38, hv52, v0_eq, v13_eq, v27_eq, v41_eq]
  rfl

end Cert.Asm

end
-- ==== Proof.LibBlocks.lean ====
/-
  Cutting the two trailing axes of a rank-4 array into blocks: general lemmas.

  An array of shape [N, C, H, W] with H = Hb * bs and W = Wb * cs is, in row-major order, the same list of entries as an
  array of shape [N, C, Hb, bs, Wb, cs]: entry (n, c, p, a, q, b) of the second is entry (n, c, p * bs + a, q * cs + b)
  of the first, because both sit at position (((n * C + c) * H + p * bs + a) * W + q * cs + b. The reshape is read in
  both directions. The sum of the rank-6 array over its axes 3 and 5, started from an initial value, is at (n, c, p, q)
  that value plus the double sum over the offsets (a, b) of the entries (n, c, p, a, q, b): the indices that the
  reduction sends to (n, c, p, q) are exactly those, one for each pair (a, b).
-/
import Idealize.ShloMosaic.Lib.Pipeline.Value
import Idealize.ShloMosaic.Lib.ValueIdxRank6
import Idealize.ShloMosaic.PureOps.Ideal.Laws

noncomputable section

namespace Cert.LibBlocks

open Idealize.ShloMosaic Idealize.ShloMosaic.ValueIdx
open scoped BigOperators

variable {α : Type}

/-- The row-major position of (n, c, p * bs + a, q * cs + b) in [N, C, Hb * bs, Wb * cs] is that of
    (n, c, p, a, q, b) in [N, C, Hb, bs, Wb, cs]. -/
theorem rowMajor_blocks {N C H W Hb bs Wb cs : ℕ} (hH : Hb * bs = H) (hW : Wb * cs = W)
    (k : (⟨6, ![N, C, Hb, bs, Wb, cs]⟩ : Shape).Idx) (j : (⟨4, ![N, C, H, W]⟩ : Shape).Idx)
    (h0 : (j 0).val = (k 0).val) (h1 : (j 1).val = (k 1).val)
    (h2 : (j 2).val = (k 2).val * bs + (k 3).val) (h3 : (j 3).val = (k 4).val * cs + (k 5).val) :
    ((⟨4, ![N, C, H, W]⟩ : Shape).rowMajor j).val = ((⟨6, ![N, C, Hb, bs, Wb, cs]⟩ : Shape).rowMajor k).val := by
  rw [Shape.rowMajor_val_four, Shape.rowMajor_val_six]
  show (((j 0).val * C + (j 1).val) * H + (j 2).val) * W + (j 3).val
    = (((((k 0).val * C + (k 1).val) * Hb + (k 2).val) * bs + (k 3).val) * Wb + (k 4).val) * cs + (k 5).val
  rw [h0, h1, h2, h3, ← hH, ← hW]
  ring

/-- The reshape of [N, C, H, W] to [N, C, Hb, bs, Wb, cs] read at (n, c, p, a, q, b): the operand at
    (n, c, p * bs + a, q * cs + b). -/
theorem shapeCast_split_apply {N C H W Hb bs Wb cs : ℕ} (hH : Hb * bs = H) (hW : Wb * cs = W)
    (y : (⟨4, ![N, C, H, W]⟩ : Shape).Idx → α)
    (h : (⟨4, ![N, C, H, W]⟩ : Shape).ShapeCasts ⟨6, ![N, C, Hb, bs, Wb, cs]⟩)
    (k : (⟨6, ![N, C, Hb, bs, Wb, cs]⟩ : Shape).Idx) (j : (⟨4, ![N, C, H, W]⟩ : Shape).Idx)
    (h0 : (j 0).val = (k 0).val) (h1 : (j 1).val = (k 1).val)
    (h2 : (j 2).val = (k 2).val * bs + (k 3).val) (h3 : (j 3).val = (k 4).val * cs + (k 5).val) :
    shapeCast ⟨6, ![N, C, Hb, bs, Wb, cs]⟩ y h k = y j :=
  shapeCast_apply y h k j (rowMajor_blocks hH hW k j h0 h1 h2 h3)

/-- The reshape of [N, C, Hb, bs, Wb, cs] back to [N, C, H, W] read at (n, c, p * bs + a, q * cs + b): the operand at
    (n, c, p, a, q, b). -/
theorem shapeCast_merge_apply {N C H W Hb bs Wb cs : ℕ} (hH : Hb * bs = H) (hW : Wb * cs = W)
    (z : (⟨6, ![N, C, Hb, bs, Wb, cs]⟩ : Shape).Idx → α)
    (h : (⟨6, ![N, C, Hb, bs, Wb, cs]⟩ : Shape).ShapeCasts ⟨4, ![N, C, H, W]⟩)
    (j : (⟨4, ![N, C, H, W]⟩ : Shape).Idx) (k : (⟨6, ![N, C, Hb, bs, Wb, cs]⟩ : Shape).Idx)
    (h0 : (j 0).val = (k 0).val) (h1 : (j 1).val = (k 1).val)
    (h2 : (j 2).val = (k 2).val * bs + (k 3).val) (h3 : (j 3).val = (k 4).val * cs + (k 5).val) :
    shapeCast ⟨4, ![N, C, H, W]⟩ z h j = z k :=
  shapeCast_apply z h j k (rowMajor_blocks hH hW k j h0 h1 h2 h3).symm

/-- Dropping axes 3 and 5 of a rank-6 index keeps coordinates 0, 1, 2 and 4, in that order. -/
theorem drop_blocks_val {N C Hb bs Wb cs : ℕ}
    (h : (⟨6, ![N, C, Hb, bs, Wb, cs]⟩ : Shape).ReducesTo [3, 5] ⟨4, ![N, C, Hb, Wb]⟩)
    (i : (⟨6, ![N, C, Hb, bs, Wb, cs]⟩ : Shape).Idx) :
    (h.drop i 0).val = (i 0).val ∧ (h.drop i 1).val = (i 1).val ∧ (h.drop i 2).val = (i 2).val
      ∧ (h.drop i 3).val = (i 4).val :=
  ⟨rfl, rfl, rfl, rfl⟩

/-- The sum over axes 3 and 5 of a rank-6 array, from an initial value: at (n, c, p, q) the initial value plus the
    double sum over the offsets (a, b) of the entries (n, c, p, a, q, b). -/
theorem hostReduceAdd_blocks {N C Hb bs Wb cs : ℕ}
    (h : (⟨6, ![N, C, Hb, bs, Wb, cs]⟩ : Shape).ReducesTo [3, 5] ⟨4, ![N, C, Hb, Wb]⟩)
    (x : (⟨6, ![N, C, Hb, bs, Wb, cs]⟩ : Shape).Idx → EReal) (init : EReal)
    (j : (⟨4, ![N, C, Hb, Wb]⟩ : Shape).Idx) :
    Ideal.hostReduceAdd h x init j
      = init + ∑ a : Fin bs, ∑ b : Fin cs, x (ix6 (j 0) (j 1) (j 2) a (j 3) b) := by
  unfold Ideal.hostReduceAdd
  congr 1
  rw [← Finset.sum_product' (f := fun a b => x (ix6 (j 0) (j 1) (j 2) a (j 3) b))]
  refine Finset.sum_bij' (fun i _ => (i 3, i 5)) (fun p _ => ix6 (j 0) (j 1) (j 2) p.1 (j 3) p.2) ?_ ?_ ?_ ?_ ?_
  · intro i _; exact Finset.mem_product.2 ⟨Finset.mem_univ _, Finset.mem_univ _⟩
  · intro p _
    refine Finset.mem_filter.2 ⟨Finset.mem_univ _, ?_⟩
    funext b
    obtain ⟨e0, e1, e2, e3⟩ := drop_blocks_val h (ix6 (j 0) (j 1) (j 2) p.1 (j 3) p.2)
    match b with
    | ⟨0, _⟩ => exact Fin.ext e0
    | ⟨1, _⟩ => exact Fin.ext e1
    | ⟨2, _⟩ => exact Fin.ext e2
    | ⟨3, _⟩ => exact Fin.ext e3
  · intro i hi
    have hd : h.drop i = j := (Finset.mem_filter.1 hi).2
    obtain ⟨e0, e1, e2, e3⟩ := drop_blocks_val h i
    rw [hd] at e0 e1 e2 e3
    funext g
    match g with
    | ⟨0, _⟩ => exact Fin.ext e0
    | ⟨1, _⟩ => exact Fin.ext e1
    | ⟨2, _⟩ => exact Fin.ext e2
    | ⟨3, _⟩ => rfl
    | ⟨4, _⟩ => exact Fin.ext e3
    | ⟨5, _⟩ => rfl
  · intro p _; rfl
  · intro i hi
    have hd : h.drop i = j := (Finset.mem_filter.1 hi).2
    obtain ⟨e0, e1, e2, e3⟩ := drop_blocks_val h i
    rw [hd] at e0 e1 e2 e3
    show x i = x (ix6 (j 0) (j 1) (j 2) (i 3) (j 3) (i 5))
    congr 1
    funext g
    match g with
    | ⟨0, _⟩ => exact Fin.ext e0.symm
    | ⟨1, _⟩ => exact Fin.ext e1.symm
    | ⟨2, _⟩ => exact Fin.ext e2.symm
    | ⟨3, _⟩ => rfl
    | ⟨4, _⟩ => exact Fin.ext e3.symm
    | ⟨5, _⟩ => rfl

end Cert.LibBlocks

end
-- ==== Proof.LibIndicator.lean ====
/-
  The positivity mask of a real sum: general lemmas at the ideal values.

  A finite sum of real numbers is a real number. For a real s and a real k > 0, the quotient (0 + s) / k is positive
  exactly when s is, so the comparison "(0 + s) / k > 0", converted from one bit to a float, is the 0/1 indicator of
  s > 0. The f32 patterns 0x3F800000, 0x40800000, 0x41800000 and 0x42800000 are the reals 1, 4,
  16 and 64.
-/
import Idealize.ShloMosaic.PureOps.Ideal.Laws
import Idealize.ShloMosaic.Lib.IdealHost

noncomputable section

namespace Cert.LibBlocks

open Idealize.ShloMosaic
open scoped BigOperators

/-- A finite sum of reals, taken in the extended reals, is a real. -/
theorem exists_real_sum {ι : Type} (f : ι → EReal) :
    ∀ s : Finset ι, (∀ i ∈ s, ∃ r : ℝ, f i = (r : EReal)) → ∃ r : ℝ, ∑ i ∈ s, f i = (r : EReal) := by
  classical
  intro s
  refine Finset.induction_on s (fun _ => ⟨0, by simp⟩) ?_
  intro a s ha ih hf
  obtain ⟨r1, h1⟩ := hf a (Finset.mem_insert_self a s)
  obtain ⟨r2, h2⟩ := ih (fun i hi => hf i (Finset.mem_insert_of_mem hi))
  exact ⟨r1 + r2, by rw [Finset.sum_insert ha, h1, h2, EReal.coe_add]⟩

/-- A double sum of reals over two finite ranges is a real. -/
theorem exists_real_sum2 {m n : ℕ} (f : Fin m → Fin n → EReal) (hf : ∀ a b, ∃ r : ℝ, f a b = (r : EReal)) :
    ∃ r : ℝ, ∑ a : Fin m, ∑ b : Fin n, f a b = (r : EReal) :=
  exists_real_sum _ _ fun a _ => exists_real_sum _ _ fun b _ => hf a b

/-- The f32 pattern 0x3F800000 is the real one. -/
theorem ofBits_one_f32_real : Ideal.ofBits .f32 0x3F800000#32 = ((1 : ℝ) : EReal) := by
  rw [Ideal.ofBits_one_f32, EReal.coe_one]

/-- The f32 pattern 0x40800000 is the real four. -/
theorem ofBits_four_f32 : Ideal.ofBits .f32 0x40800000#32 = ((4 : ℝ) : EReal) := by
  simp [Ideal.ofBits, Ideal.ieee, -EReal.coe_mul]; norm_num

/-- The f32 pattern 0x41800000 is the real sixteen. -/
theorem ofBits_sixteen_f32 : Ideal.ofBits .f32 0x41800000#32 = ((16 : ℝ) : EReal) := by
  simp [Ideal.ofBits, Ideal.ieee, -EReal.coe_mul]; norm_num

/-- The f32 pattern 0x42800000 is the real sixty-four. -/
theorem ofBits_sixtyfour_f32 : Ideal.ofBits .f32 0x42800000#32 = ((64 : ℝ) : EReal) := by
  simp [Ideal.ofBits, Ideal.ieee, -EReal.coe_mul]; norm_num

/-- For a real s and a real k > 0: "(0 + s) / k > 0" as a float is the indicator of s > 0. -/
theorem mask_real (s k : ℝ) (hk : 0 < k) :
    (FloatOps.uitofp (F := Ideal) .f32
        (FloatOps.cmpf (F := Ideal) (φ := .f32) .ogt
          (FloatOps.hostDivf (F := Ideal) (φ := .f32) ((0 : EReal) + (s : EReal)) ((k : ℝ) : EReal)) (0 : EReal)) : EReal)
      = if (0 : EReal) < (s : EReal) then 1 else 0 := by
  show (((Ideal.cmp .ogt (Ideal.div ((0 : EReal) + (s : EReal)) ((k : ℝ) : EReal)) (0 : EReal)).toNat : ℝ) : EReal) = _
  rw [zero_add, Ideal.div_coe hk.ne', ← EReal.coe_mul]
  have hiff : (0 : EReal) < ((s * (1 / k) : ℝ) : EReal) ↔ (0 : EReal) < (s : EReal) := by
    rw [EReal.coe_pos, EReal.coe_pos]
    exact mul_pos_iff_of_pos_right (one_div_pos.2 hk)
  unfold Ideal.cmp
  by_cases hs : (0 : EReal) < (s : EReal)
  · rw [if_pos hs]
    have h1 : decide ((0 : EReal) < ((s * (1 / k) : ℝ) : EReal)) = true := decide_eq_true (hiff.2 hs)
    have h2 : (BitVec.ofBool true).toNat = 1 := rfl
    simp only [h1, h2]
    norm_num
  · rw [if_neg hs]
    have h1 : decide ((0 : EReal) < ((s * (1 / k) : ℝ) : EReal)) = false := decide_eq_false (fun h => hs (hiff.1 h))
    simp only [h1]
    norm_num

end Cert.LibBlocks

end
-- ==== Proof.LibBlockGroup.lean ====
/-
  One channel range masked by its block sums: the general statement.

  An array y of shape [N, C, H, H] with H = Hb * bs, all of whose entries are real, is reshaped to
  [N, C, Hb, bs, Hb, bs]; entry (n, c, h, w) becomes entry (n, c, h / bs, h % bs, w / bs, w % bs). The reshaped array is
  summed over the two offset axes from 0, the sums are divided by a real k > 0, compared with 0, and the comparison's bit
  is converted to a float. The product of the reshaped array with that mask is, at the index that (n, c, h, w) became,
  y (n, c, h, w) times the 0/1 indicator of the sum of y over the block of (h, w) — the entries
  (a + bs * (h / bs), b + bs * (w / bs)) for a, b < bs — being positive.
-/
import proofs.«129114_j1357209666244_2_alg».proof.Proof.LibBlocks
import proofs.«129114_j1357209666244_2_alg».proof.Proof.LibIndicator

noncomputable section

namespace Cert.LibBlocks

open Idealize.ShloMosaic Idealize.ShloMosaic.ValueIdx
open scoped BigOperators

/-- With H = Hb * bs and h < H the block size is positive. -/
theorem bs_pos {H Hb bs h : ℕ} (hH : Hb * bs = H) (hh : h < H) : 0 < bs := by
  rcases Nat.eq_zero_or_pos bs with e | e
  · rw [e, Nat.mul_zero] at hH; omega
  · exact e

/-- The block number of a coordinate is below the number of blocks. -/
theorem div_lt_blocks {H Hb bs h : ℕ} (hH : Hb * bs = H) (hh : h < H) : h / bs < Hb :=
  Nat.div_lt_of_lt_mul (by rw [Nat.mul_comm, hH]; exact hh)

/-- The offset of a coordinate inside its block is below the block size. -/
theorem mod_lt_blocks {H Hb bs h : ℕ} (hH : Hb * bs = H) (hh : h < H) : h % bs < bs :=
  Nat.mod_lt _ (bs_pos hH hh)

/-- Offset a of the block of h is a coordinate. -/
theorem off_lt_blocks {H Hb bs a h : ℕ} (hH : Hb * bs = H) (ha : a < bs) (hh : h < H) : a + bs * (h / bs) < H := by
  have h1 : h / bs < Hb := div_lt_blocks hH hh
  have h2 : bs * (h / bs + 1) ≤ bs * Hb := Nat.mul_le_mul_left bs h1
  have h3 : bs * (h / bs + 1) = bs * (h / bs) + bs := by ring
  have h4 : bs * Hb = H := by rw [Nat.mul_comm]; exact hH
  omega

/-- The rank-6 index that entry (n, c, h, w) becomes. -/
abbrev blockIdx {N C H Hb bs : ℕ} (hH : Hb * bs = H) (n : Fin N) (c : Fin C) (h w : Fin H) :
    (⟨6, ![N, C, Hb, bs, Hb, bs]⟩ : Shape).Idx :=
  ix6 n c ⟨h.val / bs, div_lt_blocks hH h.isLt⟩ ⟨h.val % bs, mod_lt_blocks hH h.isLt⟩
    ⟨w.val / bs, div_lt_blocks hH w.isLt⟩ ⟨w.val % bs, mod_lt_blocks hH w.isLt⟩

/-- The block (n, c, h / bs, w / bs) that entry (n, c, h, w) lies in. -/
abbrev groupIdx {N C H Hb bs : ℕ} (hH : Hb * bs = H) (n : Fin N) (c : Fin C) (h w : Fin H) :
    (⟨4, ![N, C, Hb, Hb]⟩ : Shape).Idx :=
  ix4 n c ⟨h.val / bs, div_lt_blocks hH h.isLt⟩ ⟨w.val / bs, div_lt_blocks hH w.isLt⟩

/-- The reshape back to [N, C, H, H] read at (n, c, h, w): the operand at the rank-6 index of that entry. -/
theorem shapeCast_merge_blockIdx {α : Type} {N C H Hb bs : ℕ} (hH : Hb * bs = H)
    (z : (⟨6, ![N, C, Hb, bs, Hb, bs]⟩ : Shape).Idx → α)
    (hm : (⟨6, ![N, C, Hb, bs, Hb, bs]⟩ : Shape).ShapeCasts ⟨4, ![N, C, H, H]⟩)
    (n : Fin N) (c : Fin C) (h w : Fin H) :
    shapeCast ⟨4, ![N, C, H, H]⟩ z hm (ix4 n c h w) = z (blockIdx hH n c h w) :=
  shapeCast_merge_apply hH hH z hm (ix4 n c h w) (blockIdx hH n c h w) rfl rfl
    (by show h.val = h.val / bs * bs + h.val % bs; exact (Nat.div_add_mod' h.val bs).symm)
    (by show w.val = w.val / bs * bs + w.val % bs; exact (Nat.div_add_mod' w.val bs).symm)

/-- The reshape to [N, C, Hb, bs, Hb, bs] read at the rank-6 index of entry (n, c, h, w): that entry. -/
theorem shapeCast_split_blockIdx {α : Type} {N C H Hb bs : ℕ} (hH : Hb * bs = H)
    (y : (⟨4, ![N, C, H, H]⟩ : Shape).Idx → α)
    (hs : (⟨4, ![N, C, H, H]⟩ : Shape).ShapeCasts ⟨6, ![N, C, Hb, bs, Hb, bs]⟩)
    (n : Fin N) (c : Fin C) (h w : Fin H) :
    shapeCast ⟨6, ![N, C, Hb, bs, Hb, bs]⟩ y hs (blockIdx hH n c h w) = y (ix4 n c h w) :=
  shapeCast_split_apply hH hH y hs (blockIdx hH n c h w) (ix4 n c h w) rfl rfl
    (by show h.val = h.val / bs * bs + h.val % bs; exact (Nat.div_add_mod' h.val bs).symm)
    (by show w.val = w.val / bs * bs + w.val % bs; exact (Nat.div_add_mod' w.val bs).symm)

/-- The sum of the reshaped array over the two offset axes, from 0, at the block of (n, c, h, w): the sum of y over the
    entries of that block. -/
theorem blockSum_apply {N C H Hb bs : ℕ} (hH : Hb * bs = H)
    (y : (⟨4, ![N, C, H, H]⟩ : Shape).Idx → EReal)
    (hs : (⟨4, ![N, C, H, H]⟩ : Shape).ShapeCasts ⟨6, ![N, C, Hb, bs, Hb, bs]⟩)
    (hr : (⟨6, ![N, C, Hb, bs, Hb, bs]⟩ : Shape).ReducesTo [3, 5] ⟨4, ![N, C, Hb, Hb]⟩)
    (n : Fin N) (c : Fin C) (h w : Fin H) :
    Ideal.hostReduceAdd hr (shapeCast ⟨6, ![N, C, Hb, bs, Hb, bs]⟩ y hs) 0 (groupIdx hH n c h w)
      = 0 + ∑ a : Fin bs, ∑ b : Fin bs,
          y (ix4 n c ⟨a.val + bs * (h.val / bs), off_lt_blocks hH a.isLt h.isLt⟩
            ⟨b.val + bs * (w.val / bs), off_lt_blocks hH b.isLt w.isLt⟩) := by
  rw [hostReduceAdd_blocks]
  congr 1
  refine Finset.sum_congr rfl fun a _ => Finset.sum_congr rfl fun b _ => ?_
  exact shapeCast_split_apply hH hH y hs _ _ rfl rfl
    (by show a.val + bs * (h.val / bs) = h.val / bs * bs + a.val; rw [Nat.mul_comm, Nat.add_comm])
    (by show b.val + bs * (w.val / bs) = w.val / bs * bs + b.val; rw [Nat.mul_comm, Nat.add_comm])

/-- The reshaped array times the mask of its block sums, at the rank-6 index of entry (n, c, h, w): the entry times the
    indicator that the sum of its block is positive. -/
theorem blockGroup_apply {N C H Hb bs : ℕ} (hH : Hb * bs = H)
    (y : (⟨4, ![N, C, H, H]⟩ : Shape).Idx → EReal) (hy : ∀ i, ∃ r : ℝ, y i = (r : EReal))
    (hs : (⟨4, ![N, C, H, H]⟩ : Shape).ShapeCasts ⟨6, ![N, C, Hb, bs, Hb, bs]⟩)
    (hr : (⟨6, ![N, C, Hb, bs, Hb, bs]⟩ : Shape).ReducesTo [3, 5] ⟨4, ![N, C, Hb, Hb]⟩)
    (k : ℝ) (hk : 0 < k) (n : Fin N) (c : Fin C) (h w : Fin H) :
    FloatOps.mulf (F := Ideal) (φ := .f32)
        (shapeCast ⟨6, ![N, C, Hb, bs, Hb, bs]⟩ y hs (blockIdx hH n c h w))
        (FloatOps.uitofp (F := Ideal) .f32
          (FloatOps.cmpf (F := Ideal) (φ := .f32) .ogt
            (FloatOps.hostDivf (F := Ideal) (φ := .f32)
              (Ideal.hostReduceAdd hr (shapeCast ⟨6, ![N, C, Hb, bs, Hb, bs]⟩ y hs) 0 (groupIdx hH n c h w))
              ((k : ℝ) : EReal))
            (0 : EReal)))
      = y (ix4 n c h w) *
          (if (0 : EReal) < ∑ a : Fin bs, ∑ b : Fin bs,
              y (ix4 n c ⟨a.val + bs * (h.val / bs), off_lt_blocks hH a.isLt h.isLt⟩
                ⟨b.val + bs * (w.val / bs), off_lt_blocks hH b.isLt w.isLt⟩) then 1 else 0) := by
  rw [blockSum_apply hH y hs hr n c h w, shapeCast_split_blockIdx hH y hs n c h w]
  obtain ⟨r, hr'⟩ := exists_real_sum2 (fun a b : Fin bs =>
      y (ix4 n c ⟨a.val + bs * (h.val / bs), off_lt_blocks hH a.isLt h.isLt⟩
        ⟨b.val + bs * (w.val / bs), off_lt_blocks hH b.isLt w.isLt⟩)) (fun _ _ => hy _)
  rw [hr', mask_real r k hk]
  rfl

end Cert.LibBlocks

end
-- ==== Proof.Ref.G1.lean ====
/-
  The reference's channel range of block size 1, as the specification's masked range of its slice.

  The reference reshapes the slice [16, 16, 192, 192] to [16, 16, 192, 1, 192, 1], sums over the two offset axes from 0,
  divides the sums by 1, compares with 0, converts the comparison's bit to a float,
  multiplies with the reshaped slice (each block has one entry, so there is nothing to broadcast) and reshapes back. Entry (n, c, h, w) of the result is therefore the slice's entry
  times the 0/1 indicator that the sum of the 1 × 1 block of (h, w) is positive: the general statement about
  blocks, at these extents and with every entry real.
-/
import proofs.«129114_j1357209666244_2_alg».proof.Proof.Spec
import proofs.«129114_j1357209666244_2_alg».proof.Proof.Gen.ReferenceIdeal.Read
import proofs.«129114_j1357209666244_2_alg».proof.Proof.LibBlockGroup

noncomputable section

namespace Cert.ReferenceIdeal.RefGroups

open Cert.ReferenceIdeal Cert.ReferenceIdeal.Gen Cert.ReferenceIdeal.Read Idealize.ShloMosaic
  Idealize.ShloMosaic.ValueIdx Cert.LibBlocks

/-- The range of block size 1 of the reference is the masked range of its slice. -/
theorem v10_eq (x0 : (⟨S16x64x192x192, .f32⟩ : BufTy).Contents (Elt Ideal)) (hx : Cert.Spec.Finite x0) :
    val_main_v10 (F := Ideal) x0 = Cert.Spec.Gg 1 Cert.Spec.d1 (val_main_v0 (F := Ideal) x0) := by
  have hy : ∀ i, ∃ r : ℝ, (val_main_v0 (F := Ideal) x0 i : EReal) = (r : EReal) := fun i => by
    rw [val_main_v0_apply]; exact hx _
  funext i
  obtain ⟨n, c, h, w, rfl⟩ : ∃ (n : Fin 16) (c : Fin 16) (h w : Fin 192), i = ix4 n c h w :=
    ⟨_, _, _, _, eq_ix4 i⟩
  rw [Cert.Spec.Gg_ix4]
  unfold Cert.Spec.ind Cert.Spec.gsum
  have hH : 192 * 1 = 192 := rfl
  unfold val_main_v10
  refine (shapeCast_merge_blockIdx hH (val_main_v9 (F := Ideal) x0)
    shapeCasts_S16x16x192x1x192x1_S16x16x192x192 n c h w).trans ?_
  rw [val_main_v9_apply, val_main_v8_apply, val_main_v7_apply, val_main_v5_apply,
    val_main_v3_apply, val_main_v4_apply, val_main_v6_apply, val_main_cst_0_apply, val_main_cst_1_apply]
  have hJ : idx_main_v3 ((blockIdx hH n c h w)) = groupIdx hH n c h w := by
    funext a; match a with | ⟨0, _⟩ => rfl | ⟨1, _⟩ => rfl | ⟨2, _⟩ => rfl | ⟨3, _⟩ => rfl
  have h15 : val_main_v2 (F := Ideal) x0 (groupIdx hH n c h w)
      = Ideal.hostReduceAdd reducesTo_S16x16x192x1x192x1_S16x16x192x192_d3_5 (val_main_v1 (F := Ideal) x0)
          (Ideal.ofBits .f32 0x00000000#32) (groupIdx hH n c h w) := rfl
  rw [hJ, h15, Ideal.ofBits_def, Ideal.ofBits_def, ofBits_one_f32_real, Ideal.ofBits_zero_f32]
  exact blockGroup_apply hH (val_main_v0 (F := Ideal) x0) hy shapeCasts_S16x16x192x192_S16x16x192x1x192x1
    reducesTo_S16x16x192x1x192x1_S16x16x192x192_d3_5 1 (by norm_num) n c h w

end Cert.ReferenceIdeal.RefGroups

end
-- ==== Proof.Ref.G2.lean ====
/-
  The reference's channel range of block size 2, as the specification's masked range of its slice.

  The reference reshapes the slice [16, 16, 192, 192] to [16, 16, 96, 2, 96, 2], sums over the two offset axes from 0,
  divides the sums by 4, compares with 0, converts the comparison's bit to a float, broadcasts it over the offsets,
  multiplies with the reshaped slice and reshapes back. Entry (n, c, h, w) of the result is therefore the slice's entry
  times the 0/1 indicator that the sum of the 2 × 2 block of (h, w) is positive: the general statement about
  blocks, at these extents and with every entry real.
-/
import proofs.«129114_j1357209666244_2_alg».proof.Proof.Spec
import proofs.«129114_j1357209666244_2_alg».proof.Proof.Gen.ReferenceIdeal.Read
import proofs.«129114_j1357209666244_2_alg».proof.Proof.LibBlockGroup

noncomputable section

namespace Cert.ReferenceIdeal.RefGroups

open Cert.ReferenceIdeal Cert.ReferenceIdeal.Gen Cert.ReferenceIdeal.Read Idealize.ShloMosaic
  Idealize.ShloMosaic.ValueIdx Cert.LibBlocks

/-- The range of block size 2 of the reference is the masked range of its slice. -/
theorem v24_eq (x0 : (⟨S16x64x192x192, .f32⟩ : BufTy).Contents (Elt Ideal)) (hx : Cert.Spec.Finite x0) :
    val_main_v24 (F := Ideal) x0 = Cert.Spec.Gg 2 Cert.Spec.d2 (val_main_v13 (F := Ideal) x0) := by
  have hy : ∀ i, ∃ r : ℝ, (val_main_v13 (F := Ideal) x0 i : EReal) = (r : EReal) := fun i => by
    rw [val_main_v13_apply]; exact hx _
  funext i
  obtain ⟨n, c, h, w, rfl⟩ : ∃ (n : Fin 16) (c : Fin 16) (h w : Fin 192), i = ix4 n c h w :=
    ⟨_, _, _, _, eq_ix4 i⟩
  rw [Cert.Spec.Gg_ix4]
  unfold Cert.Spec.ind Cert.Spec.gsum
  have hH : 96 * 2 = 192 := rfl
  unfold val_main_v24
  refine (shapeCast_merge_blockIdx hH (val_main_v23 (F := Ideal) x0)
    shapeCasts_S16x16x96x2x96x2_S16x16x192x192 n c h w).trans ?_
  rw [val_main_v23_apply, val_main_v22_apply, val_main_v21_apply, val_main_v20_apply, val_main_v18_apply,
    val_main_v16_apply, val_main_v17_apply, val_main_v19_apply, val_main_cst_3_apply, val_main_cst_4_apply]
  have hJ : idx_main_v16 (idx_main_v22 (blockIdx hH n c h w)) = groupIdx hH n c h w := by
    funext a; match a with | ⟨0, _⟩ => rfl | ⟨1, _⟩ => rfl | ⟨2, _⟩ => rfl | ⟨3, _⟩ => rfl
  have h15 : val_main_v15 (F := Ideal) x0 (groupIdx hH n c h w)
      = Ideal.hostReduceAdd reducesTo_S16x16x96x2x96x2_S16x16x96x96_d3_5 (val_main_v14 (F := Ideal) x0)
          (Ideal.ofBits .f32 0x00000000#32) (groupIdx hH n c h w) := rfl
  rw [hJ, h15, Ideal.ofBits_def, Ideal.ofBits_def, ofBits_four_f32, Ideal.ofBits_zero_f32]
  exact blockGroup_apply hH (val_main_v13 (F := Ideal) x0) hy shapeCasts_S16x16x192x192_S16x16x96x2x96x2
    reducesTo_S16x16x96x2x96x2_S16x16x96x96_d3_5 4 (by norm_num) n c h w

end Cert.ReferenceIdeal.RefGroups

end
-- ==== Proof.Ref.G4.lean ====
/-
  The reference's channel range of block size 4, as the specification's masked range of its slice.

  The reference reshapes the slice [16, 16, 192, 192] to [16, 16, 48, 4, 48, 4], sums over the two offset axes from 0,
  divides the sums by 16, compares with 0, converts the comparison's bit to a float, broadcasts it over the offsets,
  multiplies with the reshaped slice and reshapes back. Entry (n, c, h, w) of the result is therefore the slice's entry
  times the 0/1 indicator that the sum of the 4 × 4 block of (h, w) is positive: the general statement about
  blocks, at these extents and with every entry real.
-/
import proofs.«129114_j1357209666244_2_alg».proof.Proof.Spec
import proofs.«129114_j1357209666244_2_alg».proof.Proof.Gen.ReferenceIdeal.Read
import proofs.«129114_j1357209666244_2_alg».proof.Proof.LibBlockGroup

noncomputable section

namespace Cert.ReferenceIdeal.RefGroups

open Cert.ReferenceIdeal Cert.ReferenceIdeal.Gen Cert.ReferenceIdeal.Read Idealize.ShloMosaic
  Idealize.ShloMosaic.ValueIdx Cert.LibBlocks

/-- The range of block size 4 of the reference is the masked range of its slice. -/
theorem v38_eq (x0 : (⟨S16x64x192x192, .f32⟩ : BufTy).Contents (Elt Ideal)) (hx : Cert.Spec.Finite x0) :
    val_main_v38 (F := Ideal) x0 = Cert.Spec.Gg 4 Cert.Spec.d4 (val_main_v27 (F := Ideal) x0) := by
  have hy : ∀ i, ∃ r : ℝ, (val_main_v27 (F := Ideal) x0 i : EReal) = (r : EReal) := fun i => by
    rw [val_main_v27_apply]; exact hx _
  funext i
  obtain ⟨n, c, h, w, rfl⟩ : ∃ (n : Fin 16) (c : Fin 16) (h w : Fin 192), i = ix4 n c h w :=
    ⟨_, _, _, _, eq_ix4 i⟩
  rw [Cert.Spec.Gg_ix4]
  unfold Cert.Spec.ind Cert.Spec.gsum
  have hH : 48 * 4 = 192 := rfl
  unfold val_main_v38
  refine (shapeCast_merge_blockIdx hH (val_main_v37 (F := Ideal) x0)
    shapeCasts_S16x16x48x4x48x4_S16x16x192x192 n c h w).trans ?_
  rw [val_main_v37_apply, val_main_v36_apply, val_main_v35_apply, val_main_v34_apply, val_main_v32_apply,
    val_main_v30_apply, val_main_v31_apply, val_main_v33_apply, val_main_cst_7_apply, val_main_cst_8_apply]
  have hJ : idx_main_v30 (idx_main_v36 (blockIdx hH n c h w)) = groupIdx hH n c h w := by
    funext a; match a with | ⟨0, _⟩ => rfl | ⟨1, _⟩ => rfl | ⟨2, _⟩ => rfl | ⟨3, _⟩ => rfl
  have h15 : val_main_v29 (F := Ideal) x0 (groupIdx hH n c h w)
      = Ideal.hostReduceAdd reducesTo_S16x16x48x4x48x4_S16x16x48x48_d3_5 (val_main_v28 (F := Ideal) x0)
          (Ideal.ofBits .f32 0x00000000#32) (groupIdx hH n c h w) := rfl
  rw [hJ, h15, Ideal.ofBits_def, Ideal.ofBits_def, ofBits_sixteen_f32, Ideal.ofBits_zero_f32]
  exact blockGroup_apply hH (val_main_v27 (F := Ideal) x0) hy shapeCasts_S16x16x192x192_S16x16x48x4x48x4
    reducesTo_S16x16x48x4x48x4_S16x16x48x48_d3_5 16 (by norm_num) n c h w

end Cert.ReferenceIdeal.RefGroups

end
-- ==== Proof.Ref.G8.lean ====
/-
  The reference's channel range of block size 8, as the specification's masked range of its slice.

  The reference reshapes the slice [16, 8, 192, 192] to [16, 8, 24, 8, 24, 8], sums over the two offset axes from 0,
  divides the sums by 64, compares with 0, converts the comparison's bit to a float, broadcasts it over the offsets,
  multiplies with the reshaped slice and reshapes back. Entry (n, c, h, w) of the result is therefore the slice's entry
  times the 0/1 indicator that the sum of the 8 × 8 block of (h, w) is positive: the general statement about
  blocks, at these extents and with every entry real.
-/
import proofs.«129114_j1357209666244_2_alg».proof.Proof.Spec
import proofs.«129114_j1357209666244_2_alg».proof.Proof.Gen.ReferenceIdeal.Read
import proofs.«129114_j1357209666244_2_alg».proof.Proof.LibBlockGroup

noncomputable section

namespace Cert.ReferenceIdeal.RefGroups

open Cert.ReferenceIdeal Cert.ReferenceIdeal.Gen Cert.ReferenceIdeal.Read Idealize.ShloMosaic
  Idealize.ShloMosaic.ValueIdx Cert.LibBlocks

/-- The range of block size 8 of the reference is the masked range of its slice. -/
theorem v52_eq (x0 : (⟨S16x64x192x192, .f32⟩ : BufTy).Contents (Elt Ideal)) (hx : Cert.Spec.Finite x0) :
    val_main_v52 (F := Ideal) x0 = Cert.Spec.Gg 8 Cert.Spec.d8 (val_main_v41 (F := Ideal) x0) := by
  have hy : ∀ i, ∃ r : ℝ, (val_main_v41 (F := Ideal) x0 i : EReal) = (r : EReal) := fun i => by
    rw [val_main_v41_apply]; exact hx _
  funext i
  obtain ⟨n, c, h, w, rfl⟩ : ∃ (n : Fin 16) (c : Fin 8) (h w : Fin 192), i = ix4 n c h w :=
    ⟨_, _, _, _, eq_ix4 i⟩
  rw [Cert.Spec.Gg_ix4]
  unfold Cert.Spec.ind Cert.Spec.gsum
  have hH : 24 * 8 = 192 := rfl
  unfold val_main_v52
  refine (shapeCast_merge_blockIdx hH (val_main_v51 (F := Ideal) x0)
    shapeCasts_S16x8x24x8x24x8_S16x8x192x192 n c h w).trans ?_
  rw [val_main_v51_apply, val_main_v50_apply, val_main_v49_apply, val_main_v48_apply, val_main_v46_apply,
    val_main_v44_apply, val_main_v45_apply, val_main_v47_apply, val_main_cst_11_apply, val_main_cst_12_apply]
  have hJ : idx_main_v44 (idx_main_v50 (blockIdx hH n c h w)) = groupIdx hH n c h w := by
    funext a; match a with | ⟨0, _⟩ => rfl | ⟨1, _⟩ => rfl | ⟨2, _⟩ => rfl | ⟨3, _⟩ => rfl
  have h15 : val_main_v43 (F := Ideal) x0 (groupIdx hH n c h w)
      = Ideal.hostReduceAdd reducesTo_S16x8x24x8x24x8_S16x8x24x24_d3_5 (val_main_v42 (F := Ideal) x0)
          (Ideal.ofBits .f32 0x00000000#32) (groupIdx hH n c h w) := rfl
  rw [hJ, h15, Ideal.ofBits_def, Ideal.ofBits_def, ofBits_sixtyfour_f32, Ideal.ofBits_zero_f32]
  exact blockGroup_apply hH (val_main_v41 (F := Ideal) x0) hy shapeCasts_S16x8x192x192_S16x8x24x8x24x8
    reducesTo_S16x8x24x8x24x8_S16x8x24x24_d3_5 64 (by norm_num) n c h w

end Cert.ReferenceIdeal.RefGroups

end
-- ==== Proof.Ref.Run.lean ====
/-
  The reference's run against the specification.

  Every weakly fair execution of the reference program terminates with its result buffer at the composed term of its
  operations, read from the argument array, and the argument unchanged. That term is the last scatter's value; with the
  four channel ranges of block sizes 1, 2, 4, 8 equal to the specification's masked ranges of their slices (every entry
  of the argument being real), the layout assembly makes it the specification's whole result. So the reference ends
  with the specification's result of its argument, and in particular leaves its argument unchanged.
-/
import proofs.«129114_j1357209666244_2_alg».proof.Defs
import proofs.«129114_j1357209666244_2_alg».proof.Proof.Gen.ReferenceIdeal.Run
import proofs.«129114_j1357209666244_2_alg».proof.Proof.Gen.ReferenceIdeal.Read
import proofs.«129114_j1357209666244_2_alg».proof.Proof.Gen.Pre_finite_inputs
import proofs.«129114_j1357209666244_2_alg».proof.Proof.Asm.Reference
import proofs.«129114_j1357209666244_2_alg».proof.Proof.Ref.G1
import proofs.«129114_j1357209666244_2_alg».proof.Proof.Ref.G2
import proofs.«129114_j1357209666244_2_alg».proof.Proof.Ref.G4
import proofs.«129114_j1357209666244_2_alg».proof.Proof.Ref.G8

noncomputable section

namespace Cert.ReferenceIdeal.RefRun

open Cert.ReferenceIdeal Cert.ReferenceIdeal.Gen Idealize.ShloMosaic Idealize.ShloMosaic.TcCoe Idealize.SL.Sem
  Idealize.ShloMosaic.StableHlo

/-- The composed term of the reference's operations is the specification's result of the argument, when every entry
    of the argument is real. -/
theorem res_G (m : (ℓ : Loc nD τ sig) → Buf (Elt Ideal) ℓ) (c : Dev nD)
    (hfin : Cert.Spec.Finite (m ((c.tc : Thread nD τ).loc main_arg0))) :
    Cert.ReferenceIdeal.Value.res_main_v54 (F := Ideal) m c = Cert.Spec.G (m ((c.tc : Thread nD τ).loc main_arg0)) := by
  rw [Cert.ReferenceIdeal.Read.val_main_v54_eq]
  exact Cert.Asm.v54_eq_G _ (RefGroups.v10_eq _ hfin) (RefGroups.v24_eq _ hfin) (RefGroups.v38_eq _ hfin)
    (RefGroups.v52_eq _ hfin)

/-- From a memory whose argument arrays hold reals only, the reference terminates with the specification's result of
    its argument in its result buffer, and the argument unchanged. -/
theorem run_G (m : (ℓ : Loc nD τ sig) → Buf (Elt Ideal) ℓ) (ρ : Dev nD → PrngReg)
    (hfin : ∀ c : Dev nD, Cert.Spec.Finite (m ((c.tc : Thread nD τ).loc main_arg0))) :
    θ_run (Cert.ReferenceIdeal.defs (F := Ideal)) (onTc (τ := τ) (main (F := Ideal))) ⟨m, fun _ => 0, ρ⟩
      (fun r => ∀ c : Dev nD,
        r.2.mem ((c.tc : Thread nD τ).loc main_v54) = Cert.Spec.G (m ((c.tc : Thread nD τ).loc main_arg0))
        ∧ r.2.mem ((c.tc : Thread nD τ).loc main_arg0) = m ((c.tc : Thread nD τ).loc main_arg0)) :=
  (θ_run (Cert.ReferenceIdeal.defs (F := Ideal)) _ _).mono
    (fun _ h c => ⟨(h c).1.trans (res_G m c (hfin c)), (h c).2⟩)
    (Cert.ReferenceIdeal.Value.run (F := Ideal) m ρ)

/-- The reference runs and leaves its argument arrays unchanged. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

end Cert.ReferenceIdeal.RefRun

end
-- ==== Proof.Asm.Finite.lean ====
/-
  The precondition read back: when every entry's absolute value is below +∞, every entry is a real number.
-/
import proofs.«129114_j1357209666244_2_alg».proof.Pre_finite_inputs
import proofs.«129114_j1357209666244_2_alg».proof.Proof.Gen.Pre_finite_inputs
import proofs.«129114_j1357209666244_2_alg».proof.Proof.Spec
import Idealize.ShloMosaic.Lib.ReduceAll

noncomputable section

namespace Cert.Asm

open Idealize.ShloMosaic Idealize.ShloMosaic.ValueIdx

/-- The scalar shape has one index. -/
instance : Subsingleton (Cert.Pre_finite_inputs.S_).Idx := ⟨fun a b => funext fun d => d.elim0⟩

/-- The pattern with an all-ones exponent, a zero fraction and a clear sign bit is +∞. -/
theorem ofBits_inf : Ideal.ofBits .f32 0x7F800000#32 = ⊤ := by
  simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The precondition "all `|x| < +∞`" holds only of arrays of real numbers. -/
theorem finite_of_pre (x : (⟨Cert.Pre_finite_inputs.S16x64x192x192, .f32⟩ : BufTy).Contents (Elt Ideal))
    (h : Cert.Pre_finite_inputs.fn (F := Ideal) x = (fun _ => 1#1)) : Cert.Spec.Finite x := by
  intro i
  have h0 := congrFun h ix0
  dsimp only [Cert.Pre_finite_inputs.fn] at h0
  have hi := Host.reduce_andi_all _ _ _ _ _ h0 i
  change Ideal.cmp .olt (max (x i) (-(x i))) (Ideal.ofBits .f32 0x7F800000#32) = 1#1 at hi
  rw [ofBits_inf] at hi
  refine real_of_abs_lt_top (x i) ?_
  by_contra hn
  have hz : Ideal.cmp .olt (max (x i) (-(x i))) ⊤ = 0#1 := by
    show BitVec.ofBool (decide (max (x i) (-(x i)) < ⊤)) = 0#1
    rw [decide_eq_false hn]; rfl
  rw [hz] at hi
  exact absurd hi (by decide)

end Cert.Asm

end
-- ==== Proof.lean ====
/-
  The certificate's claims.

  Both kernels' frames: @main is five stretches of host operations (channel-range slices of the argument, and at
  the end the concatenation of the results) around four kernel regions, each region's body loading one batch
  entry of its channel range whole and storing one whole block; no stretch and no region writes the argument.
  The ledger of the ideal pass is empty. At the extended reals, from memories that agree on an argument of real
  numbers, the idealized kernel and the idealized reference both end with the result array at one function of the
  argument: channels 0–15, 16–31, 32–47 and 48–55 hold each entry times the indicator that the sum of its
  1 × 1, 2 × 2, 4 × 4, 8 × 8 group is positive, channels 56–63 the argument's entries. On the kernel's side the
  group sums are products with one-hot matrices and the sign test is of the sum times 1/4, 1/16, 1/64; on the
  reference's side the group sums are two-axis sums of a reshaped array and the sign test is of the sum divided
  by 1, 4, 16, 64; a real number times a positive constant is positive exactly when the number is.
-/
import proofs.«129114_j1357209666244_2_alg».proof.Defs
import proofs.«129114_j1357209666244_2_alg».proof.Proof.Gen.Kernel
import proofs.«129114_j1357209666244_2_alg».proof.Proof.Gen.KernelIdeal
import proofs.«129114_j1357209666244_2_alg».proof.Proof.Gen.ReferenceIdeal
import proofs.«129114_j1357209666244_2_alg».proof.Proof.Gen.ReferenceIdeal.Run
import proofs.«129114_j1357209666244_2_alg».proof.Proof.Gen.ReferenceIdeal.Read
import proofs.«129114_j1357209666244_2_alg».proof.Proof.Gen.Pre_finite_inputs
import proofs.«129114_j1357209666244_2_alg».proof.Proof.KB.Frame
import proofs.«129114_j1357209666244_2_alg».proof.Proof.KI.Frame
import proofs.«129114_j1357209666244_2_alg».proof.Proof.KI.Value
import proofs.«129114_j1357209666244_2_alg».proof.Proof.Ref.Run
import proofs.«129114_j1357209666244_2_alg».proof.Proof.Asm.Finite

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- Both idealized programs end at the specification of the argument array, read at memories that agree on it. -/
theorem algebraic : Cert.algebraic_KernelIdeal_ReferenceIdeal := by
  intro m ρ m' ρ' hpre hagree
  have hfin : ∀ c : Dev Cert.KernelIdeal.nD, Cert.Spec.Finite (C := 64) (m ((c.tc : Thread Cert.KernelIdeal.nD Cert.KernelIdeal.τ).loc Cert.KernelIdeal.main_arg0)) :=
    fun c => Cert.Asm.finite_of_pre _ (hpre c)
  refine ⟨fun c => Cert.Spec.G (m ((c.tc : Thread Cert.KernelIdeal.nD Cert.KernelIdeal.τ).loc Cert.KernelIdeal.main_arg0)),
    Cert.KernelIdeal.Fr.run_G m ρ hfin, ?_⟩
  have hfin' : ∀ c : Dev Cert.ReferenceIdeal.nD, Cert.Spec.Finite (C := 64) (m' ((c.tc : Thread Cert.ReferenceIdeal.nD Cert.ReferenceIdeal.τ).loc Cert.ReferenceIdeal.main_arg0)) :=
    fun c => by rw [hagree c]; exact hfin c
  refine (θ_run (Cert.ReferenceIdeal.defs (F := Ideal)) _ _).mono (fun r h c => ⟨(h c).1.trans ?_, (h c).2⟩)
    (Cert.ReferenceIdeal.RefRun.run_G m' ρ' hfin')
  rw [hagree c]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, trivial, algebraic⟩

end Cert.Proof

end
